-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536 : Shape := ⟨2, ![16, 65536]⟩
abbrev S16x1024x1024 : Shape := ⟨3, ![16, 1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S16x65536 : S_.BroadcastsInDim S16x65536 (![] : Fin 0 → Fin S16x65536.rank)
  reducesTo_S16x65536_S_d0_1 : S16x65536.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg2 : FVec F S16x1024x1024 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_cst_20 : FVec F S_ .f32 := constant S_ .f32 0x00000000#32
  let main_v54 : FVec F S16x1024x1024 .f32 := broadcastInDim S16x1024x1024 ![] bcast_S_S16x1024x1024 main_cst_20
  let main_v55 : IVec S16x1024x1024 1 := cmpf .oge main_arg2 main_v54
  let main_c_21 : IVec S_ 1 := constantI S_ 1 1#1
  let main_v56 : IVec S_ 1 := (fun x v => Host.reduce IntOp.andi x v reducesTo_S16x1024x1024_S_d0_1_2 h_S_) main_v55 main_c_21
  let main_v57 : IVec S_ 1 := andi main_v53 main_v56
  main_v57

def fn_part2 {F : FTy → Type} [FloatOps F] (main_arg2 : FVec F S16x1024x1024 .f32) (main_arg7 : FVec F S384x64 .f32) (main_arg8 : FVec F S64 .f32) (main_arg9 : FVec F S384x64 .f32) (main_arg10 : FVec F S64 .f32) (main_v33 : IVec S_ 1) : IVec S_ 1 :=
  let main_v34 : FVec F S384x64 .f32 := Host.absf main_arg7
  let main_cst_12 : FVec F S_ .f32 := constant S_ .f32 0x7F800000#32
  let main_v35 : FVec F S384x64 .f32 := broadcastInDim S384x64 ![] bcast_S_S384x64 main_cst_12
  let main_v36 : IVec S384x64 1 := cmpf .olt main_v34 main_v35
  let main_c_13 : IVec S_ 1 := constantI S_ 1 1#1
  let main_v37 : IVec S_ 1 := (fun x v => Host.reduce IntOp.andi x v reducesTo_S384x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg2 main_v48 main_v49 main_v50

def fn_part1 {F : FTy → Type} [FloatOps F] (main_arg2 : FVec F S16x1024x1024 .f32) (main_arg4 : FVec F S128 .f32) (main_arg5 : FVec F S384x128 .f32) (main_arg6 : FVec F S128 .f32) (main_arg7 : FVec F S384x64 .f32) (main_arg8 : FVec F S64 .f32) (main_arg9 : FVec F S384x64 .f32) (main_arg10 : FVec F S64 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S384x128 .f32 := Host.absf main_arg5
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg7 main_arg8 main_arg9 main_arg10 main_v33

def fn {F : FTy → Type} [FloatOps F] (main_arg0 : FVec F S16x65536 .f32) (main_arg1 : FVec F S16x65536 .f32) (main_arg2 : FVec F S16x1024x1024 .f32) (main_arg3 : FVec F S384x128 .f32) (main_arg4 : FVec F S128 .f32) (main_arg5 : FVec F S384x128 .f32) (main_arg6 : FVec F S128 .f32) (main_arg7 : FVec F S384x64 .f32) (main_arg8 : FVec F S64 .f32) (main_arg9 : FVec F S384x64 .f32) (main_arg10 : FVec F S64 .f32) : IVec S_ 1 :=
  let main_v0 : FVec F S16x65536 .f32 := Host.absf main_arg0
  let main_cst : FVec F S_ .f32 := constant S_ .f32 0x7F800000#32
  let main_v1 : FVec F S16x65536 .f32 := broadcastInDim S16x65536 ![] bcast_S_S16x65536 main_cst
  let main_v2 : IVec S16x65536 1 := cmpf .olt main_v0 main_v1
  let main_c : IVec S_ 1 := constantI S_ 1 1#1
  let main_v3 : IVec S_ 1 := (fun x v => Host.reduce IntOp.andi x v reducesTo_S16x65536_S_d0_1 h_S_) main_v2 main_c
  let main_v4 : FVec F S16x65536 .f32 := Host.absf main_arg1
  let main_cst_0 : FVec F S_ .f32 := constant S_ .f32 0x7F800000#32
  let main_v5 : FVec F S16x65536 .f32 := broadcastInDim S16x65536 ![] bcast_S_S16x65536 main_cst_0
  let main_v6 : IVec S16x65536 1 := cmpf .olt main_v4 main_v5
  let main_c_1 : IVec S_ 1 := constantI S_ 1 1#1
  let main_v7 : IVec S_ 1 := (fun x v => Host.reduce IntOp.andi x v reducesTo_S16x65536_S_d0_1 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S384x128 .f32 := Host.absf main_arg3
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg2 main_arg4 main_arg5 main_arg6 main_arg7 main_arg8 main_arg9 main_arg10 main_v13 main_v16
-- ==== Kernel.lean ====
abbrev S16x65536 : Shape := ⟨2, ![16, 65536]⟩
abbrev S16x1024x1024 : Shape := ⟨3, ![16, 1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S16x1024x64 : Shape := ⟨3, ![16, 1024, 64]⟩
abbrev S16x1024x128 : Shape := ⟨3, ![16, 1024, 128]⟩
abbrev S128x3x128 : Shape := ⟨3, ![128, 3, 128]⟩
abbrev S128x1x128 : Shape := ⟨3, ![128, 1, 128]⟩
abbrev S128x128 : Shape := ⟨2, ![128, 128]⟩
abbrev S1x128 : Shape := ⟨2, ![1, 128]⟩
abbrev S128x3x64 : Shape := ⟨3, ![128, 3, 64]⟩
abbrev S128x1x64 : Shape := ⟨3, ![128, 1, 64]⟩
abbrev S128x64 : Shape := ⟨2, ![128, 64]⟩
abbrev S1x64 : Shape := ⟨2, ![1, 64]⟩
abbrev S1x1024x1024 : Shape := ⟨3, ![1, 1024, 1024]⟩
abbrev S1x1024x128 : Shape := ⟨3, ![1, 1024, 128]⟩
abbrev S1x1024x64 : Shape := ⟨3, ![1, 1024, 64]⟩
abbrev S1024x1024 : Shape := ⟨2, ![1024, 1024]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩

abbrev nBuf : Space → Nat
  | .hbm => 60
  | .vmem => 16
  | .smem => 0
  | _ => 0

abbrev bufTy : (tb : Table) → Fin (tcTables nBuf tb) → BufTy
  | .hbm, ⟨0, _⟩ => ⟨S16x65536, .f32⟩
  | .hbm, ⟨1, _⟩ => ⟨S16x65536, .f32⟩
  | .hbm, ⟨2, _⟩ => ⟨S16x1024x1024, .f32⟩
  | .hbm, ⟨3, _⟩ => ⟨S384x128, .f32⟩
  | .hbm, ⟨4, _⟩ => ⟨S128, .f32⟩
  | .hbm, ⟨5, _⟩ => ⟨S384x128, .f32⟩
  | .hbm, ⟨6, _⟩ => ⟨S128, .f32⟩
  | .hbm, ⟨7, _⟩ => ⟨S384x64, .f32⟩
  | .hbm, ⟨8, _⟩ => ⟨S64, .f32⟩
  | .hbm, ⟨9, _⟩ => ⟨S384x64, .f32⟩
  | .hbm, ⟨10, _⟩ => ⟨S64, .f32⟩
  | .hbm, ⟨11, _⟩ => ⟨S16x1024x64, .f32⟩
  | .hbm, ⟨12, _⟩ => ⟨S16x1024x64, .f32⟩
  | .hbm, ⟨13, _⟩ => ⟨S16x1024x128, .f32⟩
  | .hbm, ⟨14, _⟩ => ⟨S128x3x128, .f32⟩
  | .hbm, ⟨15, _⟩ => ⟨S128x1x128, .f32⟩
  | .hbm, ⟨16, _⟩ => ⟨S128x128, .f32⟩
  | .hbm, ⟨17, _⟩ => ⟨S128x1x128, .f32⟩
  | .hbm, ⟨18, _⟩ => ⟨S128x128, .f32⟩
  | .hbm, ⟨19, _⟩ => ⟨S128x1x128, .f32⟩
  | .hbm, ⟨20, _⟩ => ⟨S128x128, .f32⟩
  | .hbm, ⟨21, _⟩ => ⟨S128x128, .f32⟩
  | .hbm, ⟨22, _⟩ => ⟨S128x3x128, .f32⟩
  | .hbm, ⟨23, _⟩ => ⟨S128x1x128, .f32⟩
  | .hbm, ⟨24, _⟩ => ⟨S128x128, .f32⟩
  | .hbm, ⟨25, _⟩ => ⟨S128x1x128, .f32⟩
  | .hbm, ⟨26, _⟩ => ⟨S128x128, .f32⟩
  | .hbm, ⟨27, _⟩ => ⟨S128x1x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .bf16⟩
  | .hbm, ⟨32, _⟩ => ⟨S128x128, .bf16⟩
  | .hbm, ⟨33, _⟩ => ⟨S128x128, .bf16⟩
  | .hbm, ⟨34, _⟩ => ⟨S128, .f32⟩
  | .hbm, ⟨35, _⟩ => ⟨S1x128, .f32⟩
  | .hbm, ⟨36, _⟩ => ⟨S128x3x64, .f32⟩
  | .hbm, ⟨37, _⟩ => ⟨S128x1x64, .f32⟩
  | .hbm, ⟨38, _⟩ => ⟨S128x64, .f32⟩
  | .hbm, ⟨39, _⟩ => ⟨S128x1x64, .f32⟩
  | .hbm, ⟨40, _⟩ => ⟨S128x64, .f32⟩
  | .hbm, ⟨41, _⟩ => ⟨S128x1x64, .f32⟩
  | .hbm, ⟨42, _⟩ => ⟨S128x64, .f32⟩
  | .hbm, ⟨43, _⟩ => ⟨S128x64, .f32⟩
  | .hbm, ⟨44, _⟩ => ⟨S128x3x64, .f32⟩
  | .hbm, ⟨45, _⟩ => ⟨S128x1x64, .f32⟩
  | .hbm, ⟨46, _⟩ => ⟨S128x64, .f32⟩
  | .hbm, ⟨47, _⟩ => ⟨S128x1x64, .f32⟩
  | .hbm, ⟨48, _⟩ => ⟨S128x64, .f32⟩
  | .hbm, ⟨49, _⟩ => ⟨S128x1x64, .f32⟩
  | .hbm, ⟨50, _⟩ => ⟨S128x64, .f32⟩
  | .hbm, ⟨51, _⟩ => ⟨S128x64, .f32⟩
  | .hbm, ⟨52, _⟩ => ⟨S128x64, .f32⟩
  | .hbm, ⟨53, _⟩ => ⟨S128x64, .bf16⟩
  | .hbm, ⟨54, _⟩ => ⟨S128x64, .bf16⟩
  | .hbm, ⟨55, _⟩ => ⟨S128x64, .bf16⟩
  | .hbm, ⟨56, _⟩ => ⟨S64, .f32⟩
  | .hbm, ⟨57, _⟩ => ⟨S1x64, .f32⟩
  | .hbm, ⟨58, _⟩ => ⟨S16x1024x64, .f32⟩
  | .hbm, ⟨59, _⟩ => ⟨S16x65536, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x64, .f32⟩
  | .local _ .vmem, ⟨5, _⟩ => ⟨S1x1024x64, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x64, .bf16⟩
  | .local _ .vmem, ⟨11, _⟩ => ⟨S128x64, .bf16⟩
  | .local _ .vmem, ⟨12, _⟩ => ⟨S128x64, .bf16⟩
  | .local _ .vmem, ⟨13, _⟩ => ⟨S1x64, .f32⟩
  | .local _ .vmem, ⟨14, _⟩ => ⟨S1x1024x64, .f32⟩
  | .local _ .vmem, ⟨15, _⟩ => ⟨S1x1024x64, .f32⟩
  | _, _ => ⟨S16x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16x65536_S16x1024x64 : S16x65536.ShapeCasts S16x1024x64
  concatenates_S16x1024x64_S16x1024x64_S16x1024x128_d2 : Shape.Concatenates [S16x1024x64, S16x1024x64] S16x1024x128 2
  shapeCasts_S384x128_S128x3x128 : S384x128.ShapeCasts S128x3x128
  slices_S128x3x128_S128x1x128_0_0_0 : S128x3x128.Slices ![0, 0, 0] S128x1x128
  shapeCasts_S128x1x128_S128x128 : S128x1x128.ShapeCasts S128x128
  slices_S128x3x128_S128x1x128_0_1_0 : S128x3x128.Slices ![0, 1, 0] S128x1x128
  slices_S128x3x128_S128x1x128_0_2_0 : S128x3x128.Slices ![0, 2, 0] S128x1x128
  bitsLt_bf16_f32 : FTy.bits .bf16 < FTy.bits .f32
  shapeCasts_S128_S1x128 : S128.ShapeCasts S1x128
  shapeCasts_S384x64_S128x3x64 : S384x64.ShapeCasts S128x3x64
  slices_S128x3x64_S128x1x64_0_0_0 : S128x3x64.Slices ![0, 0, 0] S128x1x64
  shapeCasts_S128x1x64_S128x64 : S128x1x64.ShapeCasts S128x64
  slices_S128x3x64_S128x1x64_0_1_0 : S128x3x64.Slices ![0, 1, 0] S128x1x64
  slices_S128x3x64_S128x1x64_0_2_0 : S128x3x64.Slices ![0, 2, 0] S128x1x64
  shapeCasts_S64_S1x64 : S64.ShapeCasts S1x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [0] S1024
  shapeCasts_S1024_S1024x1 : S1024.ShapeCasts S1024x1
  reduces_S1024x1024_S1024_2 : S1024x1024.Reduces [1] S1024
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S1024x128_o0_0_S1024x64 : S1024x128.Slices ![0, 0] S1024x64
  slices_S1024x128_o0_64_S1024x64 : S1024x128.Slices ![0, 64] S1024x64
  concatenates_S1024x64_S1024x64_S1024x128_d1 : Shape.Concatenates [S1024x64, S1024x64] S1024x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S1024x64_S1x1024x64 : S1024x64.ShapeCasts S1x1024x64
  shapeCasts_S16x1024x64_S16x65536 : S16x1024x64.ShapeCasts S16x65536
  dot_S1024x1024_S1024x128_S1024x128_1_0_0_1_n_n_wf : DotDims.WF S1024x1024 S1024x128 S1024x128 [1] [0] [0] [1] [] []
  dot_S1024x1024_S1024x128_S1024x128_0_0_1_1_n_n_wf : DotDims.WF S1024x1024 S1024x128 S1024x128 [0] [0] [1] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .f32 = 32 ∨ (Rect.block (s := S16x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x1024x128.size a
  hwx0_1 : ∀ i : grid0.Coords, EltTy.bits .f32 = 32 ∨ (Rect.block (s := S16x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x1024x64.size a
  hwx0_2 : ∀ i : grid0.Coords, EltTy.bits .f32 = 32 ∨ (Rect.block (s := S16x1024x64) S1x1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .bf16 = 32 ∨ (Rect.block (s := S128x64) S128x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x64.size a ≤ S16x1024x64.size a
  hwx0_11 : ∀ i : grid0.Coords, EltTy.bits .f32 = 32 ∨ (Rect.block (s := S16x1024x64) S1x1024x64.size (cc0_transform_11 i) (hinb0_11 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg2) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v42) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v43) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v47) S1x1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x65536 : Shape := ⟨2, ![16, 65536]⟩
abbrev S16x1024x1024 : Shape := ⟨3, ![16, 1024, 1024]⟩
abbrev S384x128 : Shape := ⟨2, ![384, 128]⟩
abbrev S128 : Shape := ⟨1, ![128]⟩
abbrev S384x64 : Shape := ⟨2, ![384, 64]⟩
abbrev S64 : Shape := ⟨1, ![64]⟩
abbrev S1024x1024 : Shape := ⟨2, ![1024, 1024]⟩
abbrev S_ : Shape := ⟨0, ![]⟩
abbrev S1x1024x1024 : Shape := ⟨3, ![1, 1024, 1024]⟩
abbrev S16x1024 : Shape := ⟨2, ![16, 1024]⟩
abbrev S16x1024x1 : Shape := ⟨3, ![16, 1024, 1]⟩
abbrev S16x1024x64 : Shape := ⟨3, ![16, 1024, 64]⟩
abbrev S16x1024x128 : Shape := ⟨3, ![16, 1024, 128]⟩
abbrev S16x1024x128x1 : Shape := ⟨4, ![16, 1024, 128, 1]⟩
abbrev S16x1024x128x3 : Shape := ⟨4, ![16, 1024, 128, 3]⟩
abbrev S16384x384 : Shape := ⟨2, ![16384, 384]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S16x65536, .f32⟩
  | 1 => ⟨S16x65536, .f32⟩
  | 2 => ⟨S16x1024x1024, .f32⟩
  | 3 => ⟨S384x128, .f32⟩
  | 4 => ⟨S128, .f32⟩
  | 5 => ⟨S384x128, .f32⟩
  | 6 => ⟨S128, .f32⟩
  | 7 => ⟨S384x64, .f32⟩
  | 8 => ⟨S64, .f32⟩
  | 9 => ⟨S384x64, .f32⟩
  | 10 => ⟨S64, .f32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S1024x1024, .i1⟩
  | 17 => ⟨S1024x1024, .f32⟩
  | 18 => ⟨S1x1024x1024, .f32⟩
  | 19 => ⟨S16x1024x1024, .f32⟩
  | 20 => ⟨S16x1024x1024, .f32⟩
  | 21 => ⟨S_, .f32⟩
  | 22 => ⟨S16x1024, .f32⟩
  | 23 => ⟨S_, .f32⟩
  | 24 => ⟨S16x1024, .f32⟩
  | 25 => ⟨S16x1024, .i1⟩
  | 26 => ⟨S_, .f32⟩
  | 27 => ⟨S16x1024, .f32⟩
  | 28 => ⟨S_, .f32⟩
  | 29 => ⟨S16x1024, .f32⟩
  | 30 => ⟨S16x1024, .f32⟩
  | 31 => ⟨S16x1024, .f32⟩
  | 32 => ⟨S16x1024x1, .f32⟩
  | 33 => ⟨S16x1024x1024, .f32⟩
  | 34 => ⟨S16x1024x1024, .f32⟩
  | 35 => ⟨S16x1024x1024, .f32⟩
  | 36 => ⟨S1024x1024, .i32⟩
  | 37 => ⟨S1024x1024, .i32⟩
  | 38 => ⟨S_, .i32⟩
  | 39 => ⟨S1024x1024, .i32⟩
  | 40 => ⟨S1024x1024, .i32⟩
  | 41 => ⟨S1024x1024, .i1⟩
  | 42 => ⟨S1024x1024, .f32⟩
  | 43 => ⟨S1x1024x1024, .f32⟩
  | 44 => ⟨S16x1024x1024, .f32⟩
  | 45 => ⟨S16x1024x1024, .f32⟩
  | 46 => ⟨S_, .f32⟩
  | 47 => ⟨S16x1024, .f32⟩
  | 48 => ⟨S_, .f32⟩
  | 49 => ⟨S16x1024, .f32⟩
  | 50 => ⟨S16x1024, .i1⟩
  | 51 => ⟨S_, .f32⟩
  | 52 => ⟨S16x1024, .f32⟩
  | 53 => ⟨S_, .f32⟩
  | 54 => ⟨S16x1024, .f32⟩
  | 55 => ⟨S16x1024, .f32⟩
  | 56 => ⟨S16x1024, .f32⟩
  | 57 => ⟨S16x1024x1, .f32⟩
  | 58 => ⟨S16x1024x1024, .f32⟩
  | 59 => ⟨S16x1024x1024, .f32⟩
  | 60 => ⟨S16x1024x64, .f32⟩
  | 61 => ⟨S16x1024x64, .f32⟩
  | 62 => ⟨S16x1024x128, .f32⟩
  | 63 => ⟨S16x1024x128, .f32⟩
  | 64 => ⟨S16x1024x128, .f32⟩
  | 65 => ⟨S16x1024x128x1, .f32⟩
  | 66 => ⟨S16x1024x128x1, .f32⟩
  | 67 => ⟨S16x1024x128x1, .f32⟩
  | 68 => ⟨S16x1024x128x3, .f32⟩
  | 69 => ⟨S16384x384, .f32⟩
  | 70 => ⟨S16x1024x128, .f32⟩
  | 71 => ⟨S16x1024x128, .f32⟩
  | 72 => ⟨S16x1024x128x1, .f32⟩
  | 73 => ⟨S16x1024x128x1, .f32⟩
  | 74 => ⟨S16x1024x128x1, .f32⟩
  | 75 => ⟨S16x1024x128x3, .f32⟩
  | 76 => ⟨S16384x384, .f32⟩
  | 77 => ⟨S16384x128, .f32⟩
  | 78 => ⟨S1x128, .f32⟩
  | 79 => ⟨S16384x128, .f32⟩
  | 80 => ⟨S16384x128, .f32⟩
  | 81 => ⟨S16384x128, .f32⟩
  | 82 => ⟨S1x128, .f32⟩
  | 83 => ⟨S16384x128, .f32⟩
  | 84 => ⟨S16384x128, .f32⟩
  | 85 => ⟨S16384x128, .f32⟩
  | 86 => ⟨S16384x128, .f32⟩
  | 87 => ⟨S16384x128, .f32⟩
  | 88 => ⟨S_, .f32⟩
  | 89 => ⟨S16384x128, .f32⟩
  | 90 => ⟨S16384x128, .f32⟩
  | 91 => ⟨S_, .f32⟩
  | 92 => ⟨S16384x128, .f32⟩
  | 93 => ⟨S16384x128, .f32⟩
  | 94 => ⟨S16x1024x128, .f32⟩
  | 95 => ⟨S16x1024x64, .f32⟩
  | 96 => ⟨S16x65536, .f32⟩
  | 97 => ⟨S16x1024x64, .f32⟩
  | 98 => ⟨S16x65536, .f32⟩
  | 99 => ⟨S16x65536, .f32⟩
  | 100 => ⟨S16x1024x64, .f32⟩
  | 101 => ⟨S16x1024x64, .f32⟩
  | 102 => ⟨S16x1024x128, .f32⟩
  | 103 => ⟨S16x1024x128, .f32⟩
  | 104 => ⟨S16x1024x128, .f32⟩
  | 105 => ⟨S16x1024x128x1, .f32⟩
  | 106 => ⟨S16x1024x128x1, .f32⟩
  | 107 => ⟨S16x1024x128x1, .f32⟩
  | 108 => ⟨S16x1024x128x3, .f32⟩
  | 109 => ⟨S16384x384, .f32⟩
  | 110 => ⟨S16x1024x128, .f32⟩
  | 111 => ⟨S16x1024x128, .f32⟩
  | 112 => ⟨S16x1024x128x1, .f32⟩
  | 113 => ⟨S16x1024x128x1, .f32⟩
  | 114 => ⟨S16x1024x128x1, .f32⟩
  | 115 => ⟨S16x1024x128x3, .f32⟩
  | 116 => ⟨S16384x384, .f32⟩
  | 117 => ⟨S16384x64, .f32⟩
  | 118 => ⟨S1x64, .f32⟩
  | 119 => ⟨S16384x64, .f32⟩
  | 120 => ⟨S16384x64, .f32⟩
  | 121 => ⟨S16384x64, .f32⟩
  | 122 => ⟨S1x64, .f32⟩
  | 123 => ⟨S16384x64, .f32⟩
  | 124 => ⟨S16384x64, .f32⟩
  | 125 => ⟨S16384x64, .f32⟩
  | 126 => ⟨S16384x64, .f32⟩
  | 127 => ⟨S16x65536, .f32⟩
  | _ => ⟨S16x65536, .f32⟩

abbrev hbmTy0_1 (i : Nat) : BufTy := match i % 128 with
  | 0 => ⟨S16x65536, .f32⟩
  | 1 => ⟨S_, .f32⟩
  | 2 => ⟨S16x65536, .f32⟩
  | 3 => ⟨S16x65536, .f32⟩
  | 4 => ⟨S16x65536, .f32⟩
  | 5 => ⟨S16x65536, .f32⟩
  | _ => ⟨S16x65536, .f32⟩

abbrev hbmTy (i : Nat) : BufTy := match i / 128 with
  | 0 => hbmTy0_0 i
  | 1 => hbmTy0_1 i
  | _ => ⟨S16x65536, .f32⟩

abbrev bufTy : (tb : Table) → Fin (tcTables nBuf tb) → BufTy
  | .hbm, ⟨i, _⟩ => hbmTy i
  | _, _ => ⟨S16x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_10 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S16x1024_d1 : S16x1024x1024.ReducesTo [1] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  transposes_S16x1024x1024_S16x1024x1024_0_2_1 : S16x1024x1024.Transposes [0, 2, 1] S16x1024x1024
  shapeCasts_S16x65536_S16x1024x64 : S16x65536.ShapeCasts S16x1024x64
  concatenates_S16x1024x64_S16x1024x64_S16x1024x128_d2 : Shape.Concatenates [S16x1024x64, S16x1024x64] S16x1024x128 2
  bcast_S16x1024x128_S16x1024x128x1_0_1_2 : S16x1024x128.BroadcastsInDim S16x1024x128x1 (![0, 1, 2] : Fin 3 → Fin S16x1024x128x1.rank)
  concatenates_S16x1024x128x1_S16x1024x128x1_S16x1024x128x1_S16x1024x128x3_d3 : Shape.Concatenates [S16x1024x128x1, S16x1024x128x1, S16x1024x128x1] S16x1024x128x3 3
  shapeCasts_S16x1024x128x3_S16384x384 : S16x1024x128x3.ShapeCasts S16384x384
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  shapeCasts_S16384x128_S16x1024x128 : S16384x128.ShapeCasts S16x1024x128
  slices_S16x1024x128_S16x1024x64_0_0_0 : S16x1024x128.Slices ![0, 0, 0] S16x1024x64
  shapeCasts_S16x1024x64_S16x65536 : S16x1024x64.ShapeCasts S16x65536
  slices_S16x1024x128_S16x1024x64_0_0_64 : S16x1024x128.Slices ![0, 0, 64] S16x1024x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S16x65536 : S16384x64.ShapeCasts S16x65536
  bcast_S_S16x65536 : S_.BroadcastsInDim S16x65536 (![] : Fin 0 → Fin S16x65536.rank)
  dot_S16x1024x1024_S16x1024x128_S16x1024x128_2_1_1_2_0_0_wf : DotDims.WF S16x1024x1024 S16x1024x128 S16x1024x128 [2] [1] [1] [2] [0] [0]
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []

variable [Facts₀]

def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf

class Facts : Prop extends Facts₀ where

variable [Facts]
-- ==== Proof.CellSpec.lean ====
/-
  The recurrent graph cell, one batch element at a time, over the extended reals, written twice.

  One batch element has an adjacency matrix `a` (1024 × 1024), node features `x` (1024 × 128: 64 input
  columns then 64 state columns), and per gate two weight matrices of 384 = 128 · 3 rows (feature major,
  diffusion term minor) with a bias each.

  * The FUSED form: the two degree vectors are column sums and row sums of `a` plus one, inverted without a guard;
    one diffusion hop is `inv · (a·x + x)` (and the same with `a` transposed); the three diffusion terms of the
    plain form, of which the last two coincide, are folded into the weights, and the two graphs' term-0 weights and
    biases are added before the products.
  * The PLAIN form: `a + I` is normalised by its column sums, guarded at zero, into a random-walk matrix (and the
    same for the transpose); the hop is a matrix product; `x, hop, hop` are interleaved into 384 columns and
    multiplied by the full weight matrix, once per graph, each with its bias.

  The cell itself is the same on both sides: gates `σ(conv [inp, h])`, candidate `tanh(conv [inp, r·h])`,
  new state `u·h + (1 − u)·c`.
-/
import Idealize.ShloMosaic.PureOps.Ideal
import Idealize.ShloMosaic.Lib.ValueIdx

noncomputable section

open Idealize.ShloMosaic Idealize.ShloMosaic.ValueIdx

namespace GruCell

/-- Row `3 f + t` of a weight matrix: feature `f`, diffusion term `t`. -/
def row3 (f : Fin 128) (t : Fin 3) : Fin 384 := ⟨3 * f.val + t.val, by omega⟩

section conv

variable (a : Fin 1024 → Fin 1024 → EReal) (x : Fin 1024 → Fin 128 → EReal)
variable {O : Nat} (V0 V1 : Fin 384 → Fin O → EReal) (c0 c1 : Fin O → EReal)

/-! ### The fused form -/

/-- Inverse of (column sum + 1). -/
def fInv0 (n : Fin 1024) : EReal := Ideal.div 1 ((∑ i : Fin 1024, a i n) + 1)
/-- Inverse of (row sum + 1). -/
def fInv1 (n : Fin 1024) : EReal := Ideal.div 1 ((∑ j : Fin 1024, a n j) + 1)
/-- One hop along the graph: `inv₀ n · ((a x) n f + x n f)`. -/
def fHop0 (n : Fin 1024) (f : Fin 128) : EReal := fInv0 a n * ((∑ j : Fin 1024, a n j * x j f) + x n f)
/-- One hop along the transposed graph: `inv₁ n · ((aᵀ x) n f + x n f)`. -/
def fHop1 (n : Fin 1024) (f : Fin 128) : EReal := fInv1 a n * ((∑ j : Fin 1024, a j n * x j f) + x n f)
/-- The graph convolution over three already combined 128-row weight matrices and one bias:
    `x·Wa + hop₀·Wb + hop₁·Wc + bias`. -/
def fConvW (Wa Wb Wc : Fin 128 → Fin O → EReal) (bias : Fin O → EReal) (n : Fin 1024) (o : Fin O) : EReal :=
  (((∑ f : Fin 128, x n f * Wa f o)
    + (∑ f : Fin 128, fHop0 a x n f * Wb f o))
    + (∑ f : Fin 128, fHop1 a x n f * Wc f o))
    + bias o
/-- The graph convolution with the repeated diffusion term folded into the weights: the two graphs' term-0 rows
    added, each graph's term-1 and term-2 rows added, the two biases added. -/
def fConv (n : Fin 1024) (o : Fin O) : EReal :=
  fConvW a x (fun f o => V0 (row3 f 0) o + V1 (row3 f 0) o) (fun f o => V0 (row3 f 1) o + V0 (row3 f 2) o)
    (fun f o => V1 (row3 f 1) o + V1 (row3 f 2) o) (fun o => c0 o + c1 o) n o

/-! ### The plain form -/

/-- The identity matrix. -/
def delta (i j : Fin 1024) : EReal := if i = j then 1 else 0
/-- `a + I`. -/
def pSelf (i j : Fin 1024) : EReal := a i j + delta i j
/-- Column sums of `a + I`. -/
def pDeg (j : Fin 1024) : EReal := ∑ i : Fin 1024, pSelf a i j
/-- Their inverses, zero where the sum is zero. -/
def pInv (n : Fin 1024) : EReal := if pDeg a n = 0 then 0 else Ideal.div 1 (pDeg a n)
/-- The random-walk matrix: row `i` of `a + I` scaled by `pInv i`. -/
def pWalk (i j : Fin 1024) : EReal := pInv a i * pSelf a i j
/-- One hop: the random-walk matrix times the features. -/
def pHop (n : Fin 1024) (f : Fin 128) : EReal := ∑ j : Fin 1024, pWalk a n j * x j f
/-- The three diffusion terms `x, hop, hop` interleaved: column `3 f + t`. -/
def pStack (n : Fin 1024) (k : Fin 384) : EReal :=
  if k.val % 3 = 0 then x n ⟨k.val / 3, by omega⟩ else pHop a x n ⟨k.val / 3, by omega⟩
/-- The graph convolution: one full product per graph (the second graph is the transpose), each with its bias. -/
def pConv (n : Fin 1024) (o : Fin O) : EReal :=
  ((∑ k : Fin 384, pStack a x n k * V0 k o) + c0 o)
    + ((∑ k : Fin 384, pStack (fun i j => a j i) x n k * V1 k o) + c1 o)

end conv

/-! ### The cell -/

/-- Two 64-column blocks side by side. -/
def cat (P Q : Fin 1024 → Fin 64 → EReal) (n : Fin 1024) (f : Fin 128) : EReal :=
  if h : f.val < 64 then P n ⟨f.val, h⟩ else Q n ⟨f.val - 64, by omega⟩
/-- Column `k` of the left block. -/
def lo (k : Fin 64) : Fin 128 := ⟨k.val, by omega⟩
/-- Column `k` of the right block. -/
def hi (k : Fin 64) : Fin 128 := ⟨64 + k.val, by omega⟩

theorem cat_lo (P Q : Fin 1024 → Fin 64 → EReal) (n : Fin 1024) (k : Fin 64) : cat P Q n (lo k) = P n k := by
  unfold cat lo; rw [dif_pos k.isLt]
theorem cat_hi (P Q : Fin 1024 → Fin 64 → EReal) (n : Fin 1024) (k : Fin 64) : cat P Q n (hi k) = Q n k := by
  unfold cat hi
  rw [dif_neg (by show ¬ (64 + k.val < 64); omega)]
  exact congrArg (Q n) (Fin.ext (by show 64 + k.val - 64 = k.val; omega))

/-- The gated cell over any convolution, from the 128-column features `x` (inputs left, state right) and the state
    `H`: `g = σ(conv₁₂₈ x)`, reset `r = g[:, :64]`, update `u = g[:, 64:]`, candidate
    `c = tanh(conv₆₄ [x[:, :64], r·H])`, result `u·H + (1 − u)·c`. -/
def cellX (conv128 : (Fin 1024 → Fin 128 → EReal) → Fin 1024 → Fin 128 → EReal)
    (conv64 : (Fin 1024 → Fin 128 → EReal) → Fin 1024 → Fin 64 → EReal)
    (x : Fin 1024 → Fin 128 → EReal) (H : Fin 1024 → Fin 64 → EReal) (n : Fin 1024) (k : Fin 64) : EReal :=
  Ideal.logistic (conv128 x n (hi k)) * H n k
    + (1 - Ideal.logistic (conv128 x n (hi k)))
      * Ideal.tanh (conv64 (cat (fun n k => x n (lo k)) (fun n k => Ideal.logistic (conv128 x n (lo k)) * H n k)) n k)

/-- The cell from inputs `I` and state `H`: its features are the two side by side. -/
def cell (conv128 : (Fin 1024 → Fin 128 → EReal) → Fin 1024 → Fin 128 → EReal)
    (conv64 : (Fin 1024 → Fin 128 → EReal) → Fin 1024 → Fin 64 → EReal)
    (I H : Fin 1024 → Fin 64 → EReal) (n : Fin 1024) (k : Fin 64) : EReal :=
  cellX conv128 conv64 (cat I H) H n k

/-! ### Whole arrays -/

/-- A `[16, 65536]` array read as `[16, 1024, 64]`. -/
def node (v : (⟨2, ![16, 65536]⟩ : Shape).Idx → EReal) (b : Fin 16) (n : Fin 1024) (k : Fin 64) : EReal :=
  v (ix2 b ⟨n.val * 64 + k.val, by omega⟩)
/-- Batch element `b` of the adjacency array. -/
def adjAt (adj : (⟨3, ![16, 1024, 1024]⟩ : Shape).Idx → EReal) (b : Fin 16) (i j : Fin 1024) : EReal := adj (ix3 b i j)
/-- A matrix by its two coordinates. -/
def mat {r c : Nat} (W : (⟨2, ![r, c]⟩ : Shape).Idx → EReal) (i : Fin r) (j : Fin c) : EReal := W (ix2 i j)
/-- A vector by its coordinate. -/
def vec {n : Nat} (v : (⟨1, ![n]⟩ : Shape).Idx → EReal) (i : Fin n) : EReal := v (ix1 i)

variable (inp hx : (⟨2, ![16, 65536]⟩ : Shape).Idx → EReal) (adj : (⟨3, ![16, 1024, 1024]⟩ : Shape).Idx → EReal)
  (W0 : (⟨2, ![384, 128]⟩ : Shape).Idx → EReal) (b0 : (⟨1, ![128]⟩ : Shape).Idx → EReal)
  (W1 : (⟨2, ![384, 128]⟩ : Shape).Idx → EReal) (b1 : (⟨1, ![128]⟩ : Shape).Idx → EReal)
  (Wc0 : (⟨2, ![384, 64]⟩ : Shape).Idx → EReal) (bc0 : (⟨1, ![64]⟩ : Shape).Idx → EReal)
  (Wc1 : (⟨2, ![384, 64]⟩ : Shape).Idx → EReal) (bc1 : (⟨1, ![64]⟩ : Shape).Idx → EReal)

/-- The fused cell at batch `b`, node `n`, unit `k`. -/
def fusedAt (b : Fin 16) (n : Fin 1024) (k : Fin 64) : EReal :=
  cell (fun x => fConv (adjAt adj b) x (mat W0) (mat W1) (vec b0) (vec b1))
    (fun x => fConv (adjAt adj b) x (mat Wc0) (mat Wc1) (vec bc0) (vec bc1)) (node inp b) (node hx b) n k
/-- The plain cell at batch `b`, node `n`, unit `k`. -/
def plainAt (b : Fin 16) (n : Fin 1024) (k : Fin 64) : EReal :=
  cell (fun x => pConv (adjAt adj b) x (mat W0) (mat W1) (vec b0) (vec b1))
    (fun x => pConv (adjAt adj b) x (mat Wc0) (mat Wc1) (vec bc0) (vec bc1)) (node inp b) (node hx b) n k

/-- The fused result as a `[16, 65536]` array: flat column `j` is node `j / 64`, unit `j % 64`. -/
def fusedOut : (⟨2, ![16, 65536]⟩ : Shape).Idx → EReal := fun i =>
  fusedAt inp hx adj W0 b0 W1 b1 Wc0 bc0 Wc1 bc1 ⟨(i 0).val, idx2_lt0 i⟩
    ⟨(i 1).val / 64, by have := idx2_lt1 i; omega⟩ ⟨(i 1).val % 64, by omega⟩
/-- The plain result as a `[16, 65536]` array. -/
def plainOut : (⟨2, ![16, 65536]⟩ : Shape).Idx → EReal := fun i =>
  plainAt inp hx adj W0 b0 W1 b1 Wc0 bc0 Wc1 bc1 ⟨(i 0).val, idx2_lt0 i⟩
    ⟨(i 1).val / 64, by have := idx2_lt1 i; omega⟩ ⟨(i 1).val % 64, by omega⟩

/-! ### The two float constants both programs carry -/

/-- The pattern of `1.0` denotes one. -/
theorem one_f32 : Ideal.ofBits .f32 0x3F800000#32 = 1 := by
  simp [Ideal.ofBits, Ideal.ieee, -EReal.coe_mul]; norm_num

end GruCell

end
-- ==== Proof.CellAlgebra.lean ====
/-
  The fused and the plain graph convolution agree on real data with a non-negative adjacency.

  Everything here is about extended reals that are real numbers. With `a ≥ 0` the column sums of `a + I` are at
  least one, so the plain form's guard at zero never fires and both inverses are the real `1 / (Σ + 1)`; the
  random-walk product `Σ_j inv·(a + I)_{nj}·x_{jf}` is `inv·(Σ_j a_{nj} x_{jf} + x_{nf})` by distributivity, which
  holds on the reals; the interleaved 384-column product splits, by reindexing alone, into its three 128-column
  parts, two of which carry the same hop; and adding the two graphs' products and biases is a rearrangement of a sum
  of reals.
-/
import proofs.«165569_j9328668967409_2_alg».proof.Proof.CellSpec
import Mathlib.Algebra.BigOperators.Fin
import Mathlib.Tactic

noncomputable section

open Idealize.ShloMosaic

namespace GruCell

/-! ### Coercion of finite sums, and the guarded inverse on a nonzero real -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_one_coe {d : ℝ} (hd : d ≠ 0) : Ideal.div 1 (d : EReal) = ((1 / d : ℝ) : EReal) := by
  rw [Ideal.div_coe hd, one_mul]

/-! ### The real model of one hop -/

/-- Column sum of `a` plus one. -/
def degR (ar : Fin 1024 → Fin 1024 → ℝ) (n : Fin 1024) : ℝ := (∑ i : Fin 1024, ar i n) + 1
/-- One hop on the reals: `(a x + x) / (column sum + 1)`. -/
def hopR (ar : Fin 1024 → Fin 1024 → ℝ) (xr : Fin 1024 → Fin 128 → ℝ) (n : Fin 1024) (f : Fin 128) : ℝ :=
  (1 / degR ar n) * ((∑ j : Fin 1024, ar n j * xr j f) + xr n f)

theorem degR_pos {ar : Fin 1024 → Fin 1024 → ℝ} (h : ∀ i j, 0 ≤ ar i j) (n : Fin 1024) : 0 < degR ar n :=
  add_pos_of_nonneg_of_pos (Finset.sum_nonneg fun i _ => h i n) one_pos

variable (ar : Fin 1024 → Fin 1024 → ℝ) (xr : Fin 1024 → Fin 128 → ℝ)

theorem fHop0_coe (h : ∀ i j, 0 ≤ ar i j) (n : Fin 1024) (f : Fin 128) :
    fHop0 (fun i j => (ar i j : EReal)) (fun j f => (xr j f : EReal)) n f = (hopR ar xr n f : EReal) := by
  unfold fHop0 fInv0 hopR
  have e1 : (∑ i : Fin 1024, (ar i n : EReal)) + 1 = ((degR ar n : ℝ) : EReal) := by
    unfold degR; rw [EReal.coe_add, coe_sum, EReal.coe_one]
  have e2 : (∑ j : Fin 1024, (ar n j : EReal) * (xr j f : EReal)) + (xr n f : EReal)
      = (((∑ j : Fin 1024, ar n j * xr j f) + xr n f : ℝ) : EReal) := by
    rw [EReal.coe_add, coe_sum]; simp only [EReal.coe_mul]
  rw [e1, e2, div_one_coe (degR_pos h n).ne', ← EReal.coe_mul]

theorem fHop1_coe (h : ∀ i j, 0 ≤ ar i j) (n : Fin 1024) (f : Fin 128) :
    fHop1 (fun i j => (ar i j : EReal)) (fun j f => (xr j f : EReal)) n f
      = (hopR (fun i j => ar j i) xr n f : EReal) := by
  unfold fHop1 fInv1 hopR
  have e1 : (∑ j : Fin 1024, (ar n j : EReal)) + 1 = ((degR (fun i j => ar j i) n : ℝ) : EReal) := by
    unfold degR; rw [EReal.coe_add, coe_sum, EReal.coe_one]
  have e2 : (∑ j : Fin 1024, (ar j n : EReal) * (xr j f : EReal)) + (xr n f : EReal)
      = (((∑ j : Fin 1024, ar j n * xr j f) + xr n f : ℝ) : EReal) := by
    rw [EReal.coe_add, coe_sum]; simp only [EReal.coe_mul]
  rw [e1, e2, div_one_coe (degR_pos (fun i j => h j i) n).ne', ← EReal.coe_mul]

theorem delta_coe (i j : Fin 1024) : delta i j = (((if i = j then 1 else 0 : ℝ)) : EReal) := by
  unfold delta; split <;> simp

theorem pDeg_coe (n : Fin 1024) : pDeg (fun i j => (ar i j : EReal)) n = (degR ar n : EReal) := by
  unfold pDeg pSelf degR
  simp only [delta_coe, ← EReal.coe_add]
  rw [← coe_sum, Finset.sum_add_distrib, Finset.sum_ite_eq' Finset.univ n (fun _ => (1 : ℝ))]
  simp

theorem pInv_coe (h : ∀ i j, 0 ≤ ar i j) (n : Fin 1024) :
    pInv (fun i j => (ar i j : EReal)) n = ((1 / degR ar n : ℝ) : EReal) := by
  unfold pInv
  rw [pDeg_coe, if_neg (by exact_mod_cast (degR_pos h n).ne'), div_one_coe (degR_pos h n).ne']

theorem pHop_coe (h : ∀ i j, 0 ≤ ar i j) (n : Fin 1024) (f : Fin 128) :
    pHop (fun i j => (ar i j : EReal)) (fun j f => (xr j f : EReal)) n f = (hopR ar xr n f : EReal) := by
  unfold pHop pWalk
  simp only [pInv_coe ar h, pSelf, delta_coe, ← EReal.coe_add, ← EReal.coe_mul]
  rw [← coe_sum]
  refine congrArg _ ?_
  unfold hopR
  have e : ∀ j : Fin 1024, 1 / degR ar n * (ar n j + (if n = j then (1 : ℝ) else 0)) * xr j f
      = 1 / degR ar n * (ar n j * xr j f + (if n = j then xr j f else 0)) := by
    intro j; split <;> ring
  simp only [e]
  rw [← Finset.mul_sum, Finset.sum_add_distrib, Finset.sum_ite_eq Finset.univ n]
  simp

/-! ### The interleaved 384 columns split into three runs of 128 -/

theorem sum_fin384 {M : Type*} [AddCommMonoid M] (g : Fin 384 → M) :
    ∑ k : Fin 384, g k = ∑ f : Fin 128, (g (row3 f 0) + g (row3 f 1) + g (row3 f 2)) := by
  have h := Equiv.sum_comp (finProdFinEquiv (m := 128) (n := 3)) (fun k : Fin (128 * 3) => g k)
  rw [show (∑ k : Fin 384, g k) = ∑ k : Fin (128 * 3), g k from rfl, ← h, Fintype.sum_prod_type]
  refine Finset.sum_congr rfl fun f _ => ?_
  rw [Fin.sum_univ_three]
  have e : ∀ t : Fin 3, (finProdFinEquiv (m := 128) (n := 3) (f, t) : Fin (128 * 3)) = row3 f t := fun t =>
    Fin.ext (by simp [finProdFinEquiv, row3]; omega)
  rw [e 0, e 1, e 2]

/-- The plain form's 384-column product, split into the feature part and the two hop parts. -/
theorem stack_sum {O : Nat} (A : Fin 1024 → Fin 1024 → EReal) (X : Fin 1024 → Fin 128 → EReal)
    (V : Fin 384 → Fin O → EReal) (n : Fin 1024) (o : Fin O) :
    ∑ k : Fin 384, pStack A X n k * V k o
      = ∑ f : Fin 128, (X n f * V (row3 f 0) o + pHop A X n f * V (row3 f 1) o + pHop A X n f * V (row3 f 2) o) := by
  rw [sum_fin384]
  refine Finset.sum_congr rfl fun f _ => ?_
  have e0 : pStack A X n (row3 f 0) = X n f := by
    unfold pStack
    rw [if_pos (by show (3 * f.val + 0) % 3 = 0; omega)]
    exact congrArg (X n) (Fin.ext (by show (3 * f.val + 0) / 3 = f.val; omega))
  have e1 : pStack A X n (row3 f 1) = pHop A X n f := by
    unfold pStack
    rw [if_neg (by show ¬ (3 * f.val + 1) % 3 = 0; omega)]
    exact congrArg (pHop A X n) (Fin.ext (by show (3 * f.val + 1) / 3 = f.val; omega))
  have e2 : pStack A X n (row3 f 2) = pHop A X n f := by
    unfold pStack
    rw [if_neg (by show ¬ (3 * f.val + 2) % 3 = 0; omega)]
    exact congrArg (pHop A X n) (Fin.ext (by show (3 * f.val + 2) / 3 = f.val; omega))
  rw [e0, e1, e2]

/-! ### Both convolutions are the coercion of one real expression -/

/-- The convolution on the reals, in the fused arrangement. -/
def convR {O : Nat} (ar : Fin 1024 → Fin 1024 → ℝ) (xr : Fin 1024 → Fin 128 → ℝ) (V0r V1r : Fin 384 → Fin O → ℝ)
    (c0r c1r : Fin O → ℝ) (n : Fin 1024) (o : Fin O) : ℝ :=
  (((∑ f : Fin 128, xr n f * (V0r (row3 f 0) o + V1r (row3 f 0) o))
    + (∑ f : Fin 128, hopR ar xr n f * (V0r (row3 f 1) o + V0r (row3 f 2) o)))
    + (∑ f : Fin 128, hopR (fun i j => ar j i) xr n f * (V1r (row3 f 1) o + V1r (row3 f 2) o)))
    + (c0r o + c1r o)

variable {O : Nat} (V0r V1r : Fin 384 → Fin O → ℝ) (c0r c1r : Fin O → ℝ)

theorem fConv_coe (h : ∀ i j, 0 ≤ ar i j) (n : Fin 1024) (o : Fin O) :
    fConv (fun i j => (ar i j : EReal)) (fun j f => (xr j f : EReal)) (fun k o => (V0r k o : EReal))
      (fun k o => (V1r k o : EReal)) (fun o => (c0r o : EReal)) (fun o => (c1r o : EReal)) n o
      = (convR ar xr V0r V1r c0r c1r n o : EReal) := by
  unfold fConv fConvW convR
  simp only [fHop0_coe ar xr h, fHop1_coe ar xr h, ← EReal.coe_add, ← EReal.coe_mul, ← coe_sum]

theorem pConv_coe (h : ∀ i j, 0 ≤ ar i j) (n : Fin 1024) (o : Fin O) :
    pConv (fun i j => (ar i j : EReal)) (fun j f => (xr j f : EReal)) (fun k o => (V0r k o : EReal))
      (fun k o => (V1r k o : EReal)) (fun o => (c0r o : EReal)) (fun o => (c1r o : EReal)) n o
      = (convR ar xr V0r V1r c0r c1r n o : EReal) := by
  unfold pConv
  show ((∑ k : Fin 384, pStack (fun i j => (ar i j : EReal)) (fun j f => (xr j f : EReal)) n k * (V0r k o : EReal))
        + (c0r o : EReal))
      + ((∑ k : Fin 384, pStack (fun i j => (ar j i : EReal)) (fun j f => (xr j f : EReal)) n k * (V1r k o : EReal))
        + (c1r o : EReal)) = _
  rw [stack_sum (fun i j => (ar i j : EReal)) (fun j f => (xr j f : EReal)) (fun k o => (V0r k o : EReal)) n o,
    stack_sum (fun i j => (ar j i : EReal)) (fun j f => (xr j f : EReal)) (fun k o => (V1r k o : EReal)) n o]
  simp only [pHop_coe ar xr h, pHop_coe (fun i j => ar j i) xr (fun i j => h j i), ← EReal.coe_add, ← EReal.coe_mul,
    ← coe_sum]
  refine congrArg _ ?_
  unfold convR
  simp only [mul_add, Finset.sum_add_distrib]
  ring

/-- On real data with a non-negative adjacency the fused convolution is the plain one, and it is a real number. -/
theorem conv_eq (a : Fin 1024 → Fin 1024 → EReal) (x : Fin 1024 → Fin 128 → EReal) (V0 V1 : Fin 384 → Fin O → EReal)
    (c0 c1 : Fin O → EReal) (ha : ∀ i j, ∃ r : ℝ, 0 ≤ r ∧ a i j = r) (hx : ∀ n f, ∃ r : ℝ, x n f = r)
    (hV0 : ∀ k o, ∃ r : ℝ, V0 k o = r) (hV1 : ∀ k o, ∃ r : ℝ, V1 k o = r) (hc0 : ∀ o, ∃ r : ℝ, c0 o = r)
    (hc1 : ∀ o, ∃ r : ℝ, c1 o = r) (n : Fin 1024) (o : Fin O) :
    fConv a x V0 V1 c0 c1 n o = pConv a x V0 V1 c0 c1 n o ∧ ∃ r : ℝ, pConv a x V0 V1 c0 c1 n o = r := by
  choose ar har0 har using ha
  choose xr hxr using hx
  choose V0r hV0r using hV0
  choose V1r hV1r using hV1
  choose c0r hc0r using hc0
  choose c1r hc1r using hc1
  obtain rfl : a = fun i j => (ar i j : EReal) := funext fun i => funext fun j => har i j
  obtain rfl : x = fun n f => (xr n f : EReal) := funext fun n => funext fun f => hxr n f
  obtain rfl : V0 = fun k o => (V0r k o : EReal) := funext fun k => funext fun o => hV0r k o
  obtain rfl : V1 = fun k o => (V1r k o : EReal) := funext fun k => funext fun o => hV1r k o
  obtain rfl : c0 = fun o => (c0r o : EReal) := funext fun o => hc0r o
  obtain rfl : c1 = fun o => (c1r o : EReal) := funext fun o => hc1r o
  exact ⟨(fConv_coe ar xr V0r V1r c0r c1r har0 n o).trans (pConv_coe ar xr V0r V1r c0r c1r har0 n o).symm,
    _, pConv_coe ar xr V0r V1r c0r c1r har0 n o⟩

/-! ### The cell and the whole arrays -/

theorem cat_real (P Q : Fin 1024 → Fin 64 → EReal) (hP : ∀ n k, ∃ r : ℝ, P n k = r) (hQ : ∀ n k, ∃ r : ℝ, Q n k = r)
    (n : Fin 1024) (f : Fin 128) : ∃ r : ℝ, cat P Q n f = r := by
  unfold cat; split
  · exact hP _ _
  · exact hQ _ _

theorem logistic_real {y : EReal} (h : ∃ r : ℝ, y = r) : ∃ r : ℝ, Ideal.logistic y = r := by
  obtain ⟨r, rfl⟩ := h; exact ⟨_, Ideal.logistic_coe r⟩

theorem mul_real {y z : EReal} (hy : ∃ r : ℝ, y = r) (hz : ∃ r : ℝ, z = r) : ∃ r : ℝ, y * z = r := by
  obtain ⟨r, rfl⟩ := hy; obtain ⟨s, rfl⟩ := hz; exact ⟨r * s, (EReal.coe_mul r s).symm⟩

/-- The cell over the fused convolutions is the cell over the plain ones, on real data with a non-negative
    adjacency: the gate pre-activations agree and are real, so the candidate's features (inputs beside reset times
    state) are real, and the candidate pre-activations agree. -/
theorem cell_eq (a : Fin 1024 → Fin 1024 → EReal) (V0 V1 : Fin 384 → Fin 128 → EReal) (c0 c1 : Fin 128 → EReal)
    (U0 U1 : Fin 384 → Fin 64 → EReal) (d0 d1 : Fin 64 → EReal) (I H : Fin 1024 → Fin 64 → EReal)
    (ha : ∀ i j, ∃ r : ℝ, 0 ≤ r ∧ a i j = r) (hV0 : ∀ k o, ∃ r : ℝ, V0 k o = r) (hV1 : ∀ k o, ∃ r : ℝ, V1 k o = r)
    (hc0 : ∀ o, ∃ r : ℝ, c0 o = r) (hc1 : ∀ o, ∃ r : ℝ, c1 o = r) (hU0 : ∀ k o, ∃ r : ℝ, U0 k o = r)
    (hU1 : ∀ k o, ∃ r : ℝ, U1 k o = r) (hd0 : ∀ o, ∃ r : ℝ, d0 o = r) (hd1 : ∀ o, ∃ r : ℝ, d1 o = r)
    (hI : ∀ n k, ∃ r : ℝ, I n k = r) (hH : ∀ n k, ∃ r : ℝ, H n k = r) (n : Fin 1024) (k : Fin 64) :
    cell (fun x => fConv a x V0 V1 c0 c1) (fun x => fConv a x U0 U1 d0 d1) I H n k
      = cell (fun x => pConv a x V0 V1 c0 c1) (fun x => pConv a x U0 U1 d0 d1) I H n k := by
  have hx := cat_real I H hI hH
  have g : ∀ n o, fConv a (cat I H) V0 V1 c0 c1 n o = pConv a (cat I H) V0 V1 c0 c1 n o := fun n o =>
    (conv_eq a (cat I H) V0 V1 c0 c1 ha hx hV0 hV1 hc0 hc1 n o).1
  have gr : ∀ n o, ∃ r : ℝ, pConv a (cat I H) V0 V1 c0 c1 n o = r := fun n o =>
    (conv_eq a (cat I H) V0 V1 c0 c1 ha hx hV0 hV1 hc0 hc1 n o).2
  unfold cell cellX
  simp only [g]
  have hy : ∀ n f, ∃ r : ℝ, cat (fun n k => cat I H n (lo k))
      (fun n k => Ideal.logistic (pConv a (cat I H) V0 V1 c0 c1 n (lo k)) * H n k) n f = r :=
    cat_real _ _ (fun n k => hx n (lo k)) (fun n k => mul_real (logistic_real (gr n (lo k))) (hH n k))
  rw [(conv_eq a _ U0 U1 d0 d1 ha hy hU0 hU1 hd0 hd1 n k).1]

variable (inp hx : (⟨2, ![16, 65536]⟩ : Shape).Idx → EReal) (adj : (⟨3, ![16, 1024, 1024]⟩ : Shape).Idx → EReal)
  (W0 : (⟨2, ![384, 128]⟩ : Shape).Idx → EReal) (b0 : (⟨1, ![128]⟩ : Shape).Idx → EReal)
  (W1 : (⟨2, ![384, 128]⟩ : Shape).Idx → EReal) (b1 : (⟨1, ![128]⟩ : Shape).Idx → EReal)
  (Wc0 : (⟨2, ![384, 64]⟩ : Shape).Idx → EReal) (bc0 : (⟨1, ![64]⟩ : Shape).Idx → EReal)
  (Wc1 : (⟨2, ![384, 64]⟩ : Shape).Idx → EReal) (bc1 : (⟨1, ![64]⟩ : Shape).Idx → EReal)

/-- The two whole-array results agree when every array is real and the adjacency is non-negative. -/
theorem fusedOut_eq_plainOut (h0 : ∀ i, ∃ r : ℝ, inp i = r) (h1 : ∀ i, ∃ r : ℝ, hx i = r)
    (h2 : ∀ i, ∃ r : ℝ, 0 ≤ r ∧ adj i = r) (h3 : ∀ i, ∃ r : ℝ, W0 i = r) (h4 : ∀ i, ∃ r : ℝ, b0 i = r)
    (h5 : ∀ i, ∃ r : ℝ, W1 i = r) (h6 : ∀ i, ∃ r : ℝ, b1 i = r) (h7 : ∀ i, ∃ r : ℝ, Wc0 i = r)
    (h8 : ∀ i, ∃ r : ℝ, bc0 i = r) (h9 : ∀ i, ∃ r : ℝ, Wc1 i = r) (h10 : ∀ i, ∃ r : ℝ, bc1 i = r) :
    fusedOut inp hx adj W0 b0 W1 b1 Wc0 bc0 Wc1 bc1 = plainOut inp hx adj W0 b0 W1 b1 Wc0 bc0 Wc1 bc1 := by
  funext i
  unfold fusedOut plainOut fusedAt plainAt
  exact cell_eq _ _ _ _ _ _ _ _ _ _ _ (fun _ _ => h2 _) (fun _ _ => h3 _) (fun _ _ => h5 _) (fun _ => h4 _)
    (fun _ => h6 _) (fun _ _ => h7 _) (fun _ _ => h9 _) (fun _ => h8 _) (fun _ => h10 _) (fun _ _ => h0 _)
    (fun _ _ => h1 _) _ _

end GruCell

end
-- ==== Proof.PreRead.lean ====
/-
  What the precondition says of each argument array: every entry of every array is a real number (its absolute value
  is below +∞), and every entry of the adjacency array is moreover non-negative.

  The precondition is a conjunction of twelve "all entries satisfy …" tests, each an and-reduction of a comparison
  array down to one bit; the conjunction being 1 makes each reduction 1, hence each compared entry 1.
-/
import proofs.«165569_j9328668967409_2_alg».proof.Pre_finite_inputs
import Idealize.ShloMosaic.PureOps.Ideal
import Idealize.ShloMosaic.PureOps.Ideal.Laws
import Idealize.ShloMosaic.Lib.ReduceAll
import Idealize.ShloMosaic.Lib.ValueIdx

set_option maxRecDepth 16384

noncomputable section

open Idealize.ShloMosaic

namespace Cert.PreRead

open Cert.Pre_finite_inputs

instance : Subsingleton S_.Idx := ⟨fun a b => funext fun d => d.elim0⟩

theorem ofBool_eq_one (b : Bool) : BitVec.ofBool b = 1#1 ↔ b = true := by cases b <;> decide

/-- The pattern of +∞. -/
theorem inf_f32 : Ideal.ofBits .f32 0x7F800000#32 = ⊤ := by simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = r := by
  rw [Ideal.cmpf_def, Ideal.hostAbsf_def, Ideal.absf_def, inf_f32] at h
  unfold Ideal.cmp at h
  rw [ofBool_eq_one] at h
  simp only [decide_eq_true_eq] at h
  induction x using EReal.rec with
  | bot => simp at h
  | coe r => exact ⟨r, rfl⟩
  | top => simp at h

/-- An extended real at or above the pattern of zero is non-negative. -/
theorem nonneg_of_ge (x : EReal)
    (h : FloatOps.cmpf (F := Ideal) (φ := .f32) .oge x (Ideal.ofBits .f32 0x00000000#32) = 1#1) : 0 ≤ x := by
  rw [Ideal.cmpf_def, Ideal.ofBits_zero_f32] at h
  unfold Ideal.cmp at h
  rw [ofBool_eq_one] at h
  simpa only [decide_eq_true_eq] using h

/-- The precondition, read entry by entry. -/
theorem facts [Cert.Pre_finite_inputs.Facts] (a0 a1 : FVec Ideal S16x65536 .f32) (a2 : FVec Ideal S16x1024x1024 .f32) (a3 : FVec Ideal S384x128 .f32)
    (a4 : FVec Ideal S128 .f32) (a5 : FVec Ideal S384x128 .f32) (a6 : FVec Ideal S128 .f32) (a7 : FVec Ideal S384x64 .f32)
    (a8 : FVec Ideal S64 .f32) (a9 : FVec Ideal S384x64 .f32) (a10 : FVec Ideal S64 .f32)
    (h : fn (F := Ideal) a0 a1 a2 a3 a4 a5 a6 a7 a8 a9 a10 = fun _ => 1#1) :
    (∀ i, ∃ r : ℝ, a0 i = r) ∧ (∀ i, ∃ r : ℝ, a1 i = r) ∧ (∀ i, ∃ r : ℝ, 0 ≤ r ∧ a2 i = r) ∧ (∀ i, ∃ r : ℝ, a3 i = r)
      ∧ (∀ i, ∃ r : ℝ, a4 i = r) ∧ (∀ i, ∃ r : ℝ, a5 i = r) ∧ (∀ i, ∃ r : ℝ, a6 i = r) ∧ (∀ i, ∃ r : ℝ, a7 i = r)
      ∧ (∀ i, ∃ r : ℝ, a8 i = r) ∧ (∀ i, ∃ r : ℝ, a9 i = r) ∧ (∀ i, ∃ r : ℝ, a10 i = r) := by
  have h0 := congrFun h ValueIdx.ix0
  dsimp only [fn, fn_part1, fn_part2, fn_part3] at h0
  simp only [andi, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  have f2 : ∀ i, ∃ r : ℝ, a2 i = r := fun i => real_of_abs_lt _ (Host.reduce_andi_all _ _ _ _ _ e2 i)
  refine ⟨fun i => real_of_abs_lt _ (Host.reduce_andi_all _ _ _ _ _ e0 i),
    fun i => real_of_abs_lt _ (Host.reduce_andi_all _ _ _ _ _ e1 i), fun i => ?_,
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => real_of_abs_lt _ (Host.reduce_andi_all _ _ _ _ _ e7 i),
    fun i => real_of_abs_lt _ (Host.reduce_andi_all _ _ _ _ _ e8 i),
    fun i => real_of_abs_lt _ (Host.reduce_andi_all _ _ _ _ _ e9 i),
    fun i => real_of_abs_lt _ (Host.reduce_andi_all _ _ _ _ _ e10 i)⟩
  obtain ⟨r, hr⟩ := f2 i
  have hn : 0 ≤ a2 i := nonneg_of_ge _ (Host.reduce_andi_all _ _ _ _ _ e11 i)
  rw [hr] at hn
  exact ⟨r, by exact_mod_cast hn, hr⟩

end Cert.PreRead

end
-- ==== Proof.KernelBody.lean ====
/-
  The kernel body at one entry of its output block.

  The body's arithmetic is read entry by entry: the three loaded blocks as matrices; the two degree vectors as
  inverses of (column sum + 1) and (row sum + 1); a hop as `inv · (a·y + y)` through a matrix product into a zero
  accumulator (the narrowing format change is the identity on extended reals); the gate activations as the logistic of
  three products and a bias row, which is the fused convolution of the features; the candidate as the hyperbolic
  tangent of the same convolution of the inputs beside the reset state; and the stored value `u·h + (1 − u)·c`.
  Every step is first stated over arbitrary operands and then instantiated at the loaded blocks.
-/
import proofs.«165569_j9328668967409_2_alg».proof.Proof.Gen.KernelIdeal.Frame
import proofs.«165569_j9328668967409_2_alg».proof.Proof.CellSpec
import Idealize.ShloMosaic.Lib.ValueLayout
import Idealize.ShloMosaic.PureOps.Ideal.Laws

set_option maxRecDepth 16384

noncomputable section

open Idealize.ShloMosaic Idealize.ShloMosaic.ValueIdx

namespace Cert.KernelIdeal.BodyValue

open Cert.KernelIdeal Cert.KernelIdeal.Gen

/-! ### The loaded blocks as matrices -/

theorem pay2_at (x0 : Vec Ideal S1x1024x1024 .f32) (i j : Fin 1024) :
    k0_pay2 x0 (ix2 i j) = x0 (ix3 (0 : Fin 1) i j) := by
  unfold k0_pay2
  exact shapeCast_1ab_ab_apply x0 _ i j

theorem pay3_at (x1 : Vec Ideal S1x1024x128 .f32) (n : Fin 1024) (f : Fin 128) :
    k0_pay3 x1 (ix2 n f) = x1 (ix3 (0 : Fin 1) n f) := by
  unfold k0_pay3
  exact shapeCast_1ab_ab_apply x1 _ n f

theorem pay4_at (x2 : Vec Ideal S1x1024x64 .f32) (n : Fin 1024) (k : Fin 64) :
    k0_pay4 x2 (ix2 n k) = x2 (ix3 (0 : Fin 1) n k) := by
  unfold k0_pay4
  exact shapeCast_1ab_ab_apply x2 _ n k

theorem pay5_at (x0 : Vec Ideal S1x1024x1024 .f32) (i j : Fin 1024) :
    k0_pay5 x0 (ix2 i j) = x0 (ix3 (0 : Fin 1) i j) := by
  unfold k0_pay5
  exact pay2_at x0 i j

theorem pay8_at (x1 : Vec Ideal S1x1024x128 .f32) (n : Fin 1024) (f : Fin 128) :
    k0_pay8 x1 (ix2 n f) = x1 (ix3 (0 : Fin 1) n f) := by
  unfold k0_pay8
  exact pay3_at x1 n f

/-! ### The two degree vectors -/

/-- The sum over axis 0 of a matrix, at column `n`. -/
theorem colsum_at (a : FVec Ideal S1024x1024 .f32) (hφ : FKind.Formats .f32)
    (hacc : (0x00000000#32 : BitVec 32) = 0x00000000#32) (n : Fin 1024) :
    multiReduction .add [0] S1024 a 0x00000000#32 reduces_S1024x1024_S1024 hφ hacc (ix1 n)
      = ∑ i : Fin 1024, a (ix2 i n) := by
  refine (Ideal.multiReduction_add_single a _ reduces_S1024x1024_S1024 hφ hacc (ix1 n)).trans ?_
  refine Finset.sum_congr rfl fun i _ => congrArg a ?_
  funext c
  match c with
  | ⟨0, _⟩ => rfl
  | ⟨1, _⟩ => rfl

/-- The sum over axis 1 of a matrix, at row `n`. -/
theorem rowsum_at (a : FVec Ideal S1024x1024 .f32) (hφ : FKind.Formats .f32)
    (hacc : (0x00000000#32 : BitVec 32) = 0x00000000#32) (n : Fin 1024) :
    multiReduction .add [1] S1024 a 0x00000000#32 reduces_S1024x1024_S1024_2 hφ hacc (ix1 n)
      = ∑ j : Fin 1024, a (ix2 n j) := by
  refine (Ideal.multiReduction_add_single a _ reduces_S1024x1024_S1024_2 hφ hacc (ix1 n)).trans ?_
  refine Finset.sum_congr rfl fun j _ => congrArg a ?_
  funext c
  match c with
  | ⟨0, _⟩ => rfl
  | ⟨1, _⟩ => rfl

/-- A vector cast to a one-column matrix reads, at `(n, z)`, the vector at `n`. -/
theorem col_cast_at {α : Type} (v : S1024.Idx → α) (n : Fin 1024) (z : Fin 1) :
    shapeCast S1024x1 v shapeCasts_S1024_S1024x1 (ix2 n z) = v (ix1 n) :=
  shapeCast_apply v shapeCasts_S1024_S1024x1 (ix2 n z) (ix1 n) (by
    have hz : z.val = 0 := by omega
    rw [Shape.rowMajor_val_one, Shape.rowMajor_val_two]
    show n.val = n.val * 1 + z.val
    omega)

theorem pay6_at (x0 : Vec Ideal S1x1024x1024 .f32) (n : Fin 1024) (z : Fin 1) :
    k0_pay6 x0 (ix2 n z) = GruCell.fInv0 (fun i j => x0 (ix3 (0 : Fin 1) i j)) n := by
  unfold k0_pay6
  refine (col_cast_at _ n z).trans ?_
  show Ideal.div (Ideal.ofBits .f32 0x3F800000#32)
      (multiReduction .add [0] S1024 (k0_pay2 x0) 0x00000000#32 reduces_S1024x1024_S1024 (.inl rfl) rfl (ix1 n)
        + Ideal.ofBits .f32 0x3F800000#32) = _
  rw [colsum_at, GruCell.one_f32]
  unfold GruCell.fInv0
  simp only [pay2_at]

theorem pay7_at (x0 : Vec Ideal S1x1024x1024 .f32) (n : Fin 1024) (z : Fin 1) :
    k0_pay7 x0 (ix2 n z) = GruCell.fInv1 (fun i j => x0 (ix3 (0 : Fin 1) i j)) n := by
  unfold k0_pay7
  refine (col_cast_at _ n z).trans ?_
  show Ideal.div (Ideal.ofBits .f32 0x3F800000#32)
      (multiReduction .add [1] S1024 (k0_pay2 x0) 0x00000000#32 reduces_S1024x1024_S1024_2 (.inl rfl) rfl (ix1 n)
        + Ideal.ofBits .f32 0x3F800000#32) = _
  rw [rowsum_at, GruCell.one_f32]
  unfold GruCell.fInv1
  simp only [pay2_at]

/-! ### A matrix product into a zero accumulator, read at an entry -/

/-- An `[m, K]` matrix times a `[K, p]` one (the left operand's columns against the right operand's rows), into
    a zero accumulator, at `(n, f)`: the sum over the shared coordinate. `hlN`, `hrN`: the operands' free
    coordinates are the result's. -/
theorem mm_at {m K p : Nat} (D : DotDims ⟨2, ![m, K]⟩ ⟨2, ![K, p]⟩ ⟨2, ![m, p]⟩)
    (hr : D.contr.rank = 1) (hs : D.contr.size ⟨0, by omega⟩ = K)
    (hl : D.lhsContracting = [1]) (hrc : D.rhsContracting = [0])
    (hlN : ∀ (i : (⟨2, ![m, p]⟩ : Shape).Idx) (q : D.contr.Idx), (D.lhsIdx i q 0).val = (i 0).val)
    (hrN : ∀ (i : (⟨2, ![m, p]⟩ : Shape).Idx) (q : D.contr.Idx), (D.rhsIdx i q 1).val = (i 1).val)
    (a : FVec Ideal ⟨2, ![m, K]⟩ .bf16) (y : FVec Ideal ⟨2, ![K, p]⟩ .bf16) (n : Fin m) (f : Fin p) :
    matmul D none a y (constant (F := Ideal) ⟨2, ![m, p]⟩ .f32 0x00000000#32) (ix2 n f)
      = ∑ k : Fin K, a (ix2 n k) * y (ix2 k f) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 n f) ((contrEquiv1 D K hr hs).symm k) = ix2 n k :=
    funext fun c => Fin.ext (by
      match c with
      | ⟨0, _⟩ => exact hlN _ _
      | ⟨1, _⟩ => exact (D.lhsIdx_val_of_single hl _ _).trans hk)
  have er : D.rhsIdx (ix2 n f) ((contrEquiv1 D K hr hs).symm k) = ix2 k f :=
    funext fun c => Fin.ext (by
      match c with
      | ⟨0, _⟩ => exact (D.rhsIdx_val_of_single hrc _ _).trans hk
      | ⟨1, _⟩ => exact hrN _ _)
  rw [el, er]

/-- The same with the left operand transposed: a `[K, m]` matrix's rows against a `[K, p]` matrix's rows. -/
theorem mmT_at {m K p : Nat} (D : DotDims ⟨2, ![K, m]⟩ ⟨2, ![K, p]⟩ ⟨2, ![m, p]⟩)
    (hr : D.contr.rank = 1) (hs : D.contr.size ⟨0, by omega⟩ = K)
    (hl : D.lhsContracting = [0]) (hrc : D.rhsContracting = [0])
    (hlN : ∀ (i : (⟨2, ![m, p]⟩ : Shape).Idx) (q : D.contr.Idx), (D.lhsIdx i q 1).val = (i 0).val)
    (hrN : ∀ (i : (⟨2, ![m, p]⟩ : Shape).Idx) (q : D.contr.Idx), (D.rhsIdx i q 1).val = (i 1).val)
    (a : FVec Ideal ⟨2, ![K, m]⟩ .bf16) (y : FVec Ideal ⟨2, ![K, p]⟩ .bf16) (n : Fin m) (f : Fin p) :
    matmul D none a y (constant (F := Ideal) ⟨2, ![m, p]⟩ .f32 0x00000000#32) (ix2 n f)
      = ∑ k : Fin K, a (ix2 k n) * y (ix2 k f) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 n f) ((contrEquiv1 D K hr hs).symm k) = ix2 k n :=
    funext fun c => Fin.ext (by
      match c with
      | ⟨0, _⟩ => exact (D.lhsIdx_val_of_single hl _ _).trans hk
      | ⟨1, _⟩ => exact hlN _ _)
  have er : D.rhsIdx (ix2 n f) ((contrEquiv1 D K hr hs).symm k) = ix2 k f :=
    funext fun c => Fin.ext (by
      match c with
      | ⟨0, _⟩ => exact (D.rhsIdx_val_of_single hrc _ _).trans hk
      | ⟨1, _⟩ => exact hrN _ _)
  rw [el, er]

/-- The adjacency times a feature matrix. -/
abbrev DA : DotDims S1024x1024 S1024x128 S1024x128 := dot_S1024x1024_S1024x128_S1024x128_1_0_0_1_n_n
/-- The transposed adjacency times a feature matrix. -/
abbrev DT : DotDims S1024x1024 S1024x128 S1024x128 := dot_S1024x1024_S1024x128_S1024x128_0_0_1_1_n_n
/-- A feature matrix times a gate weight matrix. -/
abbrev DG : DotDims S1024x128 S128x128 S1024x128 := dot_S1024x128_S128x128_S1024x128_1_0_0_1_n_n
/-- A feature matrix times a candidate weight matrix. -/
abbrev DC : DotDims S1024x128 S128x64 S1024x64 := dot_S1024x128_S128x64_S1024x64_1_0_0_1_n_n

theorem DA_lhsN (i : S1024x128.Idx) (q : DA.contr.Idx) : (DA.lhsIdx i q 0).val = (i 0).val := by
  unfold DotDims.lhsIdx
  rw [dif_neg (show ¬(0 : Fin S1024x1024.rank) ∈ DA.lhsBatch by decide),
    dif_pos (show (0 : Fin S1024x1024.rank) ∈ DA.lhsNonContracting by decide)]
  rfl
theorem DA_rhsN (i : S1024x128.Idx) (q : DA.contr.Idx) : (DA.rhsIdx i q 1).val = (i 1).val := by
  unfold DotDims.rhsIdx
  rw [dif_neg (show ¬(1 : Fin S1024x128.rank) ∈ DA.rhsBatch by decide),
    dif_pos (show (1 : Fin S1024x128.rank) ∈ DA.rhsNonContracting by decide)]
  rfl
theorem DT_lhsN (i : S1024x128.Idx) (q : DT.contr.Idx) : (DT.lhsIdx i q 1).val = (i 0).val := by
  unfold DotDims.lhsIdx
  rw [dif_neg (show ¬(1 : Fin S1024x1024.rank) ∈ DT.lhsBatch by decide),
    dif_pos (show (1 : Fin S1024x1024.rank) ∈ DT.lhsNonContracting by decide)]
  rfl
theorem DT_rhsN (i : S1024x128.Idx) (q : DT.contr.Idx) : (DT.rhsIdx i q 1).val = (i 1).val := by
  unfold DotDims.rhsIdx
  rw [dif_neg (show ¬(1 : Fin S1024x128.rank) ∈ DT.rhsBatch by decide),
    dif_pos (show (1 : Fin S1024x128.rank) ∈ DT.rhsNonContracting by decide)]
  rfl
theorem DG_lhsN (i : S1024x128.Idx) (q : DG.contr.Idx) : (DG.lhsIdx i q 0).val = (i 0).val := by
  unfold DotDims.lhsIdx
  rw [dif_neg (show ¬(0 : Fin S1024x128.rank) ∈ DG.lhsBatch by decide),
    dif_pos (show (0 : Fin S1024x128.rank) ∈ DG.lhsNonContracting by decide)]
  rfl
theorem DG_rhsN (i : S1024x128.Idx) (q : DG.contr.Idx) : (DG.rhsIdx i q 1).val = (i 1).val := by
  unfold DotDims.rhsIdx
  rw [dif_neg (show ¬(1 : Fin S128x128.rank) ∈ DG.rhsBatch by decide),
    dif_pos (show (1 : Fin S128x128.rank) ∈ DG.rhsNonContracting by decide)]
  rfl
theorem DC_lhsN (i : S1024x64.Idx) (q : DC.contr.Idx) : (DC.lhsIdx i q 0).val = (i 0).val := by
  unfold DotDims.lhsIdx
  rw [dif_neg (show ¬(0 : Fin S1024x128.rank) ∈ DC.lhsBatch by decide),
    dif_pos (show (0 : Fin S1024x128.rank) ∈ DC.lhsNonContracting by decide)]
  rfl
theorem DC_rhsN (i : S1024x64.Idx) (q : DC.contr.Idx) : (DC.rhsIdx i q 1).val = (i 1).val := by
  unfold DotDims.rhsIdx
  rw [dif_neg (show ¬(1 : Fin S128x64.rank) ∈ DC.rhsBatch by decide),
    dif_pos (show (1 : Fin S128x64.rank) ∈ DC.rhsNonContracting by decide)]
  rfl

theorem DA_at (a : FVec Ideal S1024x1024 .bf16) (y : FVec Ideal S1024x128 .bf16) (n : Fin 1024) (f : Fin 128) :
    matmul DA none a y (constant (F := Ideal) S1024x128 .f32 0x00000000#32) (ix2 n f)
      = ∑ k : Fin 1024, a (ix2 n k) * y (ix2 k f) :=
  mm_at DA rfl rfl rfl rfl DA_lhsN DA_rhsN a y n f
theorem DT_at (a : FVec Ideal S1024x1024 .bf16) (y : FVec Ideal S1024x128 .bf16) (n : Fin 1024) (f : Fin 128) :
    matmul DT none a y (constant (F := Ideal) S1024x128 .f32 0x00000000#32) (ix2 n f)
      = ∑ k : Fin 1024, a (ix2 k n) * y (ix2 k f) :=
  mmT_at DT rfl rfl rfl rfl DT_lhsN DT_rhsN a y n f
theorem DG_at (y : FVec Ideal S1024x128 .bf16) (w : FVec Ideal S128x128 .bf16) (n : Fin 1024) (o : Fin 128) :
    matmul DG none y w (constant (F := Ideal) S1024x128 .f32 0x00000000#32) (ix2 n o)
      = ∑ f : Fin 128, y (ix2 n f) * w (ix2 f o) :=
  mm_at DG rfl rfl rfl rfl DG_lhsN DG_rhsN y w n o
theorem DC_at (y : FVec Ideal S1024x128 .bf16) (w : FVec Ideal S128x64 .bf16) (n : Fin 1024) (o : Fin 64) :
    matmul DC none y w (constant (F := Ideal) S1024x64 .f32 0x00000000#32) (ix2 n o)
      = ∑ f : Fin 128, y (ix2 n f) * w (ix2 f o) :=
  mm_at DC rfl rfl rfl rfl DC_lhsN DC_rhsN y w n o

/-! ### Broadcasts, slices and the concatenation, read at an entry -/

/-- A one-column matrix broadcast over 128 columns reads its column at the row. -/
theorem col_bcast_at {α : Type} (v : S1024x1.Idx → α) (n : Fin 1024) (f : Fin 128) :
    broadcastTo S1024x128 v broadcasts_S1024x1_S1024x128 (ix2 n f) = v (ix2 n (0 : Fin 1)) := by
  refine broadcastTo_apply v broadcasts_S1024x1_S1024x128 (ix2 n f) (ix2 n (0 : Fin 1)) fun ax => ?_
  match ax with
  | ⟨0, _⟩ => show n.val = if (1024 : Nat) = 1 then 0 else n.val; rw [if_neg (by decide)]
  | ⟨1, _⟩ => show 0 = if (1 : Nat) = 1 then 0 else f.val; rw [if_pos rfl]

/-- The gate bias row, cast to itself and broadcast over the rows. -/
theorem bias128_at {α : Type} (v : S1x128.Idx → α) (n : Fin 1024) (o : Fin 128) :
    broadcastTo S1024x128 (shapeCast S1x128 v shapeCasts_S1x128_S1x128) broadcasts_S1x128_S1024x128 (ix2 n o)
      = v (ix2 (0 : Fin 1) o) := by
  rw [shapeCast_self]
  exact broadcastTo_1b_ab_apply v _ n o

/-- The candidate bias row, cast to itself and broadcast over the rows. -/
theorem bias64_at {α : Type} (v : S1x64.Idx → α) (n : Fin 1024) (o : Fin 64) :
    broadcastTo S1024x64 (shapeCast S1x64 v shapeCasts_S1x64_S1x64) broadcasts_S1x64_S1024x64 (ix2 n o)
      = v (ix2 (0 : Fin 1) o) := by
  rw [shapeCast_self]
  exact broadcastTo_1b_ab_apply v _ n o

/-- The left 64 columns. -/
theorem slice_lo_at {α : Type} (X : S1024x128.Idx → α) (n : Fin 1024) (k : Fin 64) :
    extractStridedSlice S1024x64 ![0, 0] X slices_S1024x128_o0_0_S1024x64 (ix2 n k) = X (ix2 n (GruCell.lo k)) :=
  slice2_axis1_apply 0 X _ n k (GruCell.lo k) (by show k.val = 0 + k.val; omega)

/-- The right 64 columns. -/
theorem slice_hi_at {α : Type} (X : S1024x128.Idx → α) (n : Fin 1024) (k : Fin 64) :
    extractStridedSlice S1024x64 ![0, 64] X slices_S1024x128_o0_64_S1024x64 (ix2 n k) = X (ix2 n (GruCell.hi k)) :=
  slice2_axis1_apply 64 X _ n k (GruCell.hi k) rfl

/-- Two 64-column matrices side by side. -/
theorem cat_at (P Q : FVec Ideal S1024x64 .f32) (n : Fin 1024) (f : Fin 128) :
    concatenate S1024x128 1 [⟨S1024x64, P⟩, ⟨S1024x64, Q⟩] concatenates_S1024x64_S1024x64_S1024x128_d1 (ix2 n f)
      = GruCell.cat (fun n k => P (ix2 n k)) (fun n k => Q (ix2 n k)) n f := by
  unfold GruCell.cat
  by_cases h : f.val < 64
  · rw [dif_pos h]
    refine concatenate_pair_apply_left (1 : Fin S1024x128.rank) P Q _ (ix2 n f) rfl (ix2 n ⟨f.val, h⟩) fun b => ?_
    match b with
    | ⟨0, _⟩ => rfl
    | ⟨1, _⟩ => rfl
  · rw [dif_neg h]
    refine concatenate_pair_apply_right (1 : Fin S1024x128.rank) P Q _ (ix2 n f) rfl rfl
      (ix2 n ⟨f.val - 64, by omega⟩) (fun b hb => ?_) ?_
    · match b with
      | ⟨0, _⟩ => rfl
      | ⟨1, _⟩ => exact absurd rfl hb
    · show (f.val - 64) + 64 = f.val
      omega

theorem logistic_at {s : Shape} (x : FVec Ideal s .f32) (i : s.Idx) : logistic x i = Ideal.logistic (x i) := rfl
theorem tanh_at {s : Shape} (x : FVec Ideal s .f32) (i : s.Idx) : tanh x i = Ideal.tanh (x i) := rfl

/-! ### The hops -/

/-- One hop along the graph over any operands: `inv · (a·y + z)`. -/
theorem hop0_at (a : FVec Ideal S1024x1024 .bf16) (y : FVec Ideal S1024x128 .bf16) (z : FVec Ideal S1024x128 .f32)
    (inv : FVec Ideal S1024x1 .f32) (n : Fin 1024) (f : Fin 128) :
    mulf (broadcastTo S1024x128 inv broadcasts_S1024x1_S1024x128)
        (addf (matmul DA none a y (constant (F := Ideal) S1024x128 .f32 0x00000000#32)) z) (ix2 n f)
      = inv (ix2 n (0 : Fin 1)) * ((∑ j : Fin 1024, a (ix2 n j) * y (ix2 j f)) + z (ix2 n f)) := by
  rw [mulf_apply, addf_apply, col_bcast_at, DA_at]

/-- One hop along the transposed graph over any operands: `inv · (aᵀ·y + z)`. -/
theorem hop1_at (a : FVec Ideal S1024x1024 .bf16) (y : FVec Ideal S1024x128 .bf16) (z : FVec Ideal S1024x128 .f32)
    (inv : FVec Ideal S1024x1 .f32) (n : Fin 1024) (f : Fin 128) :
    mulf (broadcastTo S1024x128 inv broadcasts_S1024x1_S1024x128)
        (addf (matmul DT none a y (constant (F := Ideal) S1024x128 .f32 0x00000000#32)) z) (ix2 n f)
      = inv (ix2 n (0 : Fin 1)) * ((∑ j : Fin 1024, a (ix2 j n) * y (ix2 j f)) + z (ix2 n f)) := by
  rw [mulf_apply, addf_apply, col_bcast_at, DT_at]

theorem pay9_at (x0 : Vec Ideal S1x1024x1024 .f32) (x1 : Vec Ideal S1x1024x128 .f32) (n : Fin 1024) (f : Fin 128) :
    k0_pay9 x0 x1 (ix2 n f)
      = GruCell.fHop0 (fun i j => x0 (ix3 (0 : Fin 1) i j)) (fun n f => x1 (ix3 (0 : Fin 1) n f)) n f := by
  unfold k0_pay9
  refine (truncf_apply (φ := .f32) (ψ := .bf16) _ bitsLt_bf16_f32 (ix2 n f)).trans ?_
  refine (hop0_at (k0_pay5 x0) (k0_pay8 x1) (k0_pay3 x1) (k0_pay6 x0) n f).trans ?_
  unfold GruCell.fHop0
  simp only [pay5_at, pay8_at, pay3_at, pay6_at]

theorem pay10_at (x0 : Vec Ideal S1x1024x1024 .f32) (x1 : Vec Ideal S1x1024x128 .f32) (n : Fin 1024) (f : Fin 128) :
    k0_pay10 x0 x1 (ix2 n f)
      = GruCell.fHop1 (fun i j => x0 (ix3 (0 : Fin 1) i j)) (fun n f => x1 (ix3 (0 : Fin 1) n f)) n f := by
  unfold k0_pay10
  refine (truncf_apply (φ := .f32) (ψ := .bf16) _ bitsLt_bf16_f32 (ix2 n f)).trans ?_
  refine (hop1_at (k0_pay5 x0) (k0_pay8 x1) (k0_pay3 x1) (k0_pay7 x0) n f).trans ?_
  unfold GruCell.fHop1
  simp only [pay5_at, pay8_at, pay3_at, pay7_at]

theorem pay11_eq (x3 : Vec Ideal S128x128 .bf16) : k0_pay11 x3 = x3 := by
  unfold k0_pay11; exact shapeCast_self _ _
theorem pay12_eq (x4 : Vec Ideal S128x128 .bf16) : k0_pay12 x4 = x4 := by
  unfold k0_pay12; exact shapeCast_self _ _
theorem pay13_eq (x5 : Vec Ideal S128x128 .bf16) : k0_pay13 x5 = x5 := by
  unfold k0_pay13; exact shapeCast_self _ _

/-! ### The gates -/

/-- The gate activations over any operands: the logistic of three products and a bias row. -/
theorem gate_at (v19 v28 v29 : FVec Ideal S1024x128 .bf16) (v31 v33 v35 : FVec Ideal S128x128 .bf16)
    (v36 : Vec Ideal S1x128 .f32) (n : Fin 1024) (o : Fin 128) :
    k0_pay14 v19 v28 v29 v31 v33 v35 v36 (ix2 n o)
      = Ideal.logistic ((((∑ f : Fin 128, v19 (ix2 n f) * v31 (ix2 f o))
          + (∑ f : Fin 128, v28 (ix2 n f) * v33 (ix2 f o)))
          + (∑ f : Fin 128, v29 (ix2 n f) * v35 (ix2 f o)))
          + v36 (ix2 (0 : Fin 1) o)) := by
  unfold k0_pay14
  show Ideal.logistic (((matmul DG none v19 v31 (constant (F := Ideal) S1024x128 .f32 0x00000000#32) (ix2 n o)
        + matmul DG none v28 v33 (constant (F := Ideal) S1024x128 .f32 0x00000000#32) (ix2 n o))
        + matmul DG none v29 v35 (constant (F := Ideal) S1024x128 .f32 0x00000000#32) (ix2 n o))
        + broadcastTo S1024x128 (shapeCast S1x128 v36 shapeCasts_S1x128_S1x128) broadcasts_S1x128_S1024x128 (ix2 n o)) = _
  rw [DG_at, DG_at, DG_at, bias128_at]

theorem pay14_at (x0 : Vec Ideal S1x1024x1024 .f32) (x1 : Vec Ideal S1x1024x128 .f32)
    (x3 x4 x5 : Vec Ideal S128x128 .bf16) (x6 : Vec Ideal S1x128 .f32) (n : Fin 1024) (o : Fin 128) :
    k0_pay14 (k0_pay8 x1) (k0_pay9 x0 x1) (k0_pay10 x0 x1) (k0_pay11 x3) (k0_pay12 x4) (k0_pay13 x5) x6 (ix2 n o)
      = Ideal.logistic (GruCell.fConvW (fun i j => x0 (ix3 (0 : Fin 1) i j)) (fun n f => x1 (ix3 (0 : Fin 1) n f))
          (fun f o => x3 (ix2 f o)) (fun f o => x4 (ix2 f o)) (fun f o => x5 (ix2 f o))
          (fun o => x6 (ix2 (0 : Fin 1) o)) n o) := by
  rw [gate_at, pay11_eq, pay12_eq, pay13_eq]
  unfold GruCell.fConvW
  simp only [pay8_at, pay9_at, pay10_at]

theorem pay15_at (x0 : Vec Ideal S1x1024x1024 .f32) (x1 : Vec Ideal S1x1024x128 .f32)
    (x3 x4 x5 : Vec Ideal S128x128 .bf16) (x6 : Vec Ideal S1x128 .f32) (n : Fin 1024) (k : Fin 64) :
    k0_pay15 (k0_pay8 x1) (k0_pay9 x0 x1) (k0_pay10 x0 x1) (k0_pay11 x3) (k0_pay12 x4) (k0_pay13 x5) x6 (ix2 n k)
      = Ideal.logistic (GruCell.fConvW (fun i j => x0 (ix3 (0 : Fin 1) i j)) (fun n f => x1 (ix3 (0 : Fin 1) n f))
          (fun f o => x3 (ix2 f o)) (fun f o => x4 (ix2 f o)) (fun f o => x5 (ix2 f o))
          (fun o => x6 (ix2 (0 : Fin 1) o)) n (GruCell.hi k)) := by
  unfold k0_pay15
  exact (slice_hi_at _ n k).trans (pay14_at x0 x1 x3 x4 x5 x6 n (GruCell.hi k))

/-! ### The candidate -/

/-- The candidate's features over any operands: the left 64 columns of `v3` beside the left 64 columns of the
    gate activations `g` times `v5`. -/
def candX (v3 g : FVec Ideal S1024x128 .f32) (v5 : FVec Ideal S1024x64 .f32) : Fin 1024 → Fin 128 → EReal :=
  GruCell.cat (fun n k => v3 (ix2 n (GruCell.lo k))) (fun n k => g (ix2 n (GruCell.lo k)) * v5 (ix2 n k))

/-- The candidate over any operands: the hyperbolic tangent of three products and a bias row, the second and third
    products over the two hops of the candidate's features. -/
theorem cand_at (v3 : FVec Ideal S1024x128 .f32) (v5 : FVec Ideal S1024x64 .f32) (v6 : FVec Ideal S1024x1024 .bf16)
    (v12 v18 : FVec Ideal S1024x1 .f32) (v19 v28 v29 : FVec Ideal S1024x128 .bf16)
    (v31 v33 v35 : FVec Ideal S128x128 .bf16) (v36 : Vec Ideal S1x128 .f32) (v62 v64 v66 : Vec Ideal S128x64 .bf16)
    (v68 : Vec Ideal S1x64 .f32) (n : Fin 1024) (k : Fin 64) :
    k0_pay16 v3 v5 v6 v12 v18 v19 v28 v29 v31 v33 v35 v36 v62 v64 v66 v68 (ix2 n k)
      = Ideal.tanh ((((∑ f : Fin 128, candX v3 (k0_pay14 v19 v28 v29 v31 v33 v35 v36) v5 n f * v62 (ix2 f k))
          + (∑ f : Fin 128, (v12 (ix2 n (0 : Fin 1))
              * ((∑ j : Fin 1024, v6 (ix2 n j) * candX v3 (k0_pay14 v19 v28 v29 v31 v33 v35 v36) v5 j f)
                + candX v3 (k0_pay14 v19 v28 v29 v31 v33 v35 v36) v5 n f)) * v64 (ix2 f k)))
          + (∑ f : Fin 128, (v18 (ix2 n (0 : Fin 1))
              * ((∑ j : Fin 1024, v6 (ix2 j n) * candX v3 (k0_pay14 v19 v28 v29 v31 v33 v35 v36) v5 j f)
                + candX v3 (k0_pay14 v19 v28 v29 v31 v33 v35 v36) v5 n f)) * v66 (ix2 f k)))
          + v68 (ix2 (0 : Fin 1) k)) := by
  unfold k0_pay16 candX
  simp only [tanh_at, addf_apply, mulf_apply, DC_at, DA_at, DT_at, truncf_apply, col_bcast_at, bias64_at,
    shapeCast_self, broadcastTo_1b_ab_apply, cat_at, slice_lo_at]

theorem pay16_at (x0 : Vec Ideal S1x1024x1024 .f32) (x1 : Vec Ideal S1x1024x128 .f32) (x2 : Vec Ideal S1x1024x64 .f32)
    (x3 x4 x5 : Vec Ideal S128x128 .bf16) (x6 : Vec Ideal S1x128 .f32) (x7 x8 x9 : Vec Ideal S128x64 .bf16)
    (x10 : Vec Ideal S1x64 .f32) (n : Fin 1024) (k : Fin 64) :
    k0_pay16 (k0_pay3 x1) (k0_pay4 x2) (k0_pay5 x0) (k0_pay6 x0) (k0_pay7 x0) (k0_pay8 x1) (k0_pay9 x0 x1)
        (k0_pay10 x0 x1) (k0_pay11 x3) (k0_pay12 x4) (k0_pay13 x5) x6 x7 x8 x9 x10 (ix2 n k)
      = Ideal.tanh (GruCell.fConvW (fun i j => x0 (ix3 (0 : Fin 1) i j))
          (GruCell.cat (fun n k => x1 (ix3 (0 : Fin 1) n (GruCell.lo k)))
            (fun n k => Ideal.logistic (GruCell.fConvW (fun i j => x0 (ix3 (0 : Fin 1) i j))
                (fun n f => x1 (ix3 (0 : Fin 1) n f)) (fun f o => x3 (ix2 f o)) (fun f o => x4 (ix2 f o))
                (fun f o => x5 (ix2 f o)) (fun o => x6 (ix2 (0 : Fin 1) o)) n (GruCell.lo k))
              * x2 (ix3 (0 : Fin 1) n k)))
          (fun f o => x7 (ix2 f o)) (fun f o => x8 (ix2 f o)) (fun f o => x9 (ix2 f o))
          (fun o => x10 (ix2 (0 : Fin 1) o)) n k) := by
  rw [cand_at]
  have hX : candX (k0_pay3 x1)
        (k0_pay14 (k0_pay8 x1) (k0_pay9 x0 x1) (k0_pay10 x0 x1) (k0_pay11 x3) (k0_pay12 x4) (k0_pay13 x5) x6) (k0_pay4 x2)
      = GruCell.cat (fun n k => x1 (ix3 (0 : Fin 1) n (GruCell.lo k)))
          (fun n k => Ideal.logistic (GruCell.fConvW (fun i j => x0 (ix3 (0 : Fin 1) i j))
              (fun n f => x1 (ix3 (0 : Fin 1) n f)) (fun f o => x3 (ix2 f o)) (fun f o => x4 (ix2 f o))
              (fun f o => x5 (ix2 f o)) (fun o => x6 (ix2 (0 : Fin 1) o)) n (GruCell.lo k))
            * x2 (ix3 (0 : Fin 1) n k)) := by
    unfold candX
    simp only [pay3_at, pay14_at, pay4_at]
  rw [hX]
  generalize GruCell.cat (fun n k => x1 (ix3 (0 : Fin 1) n (GruCell.lo k)))
      (fun n k => Ideal.logistic (GruCell.fConvW (fun i j => x0 (ix3 (0 : Fin 1) i j))
          (fun n f => x1 (ix3 (0 : Fin 1) n f)) (fun f o => x3 (ix2 f o)) (fun f o => x4 (ix2 f o))
          (fun f o => x5 (ix2 f o)) (fun o => x6 (ix2 (0 : Fin 1) o)) n (GruCell.lo k))
        * x2 (ix3 (0 : Fin 1) n k)) = Z
  unfold GruCell.fConvW GruCell.fHop0 GruCell.fHop1
  simp only [pay5_at, pay6_at, pay7_at]

/-! ### The stored value -/

/-- The new state over any operands: `u·h + (1 − u)·c`, cast back to a one-block array. -/
theorem pay1_at (v5 v47 v77 : FVec Ideal S1024x64 .f32) (n : Fin 1024) (k : Fin 64) :
    k0_pay1 v5 v47 v77 (ix3 (0 : Fin 1) n k)
      = v47 (ix2 n k) * v5 (ix2 n k) + (1 - v47 (ix2 n k)) * v77 (ix2 n k) := by
  unfold k0_pay1
  refine (shapeCast_ab_1ab_apply _ _ (0 : Fin 1) n k).trans ?_
  show v47 (ix2 n k) * v5 (ix2 n k) + (Ideal.ofBits .f32 0x3F800000#32 - v47 (ix2 n k)) * v77 (ix2 n k) = _
  rw [GruCell.one_f32]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in its output block at row `n`, column `k`, as the gated cell over the fused convolution
    of the eleven input blocks: `x0` the adjacency block, `x1` the features, `x2` the state, `x3 x4 x5 x6` the gate
    weights and bias, `x7 x8 x9 x10` the candidate's. -/
theorem out_at (x0 : Vec Ideal S1x1024x1024 .f32) (x1 : Vec Ideal S1x1024x128 .f32) (x2 : Vec Ideal S1x1024x64 .f32)
    (x3 x4 x5 : Vec Ideal S128x128 .bf16) (x6 : Vec Ideal S1x128 .f32) (x7 x8 x9 : Vec Ideal S128x64 .bf16)
    (x10 : Vec Ideal S1x64 .f32) (n : Fin 1024) (k : Fin 64) :
    out0_11 (F := Ideal) x0 x1 x2 x3 x4 x5 x6 x7 x8 x9 x10 (ix3 (0 : Fin 1) n k)
      = GruCell.cellX
          (fun x => GruCell.fConvW (fun i j => x0 (ix3 (0 : Fin 1) i j)) x (fun f o => x3 (ix2 f o))
            (fun f o => x4 (ix2 f o)) (fun f o => x5 (ix2 f o)) (fun o => x6 (ix2 (0 : Fin 1) o)))
          (fun x => GruCell.fConvW (fun i j => x0 (ix3 (0 : Fin 1) i j)) x (fun f o => x7 (ix2 f o))
            (fun f o => x8 (ix2 f o)) (fun f o => x9 (ix2 f o)) (fun o => x10 (ix2 (0 : Fin 1) o)))
          (fun n f => x1 (ix3 (0 : Fin 1) n f)) (fun n k => x2 (ix3 (0 : Fin 1) n k)) n k := by
  unfold out0_11
  rw [View.canon_unit_zero hz3]
  simp only [View.ld_unit_zero (S := S1x1024x1024) hz3, View.ld_unit_zero (S := S1x1024x128) hz3,
    View.ld_unit_zero (S := S1x1024x64) hz3, View.ld_unit_zero (S := S128x128) hz2,
    View.ld_unit_zero (S := S1x128) hz2, View.ld_unit_zero (S := S128x64) hz2, View.ld_unit_zero (S := S1x64) hz2]
  rw [pay1_at, pay15_at, pay16_at, pay4_at]
  rfl

end Cert.KernelIdeal.BodyValue

end
-- ==== Proof.KernelHost.lean ====
/-
  The arrays the host lines before the region compute, each read at an entry.

  Every such array is a short composition of layout operations and one addition over the argument arrays:
  * the inputs and the state, `[16, 65536]`, are read as `[16, 1024, 64]` (entry `(b, n, k)` is the argument at
    `(b, 64 n + k)`) and joined along the last axis;
  * a `[384, O]` weight array is read as `[128, 3, O]`, cut at `t` on the middle axis and read as `[128, O]`: entry
    `(f, o)` is the argument's row `3 f + t`; two such terms are added and converted to a narrower float type,
    which on the extended reals changes nothing;
  * two bias vectors are added and read as one row.
  First each layout operation is read at an entry over ANY array; then each buffer is identified with its
  composition of the arguments; the statements follow by composing the two.
-/
import proofs.«165569_j9328668967409_2_alg».proof.Proof.Gen.KernelIdeal.Frame
import proofs.«165569_j9328668967409_2_alg».proof.Proof.CellSpec
import Idealize.ShloMosaic.Lib.Pipeline.Value

set_option maxRecDepth 16384

noncomputable section

open Idealize.ShloMosaic Idealize.ShloMosaic.ValueIdx

namespace Cert.KernelIdeal.HostValue

open Cert.KernelIdeal Cert.KernelIdeal.Gen

variable (m : (ℓ : Loc nD τ sig) → Buf (Elt Ideal) ℓ) (c : Dev nD)

/-! ### The layout operations of the host lines, each read at an entry over any array -/

/-- A `[16, 65536]` array reshaped to `[16, 1024, 64]`: entry `(b, n, k)` is the array at `(b, 64 n + k)` (both sit at
    row-major position `65536 b + 64 n + k`). -/
theorem node_read (v : FVec Ideal S16x65536 .f32) (h : S16x65536.ShapeCasts S16x1024x64)
    (b : Fin 16) (n : Fin 1024) (k : Fin 64) :
    shapeCast S16x1024x64 v h (ix3 b n k) = GruCell.node v b n k := by
  unfold GruCell.node
  exact shapeCast_apply v h (ix3 b n k) (ix2 b ⟨n.val * 64 + k.val, by omega⟩)
    (by rewrite [Shape.rowMajor_val_two, Shape.rowMajor_val_three]
        show b.val * 65536 + (n.val * 64 + k.val) = (b.val * 1024 + n.val) * 64 + k.val; omega)

/-- Two `[16, 1024, 64]` arrays joined along the last axis: columns below 64 read the first, the others the second
    64 columns back. -/
theorem cat_read (P Q : FVec Ideal S16x1024x64 .f32)
    (h : Shape.Concatenates [S16x1024x64, S16x1024x64] S16x1024x128 2) (b : Fin 16) (n : Fin 1024) (f : Fin 128) :
    concatenate S16x1024x128 2 [⟨S16x1024x64, P⟩, ⟨S16x1024x64, Q⟩] h (ix3 b n f)
      = GruCell.cat (fun n k => P (ix3 b n k)) (fun n k => Q (ix3 b n k)) n f := by
  unfold GruCell.cat
  by_cases hf : f.val < 64
  · rw [dif_pos hf]
    exact concatenate_pair_apply_left 2 P Q h (ix3 b n f) rfl (ix3 b n ⟨f.val, hf⟩) (fun a => match a with
      | ⟨0, _⟩ => rfl
      | ⟨1, _⟩ => rfl
      | ⟨2, _⟩ => rfl)
  · rw [dif_neg hf]
    exact concatenate_pair_apply_right 2 P Q h (ix3 b n f) rfl rfl (ix3 b n ⟨f.val - 64, by omega⟩)
      (fun a ha => match a, ha with
        | ⟨0, _⟩, _ => rfl
        | ⟨1, _⟩, _ => rfl
        | ⟨2, _⟩, ha => absurd rfl ha)
      (by show f.val - 64 + 64 = f.val; omega)

/-- Diffusion term `t` of a `[384, 128]` weight array: the array read as `[128, 3, 128]`, its slice at `t` on the middle
    axis, read as `[128, 128]`. Entry `(f, o)` is the array's row `3 f + t`, column `o`. -/
theorem term128_read (W : FVec Ideal S384x128 .f32) (t : Fin 3) (off : Fin 3 → Nat)
    (h0 : off 0 = 0) (h1 : off 1 = t.val) (h2 : off 2 = 0)
    (hc : S384x128.ShapeCasts S128x3x128) (hs : S128x3x128.Slices off S128x1x128) (hd : S128x1x128.ShapeCasts S128x128)
    (f : Fin 128) (o : Fin 128) :
    shapeCast S128x128 (extractStridedSlice S128x1x128 off (shapeCast S128x3x128 W hc) hs) hd (ix2 f o)
      = GruCell.mat W (GruCell.row3 f t) o := by
  unfold GruCell.mat GruCell.row3
  refine (shapeCast_apply _ hd (ix2 f o) (ix3 f (0 : Fin 1) o)
    (by rewrite [Shape.rowMajor_val_three, Shape.rowMajor_val_two]
        show (f.val * 1 + 0) * 128 + o.val = f.val * 128 + o.val; omega)).trans ?_
  refine (extractStridedSlice_apply off _ hs (ix3 f (0 : Fin 1) o) (ix3 f t o) (fun a => match a with
    | ⟨0, _⟩ => by show f.val = off 0 + f.val; omega
    | ⟨1, _⟩ => by show t.val = off 1 + 0; omega
    | ⟨2, _⟩ => by show o.val = off 2 + o.val; omega)).trans ?_
  exact shapeCast_apply W hc (ix3 f t o) (ix2 ⟨3 * f.val + t.val, by omega⟩ o)
    (by rewrite [Shape.rowMajor_val_two, Shape.rowMajor_val_three]
        show (3 * f.val + t.val) * 128 + o.val = (f.val * 3 + t.val) * 128 + o.val; omega)

/-- The same for a `[384, 64]` weight array. -/
theorem term64_read (W : FVec Ideal S384x64 .f32) (t : Fin 3) (off : Fin 3 → Nat)
    (h0 : off 0 = 0) (h1 : off 1 = t.val) (h2 : off 2 = 0)
    (hc : S384x64.ShapeCasts S128x3x64) (hs : S128x3x64.Slices off S128x1x64) (hd : S128x1x64.ShapeCasts S128x64)
    (f : Fin 128) (o : Fin 64) :
    shapeCast S128x64 (extractStridedSlice S128x1x64 off (shapeCast S128x3x64 W hc) hs) hd (ix2 f o)
      = GruCell.mat W (GruCell.row3 f t) o := by
  unfold GruCell.mat GruCell.row3
  refine (shapeCast_apply _ hd (ix2 f o) (ix3 f (0 : Fin 1) o)
    (by rewrite [Shape.rowMajor_val_three, Shape.rowMajor_val_two]
        show (f.val * 1 + 0) * 64 + o.val = f.val * 64 + o.val; omega)).trans ?_
  refine (extractStridedSlice_apply off _ hs (ix3 f (0 : Fin 1) o) (ix3 f t o) (fun a => match a with
    | ⟨0, _⟩ => by show f.val = off 0 + f.val; omega
    | ⟨1, _⟩ => by show t.val = off 1 + 0; omega
    | ⟨2, _⟩ => by show o.val = off 2 + o.val; omega)).trans ?_
  exact shapeCast_apply W hc (ix3 f t o) (ix2 ⟨3 * f.val + t.val, by omega⟩ o)
    (by rewrite [Shape.rowMajor_val_two, Shape.rowMajor_val_three]
        show (3 * f.val + t.val) * 64 + o.val = (f.val * 3 + t.val) * 64 + o.val; omega)

/-- A vector of `n` entries read as one row: entry `(0, o)` is entry `o`. -/
theorem row128_read (v : FVec Ideal S128 .f32) (h : S128.ShapeCasts S1x128) (o : Fin 128) :
    shapeCast S1x128 v h (ix2 (0 : Fin 1) o) = GruCell.vec v o := by
  unfold GruCell.vec
  exact shapeCast_apply v h (ix2 (0 : Fin 1) o) (ix1 o)
    (by rewrite [Shape.rowMajor_val_one, Shape.rowMajor_val_two]; show o.val = 0 * 128 + o.val; omega)
theorem row64_read (v : FVec Ideal S64 .f32) (h : S64.ShapeCasts S1x64) (o : Fin 64) :
    shapeCast S1x64 v h (ix2 (0 : Fin 1) o) = GruCell.vec v o := by
  unfold GruCell.vec
  exact shapeCast_apply v h (ix2 (0 : Fin 1) o) (ix1 o)
    (by rewrite [Shape.rowMajor_val_one, Shape.rowMajor_val_two]; show o.val = 0 * 64 + o.val; omega)

/-! ### The arrays as the host lines' terms of the arguments -/

/-- The state, reshaped. -/
theorem v1_eq : (V m c main_v1 : S16x1024x64.Idx → EReal)
    = shapeCast S16x1024x64 (m ((c.tc : Thread nD τ).loc main_arg1) : S16x65536.Idx → EReal) shapeCasts_S16x65536_S16x1024x64 := by
  show StableHlo.after hostOps0 (fun b => m (c, b)) (Proc.devRef .tc main_v1) = _
  after_results
  rfl

/-- Inputs and state, each reshaped, joined along the last axis. -/
theorem v2_eq : (V m c main_v2 : S16x1024x128.Idx → EReal)
    = concatenate S16x1024x128 2
        [⟨S16x1024x64, shapeCast S16x1024x64 (m ((c.tc : Thread nD τ).loc main_arg0) : S16x65536.Idx → EReal) shapeCasts_S16x65536_S16x1024x64⟩,
         ⟨S16x1024x64, shapeCast S16x1024x64 (m ((c.tc : Thread nD τ).loc main_arg1) : S16x65536.Idx → EReal) shapeCasts_S16x65536_S16x1024x64⟩]
        concatenates_S16x1024x64_S16x1024x64_S16x1024x128_d2 := by
  show StableHlo.after hostOps0 (fun b => m (c, b)) (Proc.devRef .tc main_v2) = _
  after_results
  rfl

/-- Diffusion term at offsets `off` of a `[384, 128]` weight array, as the host lines spell it. -/
abbrev term128 (W : FVec Ideal S384x128 .f32) (off : Fin 3 → Nat) (hs : S128x3x128.Slices off S128x1x128) :
    FVec Ideal S128x128 .f32 :=
  shapeCast S128x128 (extractStridedSlice S128x1x128 off (shapeCast S128x3x128 W shapeCasts_S384x128_S128x3x128) hs)
    shapeCasts_S128x1x128_S128x128
/-- Diffusion term at offsets `off` of a `[384, 64]` weight array, as the host lines spell it. -/
abbrev term64 (W : FVec Ideal S384x64 .f32) (off : Fin 3 → Nat) (hs : S128x3x64.Slices off S128x1x64) :
    FVec Ideal S128x64 .f32 :=
  shapeCast S128x64 (extractStridedSlice S128x1x64 off (shapeCast S128x3x64 W shapeCasts_S384x64_S128x3x64) hs)
    shapeCasts_S128x1x64_S128x64

theorem v20_eq : (V m c main_v20 : S128x128.Idx → EReal)
    = truncf .bf16 (addf (term128 (m ((c.tc : Thread nD τ).loc main_arg3)) ![0, 0, 0] slices_S128x3x128_S128x1x128_0_0_0)
        (term128 (m ((c.tc : Thread nD τ).loc main_arg5)) ![0, 0, 0] slices_S128x3x128_S128x1x128_0_0_0)) bitsLt_bf16_f32 := by
  show StableHlo.after hostOps0 (fun b => m (c, b)) (Proc.devRef .tc main_v20) = _
  after_results_simp
  rfl
theorem v21_eq : (V m c main_v21 : S128x128.Idx → EReal)
    = truncf .bf16 (addf (term128 (m ((c.tc : Thread nD τ).loc main_arg3)) ![0, 1, 0] slices_S128x3x128_S128x1x128_0_1_0)
        (term128 (m ((c.tc : Thread nD τ).loc main_arg3)) ![0, 2, 0] slices_S128x3x128_S128x1x128_0_2_0)) bitsLt_bf16_f32 := by
  show StableHlo.after hostOps0 (fun b => m (c, b)) (Proc.devRef .tc main_v21) = _
  after_results_simp
  rfl
theorem v22_eq : (V m c main_v22 : S128x128.Idx → EReal)
    = truncf .bf16 (addf (term128 (m ((c.tc : Thread nD τ).loc main_arg5)) ![0, 1, 0] slices_S128x3x128_S128x1x128_0_1_0)
        (term128 (m ((c.tc : Thread nD τ).loc main_arg5)) ![0, 2, 0] slices_S128x3x128_S128x1x128_0_2_0)) bitsLt_bf16_f32 := by
  show StableHlo.after hostOps0 (fun b => m (c, b)) (Proc.devRef .tc main_v22) = _
  after_results_simp
  rfl
theorem v24_eq : (V m c main_v24 : S1x128.Idx → EReal)
    = shapeCast S1x128 (addf (F := Ideal) (s := S128) (φ := .f32) (m ((c.tc : Thread nD τ).loc main_arg4)) (m ((c.tc : Thread nD τ).loc main_arg6))) shapeCasts_S128_S1x128 := by
  show StableHlo.after hostOps0 (fun b => m (c, b)) (Proc.devRef .tc main_v24) = _
  after_results_simp
  rfl
theorem v42_eq : (V m c main_v42 : S128x64.Idx → EReal)
    = truncf .bf16 (addf (term64 (m ((c.tc : Thread nD τ).loc main_arg7)) ![0, 0, 0] slices_S128x3x64_S128x1x64_0_0_0)
        (term64 (m ((c.tc : Thread nD τ).loc main_arg9)) ![0, 0, 0] slices_S128x3x64_S128x1x64_0_0_0)) bitsLt_bf16_f32 := by
  show StableHlo.after hostOps0 (fun b => m (c, b)) (Proc.devRef .tc main_v42) = _
  after_results_simp
  rfl
theorem v43_eq : (V m c main_v43 : S128x64.Idx → EReal)
    = truncf .bf16 (addf (term64 (m ((c.tc : Thread nD τ).loc main_arg7)) ![0, 1, 0] slices_S128x3x64_S128x1x64_0_1_0)
        (term64 (m ((c.tc : Thread nD τ).loc main_arg7)) ![0, 2, 0] slices_S128x3x64_S128x1x64_0_2_0)) bitsLt_bf16_f32 := by
  show StableHlo.after hostOps0 (fun b => m (c, b)) (Proc.devRef .tc main_v43) = _
  after_results_simp
  rfl
theorem v44_eq : (V m c main_v44 : S128x64.Idx → EReal)
    = truncf .bf16 (addf (term64 (m ((c.tc : Thread nD τ).loc main_arg9)) ![0, 1, 0] slices_S128x3x64_S128x1x64_0_1_0)
        (term64 (m ((c.tc : Thread nD τ).loc main_arg9)) ![0, 2, 0] slices_S128x3x64_S128x1x64_0_2_0)) bitsLt_bf16_f32 := by
  show StableHlo.after hostOps0 (fun b => m (c, b)) (Proc.devRef .tc main_v44) = _
  after_results_simp
  rfl
theorem v46_eq : (V m c main_v46 : S1x64.Idx → EReal)
    = shapeCast S1x64 (addf (F := Ideal) (s := S64) (φ := .f32) (m ((c.tc : Thread nD τ).loc main_arg8)) (m ((c.tc : Thread nD τ).loc main_arg10))) shapeCasts_S64_S1x64 := by
  show StableHlo.after hostOps0 (fun b => m (c, b)) (Proc.devRef .tc main_v46) = _
  after_results_simp
  rfl

/-! ### The arrays at an entry -/

/-- Two diffusion terms of `[384, 128]` weight arrays added and converted (the conversion is the identity on the
    extended reals): rows `3 f + t` and `3 f + t'` added. -/
theorem sum128_read (W W' : FVec Ideal S384x128 .f32) (t t' : Fin 3) (off off' : Fin 3 → Nat)
    (h0 : off 0 = 0) (h1 : off 1 = t.val) (h2 : off 2 = 0) (h0' : off' 0 = 0) (h1' : off' 1 = t'.val) (h2' : off' 2 = 0)
    (hs : S128x3x128.Slices off S128x1x128) (hs' : S128x3x128.Slices off' S128x1x128) (f : Fin 128) (o : Fin 128) :
    (truncf .bf16 (addf (term128 W off hs) (term128 W' off' hs')) bitsLt_bf16_f32 : FVec Ideal S128x128 .bf16) (ix2 f o)
      = GruCell.mat W (GruCell.row3 f t) o + GruCell.mat W' (GruCell.row3 f t') o :=
  congrArg₂ (· + ·) (term128_read W t off h0 h1 h2 _ hs _ f o) (term128_read W' t' off' h0' h1' h2' _ hs' _ f o)
/-- The same for `[384, 64]` weight arrays. -/
theorem sum64_read (W W' : FVec Ideal S384x64 .f32) (t t' : Fin 3) (off off' : Fin 3 → Nat)
    (h0 : off 0 = 0) (h1 : off 1 = t.val) (h2 : off 2 = 0) (h0' : off' 0 = 0) (h1' : off' 1 = t'.val) (h2' : off' 2 = 0)
    (hs : S128x3x64.Slices off S128x1x64) (hs' : S128x3x64.Slices off' S128x1x64) (f : Fin 128) (o : Fin 64) :
    (truncf .bf16 (addf (term64 W off hs) (term64 W' off' hs')) bitsLt_bf16_f32 : FVec Ideal S128x64 .bf16) (ix2 f o)
      = GruCell.mat W (GruCell.row3 f t) o + GruCell.mat W' (GruCell.row3 f t') o :=
  congrArg₂ (· + ·) (term64_read W t off h0 h1 h2 _ hs _ f o) (term64_read W' t' off' h0' h1' h2' _ hs' _ f o)

/-- Two reshaped `[16, 65536]` arrays joined along the last axis, at an entry. -/
theorem feat_read (x y : FVec Ideal S16x65536 .f32) (hc : S16x65536.ShapeCasts S16x1024x64)
    (hcat : Shape.Concatenates [S16x1024x64, S16x1024x64] S16x1024x128 2) (b : Fin 16) (n : Fin 1024) (f : Fin 128) :
    concatenate S16x1024x128 2 [⟨S16x1024x64, shapeCast S16x1024x64 x hc⟩, ⟨S16x1024x64, shapeCast S16x1024x64 y hc⟩] hcat (ix3 b n f)
      = GruCell.cat (GruCell.node x b) (GruCell.node y b) n f := by
  have hP : (fun (n : Fin 1024) (k : Fin 64) => shapeCast S16x1024x64 x hc (ix3 b n k)) = GruCell.node x b :=
    funext fun n => funext fun k => node_read x hc b n k
  have hQ : (fun (n : Fin 1024) (k : Fin 64) => shapeCast S16x1024x64 y hc (ix3 b n k)) = GruCell.node y b :=
    funext fun n => funext fun k => node_read y hc b n k
  rw [cat_read, hP, hQ]

/-- The features: inputs and state, each `[16, 65536]` read as `[16, 1024, 64]`, side by side. -/
theorem feat_at (b : Fin 16) (n : Fin 1024) (f : Fin 128) :
    (V m c main_v2 : S16x1024x128.Idx → EReal) (ix3 b n f)
      = GruCell.cat (GruCell.node (m ((c.tc : Thread nD τ).loc main_arg0)) b) (GruCell.node (m ((c.tc : Thread nD τ).loc main_arg1)) b) n f :=
  (congrFun (v2_eq m c) (ix3 b n f)).trans (feat_read _ _ _ _ b n f)
/-- The state read as `[16, 1024, 64]`. -/
theorem state_at (b : Fin 16) (n : Fin 1024) (k : Fin 64) :
    (V m c main_v1 : S16x1024x64.Idx → EReal) (ix3 b n k) = GruCell.node (m ((c.tc : Thread nD τ).loc main_arg1)) b n k :=
  (congrFun (v1_eq m c) (ix3 b n k)).trans (node_read _ _ b n k)
/-- Gate weights, term 0 of both graphs added. -/
theorem gw0_at (f : Fin 128) (o : Fin 128) :
    (V m c main_v20 : S128x128.Idx → EReal) (ix2 f o)
      = GruCell.mat (m ((c.tc : Thread nD τ).loc main_arg3)) (GruCell.row3 f 0) o + GruCell.mat (m ((c.tc : Thread nD τ).loc main_arg5)) (GruCell.row3 f 0) o :=
  (congrFun (v20_eq m c) (ix2 f o)).trans (sum128_read _ _ 0 0 ![0, 0, 0] ![0, 0, 0] rfl rfl rfl rfl rfl rfl _ _ f o)
/-- Gate weights of the first graph, terms 1 and 2 added. -/
theorem gw1_at (f : Fin 128) (o : Fin 128) :
    (V m c main_v21 : S128x128.Idx → EReal) (ix2 f o)
      = GruCell.mat (m ((c.tc : Thread nD τ).loc main_arg3)) (GruCell.row3 f 1) o + GruCell.mat (m ((c.tc : Thread nD τ).loc main_arg3)) (GruCell.row3 f 2) o :=
  (congrFun (v21_eq m c) (ix2 f o)).trans (sum128_read _ _ 1 2 ![0, 1, 0] ![0, 2, 0] rfl rfl rfl rfl rfl rfl _ _ f o)
/-- Gate weights of the second graph, terms 1 and 2 added. -/
theorem gw2_at (f : Fin 128) (o : Fin 128) :
    (V m c main_v22 : S128x128.Idx → EReal) (ix2 f o)
      = GruCell.mat (m ((c.tc : Thread nD τ).loc main_arg5)) (GruCell.row3 f 1) o + GruCell.mat (m ((c.tc : Thread nD τ).loc main_arg5)) (GruCell.row3 f 2) o :=
  (congrFun (v22_eq m c) (ix2 f o)).trans (sum128_read _ _ 1 2 ![0, 1, 0] ![0, 2, 0] rfl rfl rfl rfl rfl rfl _ _ f o)
/-- The gate biases added, as a row. -/
theorem gb_at (o : Fin 128) :
    (V m c main_v24 : S1x128.Idx → EReal) (ix2 (0 : Fin 1) o) = GruCell.vec (m ((c.tc : Thread nD τ).loc main_arg4)) o + GruCell.vec (m ((c.tc : Thread nD τ).loc main_arg6)) o :=
  (congrFun (v24_eq m c) (ix2 (0 : Fin 1) o)).trans (row128_read _ _ o)
/-- Candidate weights, term 0 of both graphs added. -/
theorem cw0_at (f : Fin 128) (o : Fin 64) :
    (V m c main_v42 : S128x64.Idx → EReal) (ix2 f o)
      = GruCell.mat (m ((c.tc : Thread nD τ).loc main_arg7)) (GruCell.row3 f 0) o + GruCell.mat (m ((c.tc : Thread nD τ).loc main_arg9)) (GruCell.row3 f 0) o :=
  (congrFun (v42_eq m c) (ix2 f o)).trans (sum64_read _ _ 0 0 ![0, 0, 0] ![0, 0, 0] rfl rfl rfl rfl rfl rfl _ _ f o)
/-- Candidate weights of the first graph, terms 1 and 2 added. -/
theorem cw1_at (f : Fin 128) (o : Fin 64) :
    (V m c main_v43 : S128x64.Idx → EReal) (ix2 f o)
      = GruCell.mat (m ((c.tc : Thread nD τ).loc main_arg7)) (GruCell.row3 f 1) o + GruCell.mat (m ((c.tc : Thread nD τ).loc main_arg7)) (GruCell.row3 f 2) o :=
  (congrFun (v43_eq m c) (ix2 f o)).trans (sum64_read _ _ 1 2 ![0, 1, 0] ![0, 2, 0] rfl rfl rfl rfl rfl rfl _ _ f o)
/-- Candidate weights of the second graph, terms 1 and 2 added. -/
theorem cw2_at (f : Fin 128) (o : Fin 64) :
    (V m c main_v44 : S128x64.Idx → EReal) (ix2 f o)
      = GruCell.mat (m ((c.tc : Thread nD τ).loc main_arg9)) (GruCell.row3 f 1) o + GruCell.mat (m ((c.tc : Thread nD τ).loc main_arg9)) (GruCell.row3 f 2) o :=
  (congrFun (v44_eq m c) (ix2 f o)).trans (sum64_read _ _ 1 2 ![0, 1, 0] ![0, 2, 0] rfl rfl rfl rfl rfl rfl _ _ f o)
/-- The candidate biases added, as a row. -/
theorem cb_at (o : Fin 64) :
    (V m c main_v46 : S1x64.Idx → EReal) (ix2 (0 : Fin 1) o) = GruCell.vec (m ((c.tc : Thread nD τ).loc main_arg8)) o + GruCell.vec (m ((c.tc : Thread nD τ).loc main_arg10)) o :=
  (congrFun (v46_eq m c) (ix2 (0 : Fin 1) o)).trans (row64_read _ _ o)

end Cert.KernelIdeal.HostValue

end
-- ==== Proof.KernelRun.lean ====
/-
  The idealized kernel's run: its result array is the fused cell of the arguments.

  The region runs on a grid of 16 points, one per batch element. At point t the adjacency, feature and state windows hold
  batch element t of their arrays, the eight weight and bias windows hold their whole arrays, and the output window's
  block is batch element t of the output array [16, 1024, 64]. The body's output entry is the gated cell over the fused
  convolution of those blocks; with the host lines' arrays read entry by entry this is the fused cell of the argument
  arrays at batch element t. The 16 blocks tile the output array, so it ends holding the fused cell at every entry, and
  the one host line after the region reads it as [16, 65536].
-/
import proofs.«165569_j9328668967409_2_alg».proof.Proof.Gen.KernelIdeal.Frame
import proofs.«165569_j9328668967409_2_alg».proof.Proof.CellSpec
import proofs.«165569_j9328668967409_2_alg».proof.Proof.KernelBody
import proofs.«165569_j9328668967409_2_alg».proof.Proof.KernelHost
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.RunValue

open Cert.KernelIdeal Cert.KernelIdeal.Gen

section blocks

variable (m : (ℓ : Loc nD τ sig) → Buf (Elt Ideal) ℓ)

/-- Where the blocked windows' blocks sit at grid point t: block t along the batch axis, block 0 along the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- The weight and bias windows are whole arrays at every grid point: block 0 on both axes. -/
theorem idx_facts_w : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- The batch element a grid point works on. -/
def pt (t : Fin cfg0.N) : Fin 16 := ⟨t.val, lt_of_lt_of_eq t.isLt N_0⟩

/-- The adjacency block at point t is batch element t of the adjacency argument. -/
theorem adj_blk (c : Dev nD) (t : Fin cfg0.N) (i j : Fin 1024) :
    (iblk m c 0 t : Vec Ideal S1x1024x1024 .f32) (ix3 (0 : Fin 1) i j)
      = (m ((c : Thread nD τ).loc main_arg2) : S16x1024x1024.Idx → EReal) (ix3 (pt t) i j) := by
  obtain ⟨e0, e1, e2, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 1024 + 1 * j.val = j.val; omega

/-- The feature block at point t is batch element t of the feature array. -/
theorem feat_blk (c : Dev nD) (t : Fin cfg0.N) (n : Fin 1024) (f : Fin 128) :
    (iblk m c 1 t : Vec Ideal S1x1024x128 .f32) (ix3 (0 : Fin 1) n f)
      = (V m c main_v2 : S16x1024x128.Idx → EReal) (ix3 (pt t) n f) := by
  obtain ⟨-, -, -, e0, e1, e2, -⟩ := idx_facts t
  unfold iblk
  rw [View.read_apply]
  show V m c main_v2 _ = _
  refine congrArg (V m c main_v2) (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 128 + 1 * f.val = f.val; omega

/-- The state block at point t is batch element t of the state array. -/
theorem state_blk (c : Dev nD) (t : Fin cfg0.N) (n : Fin 1024) (k : Fin 64) :
    (iblk m c 2 t : Vec Ideal S1x1024x64 .f32) (ix3 (0 : Fin 1) n k)
      = (V m c main_v1 : S16x1024x64.Idx → EReal) (ix3 (pt t) n k) := by
  obtain ⟨-, -, -, -, -, -, e0, e1, e2, -⟩ := idx_facts t
  unfold iblk
  rw [View.read_apply]
  show V m c main_v1 _ = _
  refine congrArg (V m c main_v1) (funext fun a => Fin.ext ?_)
  match a with
  | ⟨0, _⟩ => show win0_2.index t (0 : Fin 3) * 1 + 1 * 0 = t.val; omega
  | ⟨1, _⟩ => show win0_2.index t (1 : Fin 3) * 1024 + 1 * n.val = n.val; omega
  | ⟨2, _⟩ => show win0_2.index t (2 : Fin 3) * 64 + 1 * k.val = k.val; omega

/-! The weight and bias blocks are the whole arrays the host lines prepared. -/

theorem w3_blk (c : Dev nD) (t : Fin cfg0.N) (f : Fin 128) (o : Fin 128) :
    (iblk m c 3 t : Vec Ideal S128x128 .bf16) (ix2 f o) = (V m c main_v20 : S128x128.Idx → EReal) (ix2 f o) := by
  obtain ⟨e0, e1, -⟩ := idx_facts_w t
  unfold iblk
  rw [View.read_apply]
  show V m c main_v20 _ = _
  refine congrArg (V m c main_v20) (funext fun a => Fin.ext ?_)
  match a with
  | ⟨0, _⟩ => show win0_3.index t (0 : Fin 2) * 128 + 1 * f.val = f.val; omega
  | ⟨1, _⟩ => show win0_3.index t (1 : Fin 2) * 128 + 1 * o.val = o.val; omega

theorem w4_blk (c : Dev nD) (t : Fin cfg0.N) (f : Fin 128) (o : Fin 128) :
    (iblk m c 4 t : Vec Ideal S128x128 .bf16) (ix2 f o) = (V m c main_v21 : S128x128.Idx → EReal) (ix2 f o) := by
  obtain ⟨-, -, e0, e1, -⟩ := idx_facts_w t
  unfold iblk
  rw [View.read_apply]
  show V m c main_v21 _ = _
  refine congrArg (V m c main_v21) (funext fun a => Fin.ext ?_)
  match a with
  | ⟨0, _⟩ => show win0_4.index t (0 : Fin 2) * 128 + 1 * f.val = f.val; omega
  | ⟨1, _⟩ => show win0_4.index t (1 : Fin 2) * 128 + 1 * o.val = o.val; omega

theorem w5_blk (c : Dev nD) (t : Fin cfg0.N) (f : Fin 128) (o : Fin 128) :
    (iblk m c 5 t : Vec Ideal S128x128 .bf16) (ix2 f o) = (V m c main_v22 : S128x128.Idx → EReal) (ix2 f o) := by
  obtain ⟨-, -, -, -, e0, e1, -⟩ := idx_facts_w t
  unfold iblk
  rw [View.read_apply]
  show V m c main_v22 _ = _
  refine congrArg (V m c main_v22) (funext fun a => Fin.ext ?_)
  match a with
  | ⟨0, _⟩ => show win0_5.index t (0 : Fin 2) * 128 + 1 * f.val = f.val; omega
  | ⟨1, _⟩ => show win0_5.index t (1 : Fin 2) * 128 + 1 * o.val = o.val; omega

theorem w6_blk (c : Dev nD) (t : Fin cfg0.N) (o : Fin 128) :
    (iblk m c 6 t : Vec Ideal S1x128 .f32) (ix2 (0 : Fin 1) o) = (V m c main_v24 : S1x128.Idx → EReal) (ix2 (0 : Fin 1) o) := by
  obtain ⟨-, -, -, -, -, -, e0, e1, -⟩ := idx_facts_w t
  unfold iblk
  rw [View.read_apply]
  show V m c main_v24 _ = _
  refine congrArg (V m c main_v24) (funext fun a => Fin.ext ?_)
  match a with
  | ⟨0, _⟩ => show win0_6.index t (0 : Fin 2) * 1 + 1 * 0 = 0; omega
  | ⟨1, _⟩ => show win0_6.index t (1 : Fin 2) * 128 + 1 * o.val = o.val; omega

theorem w7_blk (c : Dev nD) (t : Fin cfg0.N) (f : Fin 128) (o : Fin 64) :
    (iblk m c 7 t : Vec Ideal S128x64 .bf16) (ix2 f o) = (V m c main_v42 : S128x64.Idx → EReal) (ix2 f o) := by
  obtain ⟨-, -, -, -, -, -, -, -, e0, e1, -⟩ := idx_facts_w t
  unfold iblk
  rw [View.read_apply]
  show V m c main_v42 _ = _
  refine congrArg (V m c main_v42) (funext fun a => Fin.ext ?_)
  match a with
  | ⟨0, _⟩ => show win0_7.index t (0 : Fin 2) * 128 + 1 * f.val = f.val; omega
  | ⟨1, _⟩ => show win0_7.index t (1 : Fin 2) * 64 + 1 * o.val = o.val; omega

theorem w8_blk (c : Dev nD) (t : Fin cfg0.N) (f : Fin 128) (o : Fin 64) :
    (iblk m c 8 t : Vec Ideal S128x64 .bf16) (ix2 f o) = (V m c main_v43 : S128x64.Idx → EReal) (ix2 f o) := by
  obtain ⟨-, -, -, -, -, -, -, -, -, -, e0, e1, -⟩ := idx_facts_w t
  unfold iblk
  rw [View.read_apply]
  show V m c main_v43 _ = _
  refine congrArg (V m c main_v43) (funext fun a => Fin.ext ?_)
  match a with
  | ⟨0, _⟩ => show win0_8.index t (0 : Fin 2) * 128 + 1 * f.val = f.val; omega
  | ⟨1, _⟩ => show win0_8.index t (1 : Fin 2) * 64 + 1 * o.val = o.val; omega

theorem w9_blk (c : Dev nD) (t : Fin cfg0.N) (f : Fin 128) (o : Fin 64) :
    (iblk m c 9 t : Vec Ideal S128x64 .bf16) (ix2 f o) = (V m c main_v44 : S128x64.Idx → EReal) (ix2 f o) := by
  obtain ⟨-, -, -, -, -, -, -, -, -, -, -, -, e0, e1, -⟩ := idx_facts_w t
  unfold iblk
  rw [View.read_apply]
  show V m c main_v44 _ = _
  refine congrArg (V m c main_v44) (funext fun a => Fin.ext ?_)
  match a with
  | ⟨0, _⟩ => show win0_9.index t (0 : Fin 2) * 128 + 1 * f.val = f.val; omega
  | ⟨1, _⟩ => show win0_9.index t (1 : Fin 2) * 64 + 1 * o.val = o.val; omega

theorem w10_blk (c : Dev nD) (t : Fin cfg0.N) (o : Fin 64) :
    (iblk m c 10 t : Vec Ideal S1x64 .f32) (ix2 (0 : Fin 1) o) = (V m c main_v46 : S1x64.Idx → EReal) (ix2 (0 : Fin 1) o) := by
  obtain ⟨-, -, -, -, -, -, -, -, -, -, -, -, -, -, e0, e1⟩ := idx_facts_w t
  unfold iblk
  rw [View.read_apply]
  show V m c main_v46 _ = _
  refine congrArg (V m c main_v46) (funext fun a => Fin.ext ?_)
  match a with
  | ⟨0, _⟩ => show win0_10.index t (0 : Fin 2) * 1 + 1 * 0 = 0; omega
  | ⟨1, _⟩ => show win0_10.index t (1 : Fin 2) * 64 + 1 * o.val = o.val; omega

/-- Entry (0, n, k) of the output block at point t is entry (t, n, k) of the output array. -/
theorem out_emb (t : Fin cfg0.N) (n : Fin 1024) (k : Fin 64) :
    ((cfg0.win 11).blk t).view.emb (ix3 (0 : Fin 1) n k) = (ix3 (pt t) n k : S16x1024x64.Idx) := by
  obtain ⟨-, -, -, -, -, -, -, -, -, e0, e1, e2⟩ := idx_facts t
  refine funext fun a => Fin.ext ?_
  match a with
  | ⟨0, _⟩ => show win0_11.index t (0 : Fin 3) * 1 + 1 * 0 = t.val; omega
  | ⟨1, _⟩ => show win0_11.index t (1 : Fin 3) * 1024 + 1 * n.val = n.val; omega
  | ⟨2, _⟩ => show win0_11.index t (2 : Fin 3) * 64 + 1 * k.val = k.val; omega

/-- An index of the output array lies in point t's block iff each coordinate lies in the block's range on its axis. -/
theorem mem_blk (t : Fin cfg0.N) (i : S16x1024x64.Idx) :
    i ∈ ((cfg0.win 11).blk t).view.set ↔ ∀ a : Fin 3, win0_11.index t a * S1x1024x64.size a ≤ (i a).val ∧ (i a).val < win0_11.index t a * S1x1024x64.size a + S1x1024x64.size a := by
  show i ∈ ((View.whole main_v47).slice (win0_11.rect t)).set ↔ _
  rw [View.set_slice_whole, Rect.mem_set_unit]
  exact Iff.rfl

/-- Every entry of the output array is written by the point of its batch coordinate. -/
theorem cover (i : S16x1024x64.Idx) :
    ∃ t : Fin cfg0.N, (cfg0.win 11).flush t = true ∧ i ∈ ((cfg0.win 11).blk t).view.set := by
  have h0 : (i 0).val < 16 := (i 0).isLt
  have h1 : (i 1).val < 1024 := (i 1).isLt
  have h2 : (i 2).val < 64 := (i 2).isLt
  refine ⟨⟨(i 0).val, lt_of_lt_of_eq h0 N_0.symm⟩, flush0_11 _, ?_⟩
  obtain ⟨-, -, -, -, -, -, -, -, -, e0, e1, e2⟩ := idx_facts ⟨(i 0).val, lt_of_lt_of_eq h0 N_0.symm⟩
  rw [mem_blk]
  intro a
  match a with
  | ⟨0, _⟩ =>
    show win0_11.index ⟨(i 0).val, _⟩ (0 : Fin 3) * 1 ≤ (i 0).val ∧ (i 0).val < win0_11.index ⟨(i 0).val, _⟩ (0 : Fin 3) * 1 + 1
    rw [e0]; show (i 0).val * 1 ≤ (i 0).val ∧ (i 0).val < (i 0).val * 1 + 1; omega
  | ⟨1, _⟩ =>
    show win0_11.index ⟨(i 0).val, _⟩ (1 : Fin 3) * 1024 ≤ (i 1).val ∧ (i 1).val < win0_11.index ⟨(i 0).val, _⟩ (1 : Fin 3) * 1024 + 1024
    rw [e1]; omega
  | ⟨2, _⟩ =>
    show win0_11.index ⟨(i 0).val, _⟩ (2 : Fin 3) * 64 ≤ (i 2).val ∧ (i 2).val < win0_11.index ⟨(i 0).val, _⟩ (2 : Fin 3) * 64 + 64
    rw [e2]; omega

/-- The result array of the region: the fused cell at every batch element, node and unit. -/
def fusedArr (c : Dev nD) : S16x1024x64.Idx → EReal := fun i =>
  GruCell.fusedAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ⟨(i 0).val, (i 0).isLt⟩ ⟨(i 1).val, (i 1).isLt⟩ ⟨(i 2).val, (i 2).isLt⟩

/-- Every index of a one-row block is (0, n, k). -/
theorem exists_ix3 (y : S1x1024x64.Idx) : ∃ (n : Fin 1024) (k : Fin 64), y = ix3 (0 : Fin 1) n k := by
  refine ⟨⟨(y 1).val, (y 1).isLt⟩, ⟨(y 2).val, (y 2).isLt⟩, funext fun a => ?_⟩
  match a with
  | ⟨0, _⟩ => exact Fin.ext (by have h : (y 0).val < 1 := (y 0).isLt; show (y 0).val = 0; omega)
  | ⟨1, _⟩ => rfl
  | ⟨2, _⟩ => rfl

/-- The body's output entry, once each input block is known entry by entry, is the fused cell of the argument
    arrays at the block's batch element: the adjacency block is that element's matrix, the feature and state blocks
    its features and state, and the weight blocks are the combined weights the fused convolution is defined with. -/
theorem body_fused (x0 : Vec Ideal S1x1024x1024 .f32) (x1 : Vec Ideal S1x1024x128 .f32) (x2 : Vec Ideal S1x1024x64 .f32)
    (x3 x4 x5 : Vec Ideal S128x128 .bf16) (x6 : Vec Ideal S1x128 .f32) (x7 x8 x9 : Vec Ideal S128x64 .bf16)
    (x10 : Vec Ideal S1x64 .f32)
    (inp hx : (⟨2, ![16, 65536]⟩ : Shape).Idx → EReal) (adj : (⟨3, ![16, 1024, 1024]⟩ : Shape).Idx → EReal)
    (W0 : (⟨2, ![384, 128]⟩ : Shape).Idx → EReal) (b0 : (⟨1, ![128]⟩ : Shape).Idx → EReal)
    (W1 : (⟨2, ![384, 128]⟩ : Shape).Idx → EReal) (b1 : (⟨1, ![128]⟩ : Shape).Idx → EReal)
    (Wc0 : (⟨2, ![384, 64]⟩ : Shape).Idx → EReal) (bc0 : (⟨1, ![64]⟩ : Shape).Idx → EReal)
    (Wc1 : (⟨2, ![384, 64]⟩ : Shape).Idx → EReal) (bc1 : (⟨1, ![64]⟩ : Shape).Idx → EReal)
    (b : Fin 16)
    (h0 : ∀ i j, x0 (ix3 (0 : Fin 1) i j) = adj (ix3 b i j))
    (h1 : ∀ n f, x1 (ix3 (0 : Fin 1) n f) = GruCell.cat (GruCell.node inp b) (GruCell.node hx b) n f)
    (h2 : ∀ n k, x2 (ix3 (0 : Fin 1) n k) = GruCell.node hx b n k)
    (h3 : ∀ f o, x3 (ix2 f o) = GruCell.mat W0 (GruCell.row3 f 0) o + GruCell.mat W1 (GruCell.row3 f 0) o)
    (h4 : ∀ f o, x4 (ix2 f o) = GruCell.mat W0 (GruCell.row3 f 1) o + GruCell.mat W0 (GruCell.row3 f 2) o)
    (h5 : ∀ f o, x5 (ix2 f o) = GruCell.mat W1 (GruCell.row3 f 1) o + GruCell.mat W1 (GruCell.row3 f 2) o)
    (h6 : ∀ o, x6 (ix2 (0 : Fin 1) o) = GruCell.vec b0 o + GruCell.vec b1 o)
    (h7 : ∀ f o, x7 (ix2 f o) = GruCell.mat Wc0 (GruCell.row3 f 0) o + GruCell.mat Wc1 (GruCell.row3 f 0) o)
    (h8 : ∀ f o, x8 (ix2 f o) = GruCell.mat Wc0 (GruCell.row3 f 1) o + GruCell.mat Wc0 (GruCell.row3 f 2) o)
    (h9 : ∀ f o, x9 (ix2 f o) = GruCell.mat Wc1 (GruCell.row3 f 1) o + GruCell.mat Wc1 (GruCell.row3 f 2) o)
    (h10 : ∀ o, x10 (ix2 (0 : Fin 1) o) = GruCell.vec bc0 o + GruCell.vec bc1 o)
    (n : Fin 1024) (k : Fin 64) :
    out0_11 (F := Ideal) x0 x1 x2 x3 x4 x5 x6 x7 x8 x9 x10 (ix3 (0 : Fin 1) n k)
      = GruCell.fusedAt inp hx adj W0 b0 W1 b1 Wc0 bc0 Wc1 bc1 b n k := by
  rw [Cert.KernelIdeal.BodyValue.out_at]
  have e0 : (fun i j => x0 (ix3 (0 : Fin 1) i j)) = GruCell.adjAt adj b := funext fun i => funext fun j => h0 i j
  have e1 : (fun n f => x1 (ix3 (0 : Fin 1) n f)) = GruCell.cat (GruCell.node inp b) (GruCell.node hx b) :=
    funext fun n => funext fun f => h1 n f
  have e2 : (fun n k => x2 (ix3 (0 : Fin 1) n k)) = GruCell.node hx b := funext fun n => funext fun k => h2 n k
  have e3 : (fun f o => x3 (ix2 f o)) = fun f o => GruCell.mat W0 (GruCell.row3 f 0) o + GruCell.mat W1 (GruCell.row3 f 0) o :=
    funext fun f => funext fun o => h3 f o
  have e4 : (fun f o => x4 (ix2 f o)) = fun f o => GruCell.mat W0 (GruCell.row3 f 1) o + GruCell.mat W0 (GruCell.row3 f 2) o :=
    funext fun f => funext fun o => h4 f o
  have e5 : (fun f o => x5 (ix2 f o)) = fun f o => GruCell.mat W1 (GruCell.row3 f 1) o + GruCell.mat W1 (GruCell.row3 f 2) o :=
    funext fun f => funext fun o => h5 f o
  have e6 : (fun o => x6 (ix2 (0 : Fin 1) o)) = fun o => GruCell.vec b0 o + GruCell.vec b1 o := funext fun o => h6 o
  have e7 : (fun f o => x7 (ix2 f o)) = fun f o => GruCell.mat Wc0 (GruCell.row3 f 0) o + GruCell.mat Wc1 (GruCell.row3 f 0) o :=
    funext fun f => funext fun o => h7 f o
  have e8 : (fun f o => x8 (ix2 f o)) = fun f o => GruCell.mat Wc0 (GruCell.row3 f 1) o + GruCell.mat Wc0 (GruCell.row3 f 2) o :=
    funext fun f => funext fun o => h8 f o
  have e9 : (fun f o => x9 (ix2 f o)) = fun f o => GruCell.mat Wc1 (GruCell.row3 f 1) o + GruCell.mat Wc1 (GruCell.row3 f 2) o :=
    funext fun f => funext fun o => h9 f o
  have e10 : (fun o => x10 (ix2 (0 : Fin 1) o)) = fun o => GruCell.vec bc0 o + GruCell.vec bc1 o := funext fun o => h10 o
  rw [e0, e1, e2, e3, e4, e5, e6, e7, e8, e9, e10]
  rfl

/-- What point t writes back is block t of the fused result array. -/
theorem flushed_eq (c : Dev nD) (t : Fin cfg0.N) :
    (dats m 0 c).flushed 11 t = ((cfg0.win 11).blk t).view.read (Elt Ideal) (fusedArr m c) := by
  show (cfg0.win 11).cut (grid0.coords t) ((dats m 0 c).after 11 t) = _
  rw [after0_11]
  funext y
  obtain ⟨n, k, rfl⟩ := exists_ix3 y
  rw [View.read_apply, out_emb]
  exact body_fused (iblk m c 0 t) (iblk m c 1 t) (iblk m c 2 t) (iblk m c 3 t) (iblk m c 4 t) (iblk m c 5 t) (iblk m c 6 t)
    (iblk m c 7 t) (iblk m c 8 t) (iblk m c 9 t) (iblk m c 10 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (pt t)
    (adj_blk m c t)
    (fun n f => (feat_blk m c t n f).trans (Cert.KernelIdeal.HostValue.feat_at m c (pt t) n f))
    (fun n k => (state_blk m c t n k).trans (Cert.KernelIdeal.HostValue.state_at m c (pt t) n k))
    (fun f o => (w3_blk m c t f o).trans (Cert.KernelIdeal.HostValue.gw0_at m c f o))
    (fun f o => (w4_blk m c t f o).trans (Cert.KernelIdeal.HostValue.gw1_at m c f o))
    (fun f o => (w5_blk m c t f o).trans (Cert.KernelIdeal.HostValue.gw2_at m c f o))
    (fun o => (w6_blk m c t o).trans (Cert.KernelIdeal.HostValue.gb_at m c o))
    (fun f o => (w7_blk m c t f o).trans (Cert.KernelIdeal.HostValue.cw0_at m c f o))
    (fun f o => (w8_blk m c t f o).trans (Cert.KernelIdeal.HostValue.cw1_at m c f o))
    (fun f o => (w9_blk m c t f o).trans (Cert.KernelIdeal.HostValue.cw2_at m c f o))
    (fun o => (w10_blk m c t o).trans (Cert.KernelIdeal.HostValue.cb_at m c o))
    n k

/-- After the region the output array holds the fused result array. -/
theorem final (c : Dev nD) : (dats m 0 c).arrAt 11 cfg0.N = fusedArr m c :=
  (dats m 0 c).arrAt_eq_of_cover 11 (fusedArr m c) (fun t _ => flushed_eq m c t) cover

/-- A [16, 1024, 64] array read as [16, 65536]: flat column j is node j / 64, unit j % 64. -/
theorem flat_read (X : S16x1024x64.Idx → EReal) (i : S16x65536.Idx) :
    shapeCast S16x65536 X shapeCasts_S16x1024x64_S16x65536 i
      = X (ix3 (⟨(i 0).val, idx2_lt0 i⟩ : Fin 16) (⟨(i 1).val / 64, by have := idx2_lt1 i; omega⟩ : Fin 1024)
          (⟨(i 1).val % 64, by omega⟩ : Fin 64)) := by
  refine shapeCast_apply X _ i _ ?_
  rw [Shape.rowMajor_val_three, Shape.rowMajor_val_two]
  show ((i 0).val * 1024 + (i 1).val / 64) * 64 + (i 1).val % 64 = (i 0).val * 65536 + (i 1).val
  omega

/-- The program's result: the host line after the region reads the region's output array as [16, 65536], which
    is the fused cell laid out flat. -/
theorem tail_eq (c : Dev nD) :
    Pipeline.afterTail₀ cfgs (dats m) 0 (V0 m) [hostOps1] c main_v48
      = GruCell.fusedOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v48) = _
  after_results
  have e : Pipeline.withArrays (cfgs 0).spec c (V0 m c) (fun w => (dats m 0 c).arrAt w (cfgs 0).N) (Proc.devRef .tc main_v47)
      = fusedArr m c :=
    (Pipeline.withArrays_arr spec0 launch0.win.arr_inj c _ _ 11).trans (final m c)
  rw [e]
  funext i
  show shapeCast S16x65536 (fusedArr m c) shapeCasts_S16x1024x64_S16x65536 i = _
  rw [flat_read]
  rfl

end blocks

/-- Every weakly fair execution of the idealized kernel program ends with the result array at the fused cell of the
    argument arrays, the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v48)
        = GruCell.fusedOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  -- the frame run leaves the result buffer at what the host line after the region makes of the output array, the
  -- adjacency array (an input window's, never written back) and every other argument (none is touched) as launched
  (θ_run (Cert.KernelIdeal.defs (F := Ideal)) _ _).mono (fun _ h c =>
    ⟨((h c).2 main_v48 (Pipeline.mem_restRefs_of main_v48 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.RunValue

end
-- ==== Proof.RefGates.lean ====
/-
  The reference's operations up to its gates, each read at an entry, in the words of the plain form of the
  specification: the identity matrix, `a + I`, its column sums and their guarded inverses, the random-walk matrix
  (for the graph and for its transpose), the features side by side, one hop, the three diffusion terms interleaved,
  the two products with their biases, the logistic function, and the two halves of the gates.
-/
import proofs.«165569_j9328668967409_2_alg».proof.Proof.RefReadP
import proofs.«165569_j9328668967409_2_alg».proof.Proof.CellSpec

set_option maxRecDepth 16384

noncomputable section

open Idealize.ShloMosaic Idealize.ShloMosaic.ValueIdx

namespace Cert.ReferenceIdeal.GateValue

open Cert.ReferenceIdeal Cert.ReferenceIdeal.ReadP

/-- The row index `b · 1024 + n` of the `[16384, _]` arrays. -/
def rowOf (b : Fin 16) (n : Fin 1024) : Fin 16384 := ⟨b.val * 1024 + n.val, by omega⟩
/-- The flat column `n · 64 + k` of the `[16, 65536]` arrays. -/
def colOf (n : Fin 1024) (k : Fin 64) : Fin 65536 := ⟨n.val * 64 + k.val, by omega⟩

/-- Two indices of rank 2 (or 3) whose coordinates agree by definition are equal. -/
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-! ### Three scalar facts -/

/-- The word "row index plus zero equals column index", converted to a float, is the identity matrix's entry:
    two indices below 1024 are equal exactly when their 32-bit words are. -/
theorem delta_word (i j : Fin 1024) :
    (FloatOps.uitofp .f32 (IntOp.cmpi .eq (IntOp.addi (BitVec.ofNat 32 i.val) 0#32) (BitVec.ofNat 32 j.val)) : Ideal .f32)
      = GruCell.delta i j := by
  have hadd : IntOp.addi (BitVec.ofNat 32 i.val) 0#32 = BitVec.ofNat 32 i.val := by
    unfold IntOp.addi; exact BitVec.add_zero _
  rw [hadd]
  unfold GruCell.delta
  by_cases h : i = j
  · subst h
    rw [if_pos rfl]
    have : IntOp.cmpi .eq (BitVec.ofNat 32 i.val) (BitVec.ofNat 32 i.val) = 1#1 := by
      unfold IntOp.cmpi; simp
    rw [this]
    show (((1#1 : BitVec 1).toNat : ℝ) : EReal) = 1
    simp
  · rw [if_neg h]
    have hne : BitVec.ofNat 32 i.val ≠ BitVec.ofNat 32 j.val := by
      intro e
      have := congrArg BitVec.toNat e
      rw [BitVec.toNat_ofNat, BitVec.toNat_ofNat, Nat.mod_eq_of_lt (by have := i.isLt; omega),
        Nat.mod_eq_of_lt (by have := j.isLt; omega)] at this
      exact h (Fin.ext this)
    have : IntOp.cmpi .eq (BitVec.ofNat 32 i.val) (BitVec.ofNat 32 j.val) = 0#1 := by
      unfold IntOp.cmpi
      show BitVec.ofBool (BitVec.ofNat 32 i.val == BitVec.ofNat 32 j.val) = 0#1
      rw [beq_eq_false_iff_ne.mpr hne]; rfl
    rw [this]
    show (((0#1 : BitVec 1).toNat : ℝ) : EReal) = 0
    simp

/-- Choosing zero where `d` equals zero and `1 / d` elsewhere is the guarded inverse. -/
theorem inv_word (d : EReal) :
    Scalar.select (FloatOps.cmpf (F := Ideal) (φ := .f32) .oeq d (Ideal.ofBits .f32 0x00000000#32)) (Ideal.ofBits .f32 0x00000000#32)
        (FloatOps.hostDivf (F := Ideal) (φ := .f32) (Ideal.ofBits .f32 0x3F800000#32) d)
      = if d = 0 then 0 else Ideal.div 1 d := by
  rw [Ideal.ofBits_zero_f32, GruCell.one_f32, Ideal.cmpf_def, Ideal.hostDivf_def]
  by_cases h : d = 0
  · rw [if_pos h]
    have : Ideal.cmp .oeq d 0 = 1#1 := by unfold Ideal.cmp; simp [h]
    rw [this, select_one]
  · rw [if_neg h]
    have : Ideal.cmp .oeq d 0 = 0#1 := by unfold Ideal.cmp; simp [h]
    rw [this, select_zero]

/-- `1 / (1 + exp (−z))` is the logistic function. -/
theorem logistic_word (z : EReal) :
    FloatOps.hostDivf (F := Ideal) (φ := .f32) (Ideal.ofBits .f32 0x3F800000#32)
      (FloatOps.addf (F := Ideal) (φ := .f32) (Ideal.ofBits .f32 0x3F800000#32) (FloatOps.hostUnary .exp (FloatOps.hostNegf z)))
      = Ideal.logistic z := by
  rw [GruCell.one_f32]
  rfl

/-! ### The random-walk matrix of the graph -/

/-- The identity matrix, broadcast over the batch. -/
theorem eye_at (b : Fin 16) (i j : Fin 1024) : val_main_v7 (F := Ideal) (ix3 b i j) = GruCell.delta i j := by
  rw [val_main_v7_apply, val_main_v6_apply, val_main_v5_apply, val_main_v4_apply, val_main_v3_apply,
    val_main_v0_apply, val_main_v2_apply, val_main_c_apply, val_main_v1_apply]
  exact delta_word i j

/-- `a + I` at an entry. -/
theorem self_at (x2 : (⟨S16x1024x1024, .f32⟩ : BufTy).Contents (Elt Ideal)) (b : Fin 16) (i j : Fin 1024) :
    val_main_v8 (F := Ideal) x2 (ix3 b i j) = GruCell.pSelf (GruCell.adjAt x2 b) i j := by
  rw [val_main_v8_apply, eye_at]
  rfl

/-- The column sums of `a + I`: the sum over the first node axis, from a zero initial value. -/
theorem deg_at (x2 : (⟨S16x1024x1024, .f32⟩ : BufTy).Contents (Elt Ideal)) (b : Fin 16) (j : Fin 1024) :
    val_main_v9 (F := Ideal) x2 (ix2 b j) = GruCell.pDeg (GruCell.adjAt x2 b) j := by
  rw [val_main_v9_apply, val_main_cst_apply, Ideal.ofBits_def, Ideal.ofBits_zero_f32, zero_add]
  unfold GruCell.pDeg
  refine Finset.sum_congr rfl fun k _ => ?_
  rw [show idx_main_v9 (ix2 b j) k = ix3 b k j from by idx3]
  exact self_at x2 b k j

/-- Their inverses, zero where the sum is zero. -/
theorem inv_at (x2 : (⟨S16x1024x1024, .f32⟩ : BufTy).Contents (Elt Ideal)) (b : Fin 16) (n : Fin 1024) :
    val_main_v15 (F := Ideal) x2 (ix2 b n) = GruCell.pInv (GruCell.adjAt x2 b) n := by
  rw [val_main_v15_apply, val_main_v11_apply, val_main_v14_apply, val_main_v10_apply, val_main_cst_0_apply,
    val_main_v12_apply, val_main_cst_1_apply, val_main_v13_apply, val_main_cst_2_apply, deg_at]
  exact inv_word _

/-- The random-walk matrix of the graph. -/
theorem walk0_at (x2 : (⟨S16x1024x1024, .f32⟩ : BufTy).Contents (Elt Ideal)) (b : Fin 16) (i j : Fin 1024) :
    val_main_v18 (F := Ideal) x2 (ix3 b i j) = GruCell.pWalk (GruCell.adjAt x2 b) i j := by
  rw [val_main_v18_apply, val_main_v17_apply, val_main_v16_apply,
    show idx_main_v16 (idx_main_v17 (ix3 b i j)) = ix2 b i from by idx2, inv_at, self_at]
  rfl

/-! ### The random-walk matrix of the transposed graph -/

/-- The identity matrix, broadcast over the batch (the transposed graph's copy). -/
theorem eyeT_at (b : Fin 16) (i j : Fin 1024) : val_main_v27 (F := Ideal) (ix3 b i j) = GruCell.delta i j := by
  rw [val_main_v27_apply, val_main_v26_apply, val_main_v25_apply, val_main_v24_apply, val_main_v23_apply,
    val_main_v20_apply, val_main_v22_apply, val_main_c_3_apply, val_main_v21_apply]
  exact delta_word i j

/-- `a + I` at an entry. -/
theorem selfT_at (x2 : (⟨S16x1024x1024, .f32⟩ : BufTy).Contents (Elt Ideal)) (b : Fin 16) (i j : Fin 1024) :
    val_main_v28 (F := Ideal) x2 (ix3 b i j) = GruCell.pSelf (fun i j => GruCell.adjAt x2 b j i) i j := by
  rw [val_main_v28_apply, eyeT_at]
  rw [val_main_v19_apply, show idx_main_v19 (ix3 b i j) = ix3 b j i from by idx3]
  rfl

/-- The column sums of `a + I`: the sum over the first node axis, from a zero initial value. -/
theorem degT_at (x2 : (⟨S16x1024x1024, .f32⟩ : BufTy).Contents (Elt Ideal)) (b : Fin 16) (j : Fin 1024) :
    val_main_v29 (F := Ideal) x2 (ix2 b j) = GruCell.pDeg (fun i j => GruCell.adjAt x2 b j i) j := by
  rw [val_main_v29_apply, val_main_cst_4_apply, Ideal.ofBits_def, Ideal.ofBits_zero_f32, zero_add]
  unfold GruCell.pDeg
  refine Finset.sum_congr rfl fun k _ => ?_
  rw [show idx_main_v29 (ix2 b j) k = ix3 b k j from by idx3]
  exact selfT_at x2 b k j

/-- Their inverses, zero where the sum is zero. -/
theorem invT_at (x2 : (⟨S16x1024x1024, .f32⟩ : BufTy).Contents (Elt Ideal)) (b : Fin 16) (n : Fin 1024) :
    val_main_v35 (F := Ideal) x2 (ix2 b n) = GruCell.pInv (fun i j => GruCell.adjAt x2 b j i) n := by
  rw [val_main_v35_apply, val_main_v31_apply, val_main_v34_apply, val_main_v30_apply, val_main_cst_5_apply,
    val_main_v32_apply, val_main_cst_6_apply, val_main_v33_apply, val_main_cst_7_apply, degT_at]
  exact inv_word _

/-- The random-walk matrix of the transposed graph. -/
theorem walk1_at (x2 : (⟨S16x1024x1024, .f32⟩ : BufTy).Contents (Elt Ideal)) (b : Fin 16) (i j : Fin 1024) :
    val_main_v38 (F := Ideal) x2 (ix3 b i j) = GruCell.pWalk (fun i j => GruCell.adjAt x2 b j i) i j := by
  rw [val_main_v38_apply, val_main_v37_apply, val_main_v36_apply,
    show idx_main_v36 (idx_main_v37 (ix3 b i j)) = ix2 b i from by idx2, invT_at, selfT_at]
  rfl

/-! ### The features: inputs and state side by side -/

/-- A `[16, 65536]` array reshaped to `[16, 1024, 64]`, at an entry. -/
theorem node0_at (x0 : (⟨S16x65536, .f32⟩ : BufTy).Contents (Elt Ideal)) (b : Fin 16) (n : Fin 1024) (k : Fin 64) :
    val_main_v39 (F := Ideal) x0 (ix3 b n k) = GruCell.node x0 b n k := by
  rw [val_main_v39_apply]
  unfold GruCell.node
  refine congrArg x0 (funext fun a => Fin.ext (by
    have hb := b.isLt; have hn := n.isLt; have hk := k.isLt
    match a with
    | ⟨0, _⟩ => show ((b.val * 1024 + n.val) * 64 + k.val) / 65536 = b.val; omega
    | ⟨1, _⟩ => show ((b.val * 1024 + n.val) * 64 + k.val) % 65536 = n.val * 64 + k.val; omega))
theorem node1_at (x1 : (⟨S16x65536, .f32⟩ : BufTy).Contents (Elt Ideal)) (b : Fin 16) (n : Fin 1024) (k : Fin 64) :
    val_main_v40 (F := Ideal) x1 (ix3 b n k) = GruCell.node x1 b n k := by
  rw [val_main_v40_apply]
  unfold GruCell.node
  refine congrArg x1 (funext fun a => Fin.ext (by
    have hb := b.isLt; have hn := n.isLt; have hk := k.isLt
    match a with
    | ⟨0, _⟩ => show ((b.val * 1024 + n.val) * 64 + k.val) / 65536 = b.val; omega
    | ⟨1, _⟩ => show ((b.val * 1024 + n.val) * 64 + k.val) % 65536 = n.val * 64 + k.val; omega))

/-- The two reshaped arrays joined along the last axis: columns below 64 are the inputs', the rest the state's. -/
theorem cat_at (x0 x1 : (⟨S16x65536, .f32⟩ : BufTy).Contents (Elt Ideal)) (b : Fin 16) (n : Fin 1024) (f : Fin 128) :
    val_main_v41 (F := Ideal) x0 x1 (ix3 b n f) = (GruCell.cat (GruCell.node x0 b) (GruCell.node x1 b)) n f := by
  unfold val_main_v41 GruCell.cat
  by_cases h : f.val < 64
  · rw [dif_pos h]
    refine Eq.trans (concatenate_pair_apply_left (s₁ := S16x1024x64) (s₂ := S16x1024x64) 2 _ _ _ (ix3 b n f) rfl
      (ix3 b n (⟨f.val, h⟩ : Fin 64)) (fun c => ?_)) (node0_at x0 b n ⟨f.val, h⟩)
    match c with
    | ⟨0, _⟩ => rfl
    | ⟨1, _⟩ => rfl
    | ⟨2, _⟩ => rfl
  · rw [dif_neg h]
    refine Eq.trans (concatenate_pair_apply_right (s₁ := S16x1024x64) (s₂ := S16x1024x64) 2 _ _ _ (ix3 b n f) rfl rfl
      (ix3 b n (⟨f.val - 64, by omega⟩ : Fin 64)) (fun c hc => ?_) (by show f.val - 64 + 64 = f.val; omega))
      (node1_at x1 b n ⟨f.val - 64, by omega⟩)
    match c with
    | ⟨0, _⟩ => rfl
    | ⟨1, _⟩ => rfl
    | ⟨2, _⟩ => exact absurd rfl hc

/-! ### The convolution over the graph -/

/-- One hop: the random-walk matrix times the features. -/
theorem hop_at (x0 x1 : (⟨S16x65536, .f32⟩ : BufTy).Contents (Elt Ideal)) (x2 : (⟨S16x1024x1024, .f32⟩ : BufTy).Contents (Elt Ideal)) (b : Fin 16) (n : Fin 1024) (f : Fin 128) :
    val_main_v42 (F := Ideal) x0 x1 x2 (ix3 b n f) = GruCell.pHop (GruCell.adjAt x2 b) (GruCell.cat (GruCell.node x0 b) (GruCell.node x1 b)) n f := by
  rw [val_main_v42_apply]
  unfold GruCell.pHop
  refine Finset.sum_congr rfl fun k _ => ?_
  rw [show lidx_main_v42 (ix3 b n f) k = ix3 b n k from by idx3,
    show ridx_main_v42 (ix3 b n f) k = ix3 b k f from by idx3, walk0_at x2 b n k, cat_at]

/-- The three diffusion terms side by side along a new last axis. -/
theorem terms_at (x0 x1 : (⟨S16x65536, .f32⟩ : BufTy).Contents (Elt Ideal)) (x2 : (⟨S16x1024x1024, .f32⟩ : BufTy).Contents (Elt Ideal)) (b : Fin 16) (n : Fin 1024) (f : Fin 128) (t : Fin 3) :
    val_main_v47 (F := Ideal) x0 x1 x2 (ix4 b n f t)
      = if t.val = 0 then (GruCell.cat (GruCell.node x0 b) (GruCell.node x1 b)) n f else GruCell.pHop (GruCell.adjAt x2 b) (GruCell.cat (GruCell.node x0 b) (GruCell.node x1 b)) n f := by
  unfold val_main_v47
  match t with
  | ⟨0, _⟩ =>
    refine Eq.trans (concatenate_apply_piece (t := S16x1024x128x3) 3 _ _ _ 0 (by show (0 : ℕ) < 3; decide) S16x1024x128x1 (val_main_v44 (F := Ideal) x0 x1) rfl rfl 0 rfl
      (ix4 b n f (0 : Fin 1)) (fun c hc => ?_) rfl) ?_
    · match c with
      | ⟨0, _⟩ => rfl
      | ⟨1, _⟩ => rfl
      | ⟨2, _⟩ => rfl
      | ⟨3, _⟩ => exact absurd rfl hc
    · show val_main_v44 (F := Ideal) x0 x1 (ix4 b n f (0 : Fin 1)) = (GruCell.cat (GruCell.node x0 b) (GruCell.node x1 b)) n f
      rw [val_main_v44_apply, show idx_main_v44 (ix4 b n f (0 : Fin 1)) = ix3 b n f from by idx3, cat_at]
  | ⟨1, _⟩ =>
    refine Eq.trans (concatenate_apply_piece (t := S16x1024x128x3) 3 _ _ _ 1 (by show (1 : ℕ) < 3; decide) S16x1024x128x1 (val_main_v45 (F := Ideal) x0 x1 x2) rfl rfl 1 rfl
      (ix4 b n f (0 : Fin 1)) (fun c hc => ?_) rfl) ?_
    · match c with
      | ⟨0, _⟩ => rfl
      | ⟨1, _⟩ => rfl
      | ⟨2, _⟩ => rfl
      | ⟨3, _⟩ => exact absurd rfl hc
    · show val_main_v45 (F := Ideal) x0 x1 x2 (ix4 b n f (0 : Fin 1)) = GruCell.pHop (GruCell.adjAt x2 b) (GruCell.cat (GruCell.node x0 b) (GruCell.node x1 b)) n f
      rw [val_main_v45_apply, show idx_main_v45 (ix4 b n f (0 : Fin 1)) = ix3 b n f from by idx3, hop_at]
  | ⟨2, _⟩ =>
    refine Eq.trans (concatenate_apply_piece (t := S16x1024x128x3) 3 _ _ _ 2 (by show (2 : ℕ) < 3; decide) S16x1024x128x1 (val_main_v46 (F := Ideal) x0 x1 x2) rfl rfl 2 rfl
      (ix4 b n f (0 : Fin 1)) (fun c hc => ?_) rfl) ?_
    · match c with
      | ⟨0, _⟩ => rfl
      | ⟨1, _⟩ => rfl
      | ⟨2, _⟩ => rfl
      | ⟨3, _⟩ => exact absurd rfl hc
    · show val_main_v46 (F := Ideal) x0 x1 x2 (ix4 b n f (0 : Fin 1)) = GruCell.pHop (GruCell.adjAt x2 b) (GruCell.cat (GruCell.node x0 b) (GruCell.node x1 b)) n f
      rw [val_main_v46_apply, show idx_main_v46 (ix4 b n f (0 : Fin 1)) = ix3 b n f from by idx3, hop_at]

/-- The stack as a `[16384, 384]` matrix: row `b · 1024 + n`, column `3 f + t`. -/
theorem stack_at (x0 x1 : (⟨S16x65536, .f32⟩ : BufTy).Contents (Elt Ideal)) (x2 : (⟨S16x1024x1024, .f32⟩ : BufTy).Contents (Elt Ideal)) (b : Fin 16) (n : Fin 1024) (k : Fin 384) :
    val_main_v48 (F := Ideal) x0 x1 x2 (ix2 (rowOf b n) k) = GruCell.pStack (GruCell.adjAt x2 b) (GruCell.cat (GruCell.node x0 b) (GruCell.node x1 b)) n k := by
  rw [val_main_v48_apply,
    show idx_main_v48 (ix2 (rowOf b n) k) = ix4 b n (⟨k.val / 3, by omega⟩ : Fin 128) (⟨k.val % 3, by omega⟩ : Fin 3) from
      funext fun a => Fin.ext (by
        have hb := b.isLt; have hn := n.isLt; have hk := k.isLt
        match a with
        | ⟨0, _⟩ => show ((b.val * 1024 + n.val) * 384 + k.val) / 393216 = b.val; omega
        | ⟨1, _⟩ => show ((b.val * 1024 + n.val) * 384 + k.val) / 384 % 1024 = n.val; omega
        | ⟨2, _⟩ => show ((b.val * 1024 + n.val) * 384 + k.val) / 3 % 128 = k.val / 3; omega
        | ⟨3, _⟩ => show ((b.val * 1024 + n.val) * 384 + k.val) % 3 = k.val % 3; omega),
    terms_at]
  rfl

/-- One graph's product with its weights, plus its bias. -/
theorem conv_at (x0 x1 : (⟨S16x65536, .f32⟩ : BufTy).Contents (Elt Ideal)) (x2 : (⟨S16x1024x1024, .f32⟩ : BufTy).Contents (Elt Ideal)) (x3 : (⟨S384x128, .f32⟩ : BufTy).Contents (Elt Ideal)) (x4 : (⟨S128, .f32⟩ : BufTy).Contents (Elt Ideal)) (b : Fin 16) (n : Fin 1024) (o : Fin 128) :
    val_main_v59 (F := Ideal) x0 x1 x2 x3 x4 (ix2 (rowOf b n) o)
      = (∑ k : Fin 384, GruCell.pStack (GruCell.adjAt x2 b) (GruCell.cat (GruCell.node x0 b) (GruCell.node x1 b)) n k * GruCell.mat x3 k o) + GruCell.vec x4 o := by
  rw [val_main_v59_apply, val_main_v56_apply, val_main_v58_apply, val_main_v57_apply,
    show idx_main_v57 (idx_main_v58 (ix2 (rowOf b n) o)) = ix1 o from by funext a; match a with | ⟨0, _⟩ => rfl]
  refine congrArg (· + x4 (ix1 o)) (Finset.sum_congr rfl fun k _ => ?_)
  rw [show lidx_main_v56 (ix2 (rowOf b n) o) k = ix2 (rowOf b n) k from by idx2,
    show ridx_main_v56 (ix2 (rowOf b n) o) k = ix2 k o from by idx2, stack_at]
  rfl

/-! ### The convolution over the transposed graph -/

/-- One hop along the transposed graph: the random-walk matrix times the features. -/
theorem hopT_at (x0 x1 : (⟨S16x65536, .f32⟩ : BufTy).Contents (Elt Ideal)) (x2 : (⟨S16x1024x1024, .f32⟩ : BufTy).Contents (Elt Ideal)) (b : Fin 16) (n : Fin 1024) (f : Fin 128) :
    val_main_v49 (F := Ideal) x0 x1 x2 (ix3 b n f) = GruCell.pHop (fun i j => GruCell.adjAt x2 b j i) (GruCell.cat (GruCell.node x0 b) (GruCell.node x1 b)) n f := by
  rw [val_main_v49_apply]
  unfold GruCell.pHop
  refine Finset.sum_congr rfl fun k _ => ?_
  rw [show lidx_main_v49 (ix3 b n f) k = ix3 b n k from by idx3,
    show ridx_main_v49 (ix3 b n f) k = ix3 b k f from by idx3, walk1_at x2 b n k, cat_at]

/-- The three diffusion terms side by side along a new last axis. -/
theorem termsT_at (x0 x1 : (⟨S16x65536, .f32⟩ : BufTy).Contents (Elt Ideal)) (x2 : (⟨S16x1024x1024, .f32⟩ : BufTy).Contents (Elt Ideal)) (b : Fin 16) (n : Fin 1024) (f : Fin 128) (t : Fin 3) :
    val_main_v54 (F := Ideal) x0 x1 x2 (ix4 b n f t)
      = if t.val = 0 then (GruCell.cat (GruCell.node x0 b) (GruCell.node x1 b)) n f else GruCell.pHop (fun i j => GruCell.adjAt x2 b j i) (GruCell.cat (GruCell.node x0 b) (GruCell.node x1 b)) n f := by
  unfold val_main_v54
  match t with
  | ⟨0, _⟩ =>
    refine Eq.trans (concatenate_apply_piece (t := S16x1024x128x3) 3 _ _ _ 0 (by show (0 : ℕ) < 3; decide) S16x1024x128x1 (val_main_v51 (F := Ideal) x0 x1) rfl rfl 0 rfl
      (ix4 b n f (0 : Fin 1)) (fun c hc => ?_) rfl) ?_
    · match c with
      | ⟨0, _⟩ => rfl
      | ⟨1, _⟩ => rfl
      | ⟨2, _⟩ => rfl
      | ⟨3, _⟩ => exact absurd rfl hc
    · show val_main_v51 (F := Ideal) x0 x1 (ix4 b n f (0 : Fin 1)) = (GruCell.cat (GruCell.node x0 b) (GruCell.node x1 b)) n f
      rw [val_main_v51_apply, show idx_main_v51 (ix4 b n f (0 : Fin 1)) = ix3 b n f from by idx3, cat_at]
  | ⟨1, _⟩ =>
    refine Eq.trans (concatenate_apply_piece (t := S16x1024x128x3) 3 _ _ _ 1 (by show (1 : ℕ) < 3; decide) S16x1024x128x1 (val_main_v52 (F := Ideal) x0 x1 x2) rfl rfl 1 rfl
      (ix4 b n f (0 : Fin 1)) (fun c hc => ?_) rfl) ?_
    · match c with
      | ⟨0, _⟩ => rfl
      | ⟨1, _⟩ => rfl
      | ⟨2, _⟩ => rfl
      | ⟨3, _⟩ => exact absurd rfl hc
    · show val_main_v52 (F := Ideal) x0 x1 x2 (ix4 b n f (0 : Fin 1)) = GruCell.pHop (fun i j => GruCell.adjAt x2 b j i) (GruCell.cat (GruCell.node x0 b) (GruCell.node x1 b)) n f
      rw [val_main_v52_apply, show idx_main_v52 (ix4 b n f (0 : Fin 1)) = ix3 b n f from by idx3, hopT_at]
  | ⟨2, _⟩ =>
    refine Eq.trans (concatenate_apply_piece (t := S16x1024x128x3) 3 _ _ _ 2 (by show (2 : ℕ) < 3; decide) S16x1024x128x1 (val_main_v53 (F := Ideal) x0 x1 x2) rfl rfl 2 rfl
      (ix4 b n f (0 : Fin 1)) (fun c hc => ?_) rfl) ?_
    · match c with
      | ⟨0, _⟩ => rfl
      | ⟨1, _⟩ => rfl
      | ⟨2, _⟩ => rfl
      | ⟨3, _⟩ => exact absurd rfl hc
    · show val_main_v53 (F := Ideal) x0 x1 x2 (ix4 b n f (0 : Fin 1)) = GruCell.pHop (fun i j => GruCell.adjAt x2 b j i) (GruCell.cat (GruCell.node x0 b) (GruCell.node x1 b)) n f
      rw [val_main_v53_apply, show idx_main_v53 (ix4 b n f (0 : Fin 1)) = ix3 b n f from by idx3, hopT_at]

/-- The stack as a `[16384, 384]` matrix: row `b · 1024 + n`, column `3 f + t`. -/
theorem stackT_at (x0 x1 : (⟨S16x65536, .f32⟩ : BufTy).Contents (Elt Ideal)) (x2 : (⟨S16x1024x1024, .f32⟩ : BufTy).Contents (Elt Ideal)) (b : Fin 16) (n : Fin 1024) (k : Fin 384) :
    val_main_v55 (F := Ideal) x0 x1 x2 (ix2 (rowOf b n) k) = GruCell.pStack (fun i j => GruCell.adjAt x2 b j i) (GruCell.cat (GruCell.node x0 b) (GruCell.node x1 b)) n k := by
  rw [val_main_v55_apply,
    show idx_main_v55 (ix2 (rowOf b n) k) = ix4 b n (⟨k.val / 3, by omega⟩ : Fin 128) (⟨k.val % 3, by omega⟩ : Fin 3) from
      funext fun a => Fin.ext (by
        have hb := b.isLt; have hn := n.isLt; have hk := k.isLt
        match a with
        | ⟨0, _⟩ => show ((b.val * 1024 + n.val) * 384 + k.val) / 393216 = b.val; omega
        | ⟨1, _⟩ => show ((b.val * 1024 + n.val) * 384 + k.val) / 384 % 1024 = n.val; omega
        | ⟨2, _⟩ => show ((b.val * 1024 + n.val) * 384 + k.val) / 3 % 128 = k.val / 3; omega
        | ⟨3, _⟩ => show ((b.val * 1024 + n.val) * 384 + k.val) % 3 = k.val % 3; omega),
    termsT_at]
  rfl

/-- One graph's product with its weights, plus its bias. -/
theorem convT_at (x0 x1 : (⟨S16x65536, .f32⟩ : BufTy).Contents (Elt Ideal)) (x2 : (⟨S16x1024x1024, .f32⟩ : BufTy).Contents (Elt Ideal)) (x5 : (⟨S384x128, .f32⟩ : BufTy).Contents (Elt Ideal)) (x6 : (⟨S128, .f32⟩ : BufTy).Contents (Elt Ideal)) (b : Fin 16) (n : Fin 1024) (o : Fin 128) :
    val_main_v63 (F := Ideal) x0 x1 x2 x5 x6 (ix2 (rowOf b n) o)
      = (∑ k : Fin 384, GruCell.pStack (fun i j => GruCell.adjAt x2 b j i) (GruCell.cat (GruCell.node x0 b) (GruCell.node x1 b)) n k * GruCell.mat x5 k o) + GruCell.vec x6 o := by
  rw [val_main_v63_apply, val_main_v60_apply, val_main_v62_apply, val_main_v61_apply,
    show idx_main_v61 (idx_main_v62 (ix2 (rowOf b n) o)) = ix1 o from by funext a; match a with | ⟨0, _⟩ => rfl]
  refine congrArg (· + x6 (ix1 o)) (Finset.sum_congr rfl fun k _ => ?_)
  rw [show lidx_main_v60 (ix2 (rowOf b n) o) k = ix2 (rowOf b n) k from by idx2,
    show ridx_main_v60 (ix2 (rowOf b n) o) k = ix2 k o from by idx2, stackT_at]
  rfl

/-! ### The gates -/

/-- The gate pre-activations: the plain convolution of inputs and state side by side. -/
theorem gates_at (x0 x1 : (⟨S16x65536, .f32⟩ : BufTy).Contents (Elt Ideal)) (x2 : (⟨S16x1024x1024, .f32⟩ : BufTy).Contents (Elt Ideal)) (x3 : (⟨S384x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) (b : Fin 16) (n : Fin 1024) (o : Fin 128) :
    val_main_v64 (F := Ideal) x0 x1 x2 x3 x4 x5 x6 (ix2 (rowOf b n) o)
      = GruCell.pConv (GruCell.adjAt x2 b) (GruCell.cat (GruCell.node x0 b) (GruCell.node x1 b))
          (GruCell.mat x3) (GruCell.mat x5) (GruCell.vec x4) (GruCell.vec x6) n o := by
  rw [val_main_v64_apply, conv_at, convT_at]
  rfl

/-- The logistic function of the pre-activations. -/
theorem sigmoid_at (x0 x1 : (⟨S16x65536, .f32⟩ : BufTy).Contents (Elt Ideal)) (x2 : (⟨S16x1024x1024, .f32⟩ : BufTy).Contents (Elt Ideal)) (x3 : (⟨S384x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) (b : Fin 16) (n : Fin 1024) (o : Fin 128) :
    val_main_v71 (F := Ideal) x0 x1 x2 x3 x4 x5 x6 (ix3 b n o)
      = Ideal.logistic (GruCell.pConv (GruCell.adjAt x2 b) (GruCell.cat (GruCell.node x0 b) (GruCell.node x1 b))
          (GruCell.mat x3) (GruCell.mat x5) (GruCell.vec x4) (GruCell.vec x6) n o) := by
  rw [val_main_v71_apply,
    show idx_main_v71 (ix3 b n o) = ix2 (rowOf b n) o from
      funext fun a => Fin.ext (by
        have hb := b.isLt; have hn := n.isLt; have ho := o.isLt
        match a with
        | ⟨0, _⟩ => show ((b.val * 1024 + n.val) * 128 + o.val) / 128 = b.val * 1024 + n.val; omega
        | ⟨1, _⟩ => show ((b.val * 1024 + n.val) * 128 + o.val) % 128 = o.val; omega),
    val_main_v70_apply, val_main_v69_apply, val_main_cst_9_apply, val_main_v68_apply, val_main_v67_apply,
    val_main_cst_8_apply, val_main_v66_apply, val_main_v65_apply, gates_at]
  exact logistic_word _

/-- The reset gate, flat. -/
theorem reset_at (x0 x1 : (⟨S16x65536, .f32⟩ : BufTy).Contents (Elt Ideal)) (x2 : (⟨S16x1024x1024, .f32⟩ : BufTy).Contents (Elt Ideal)) (x3 : (⟨S384x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) (b : Fin 16) (n : Fin 1024) (k : Fin 64) :
    val_main_v73 (F := Ideal) x0 x1 x2 x3 x4 x5 x6 (ix2 b (colOf n k))
      = Ideal.logistic (GruCell.pConv (GruCell.adjAt x2 b) (GruCell.cat (GruCell.node x0 b) (GruCell.node x1 b))
          (GruCell.mat x3) (GruCell.mat x5) (GruCell.vec x4) (GruCell.vec x6) n (GruCell.lo k)) := by
  rw [val_main_v73_apply,
    show idx_main_v73 (ix2 b (colOf n k)) = ix3 b n k from
      funext fun a => Fin.ext (by
        have hb := b.isLt; have hn := n.isLt; have hk := k.isLt
        match a with
        | ⟨0, _⟩ => show (b.val * 65536 + (n.val * 64 + k.val)) / 65536 = b.val; omega
        | ⟨1, _⟩ => show (b.val * 65536 + (n.val * 64 + k.val)) / 64 % 1024 = n.val; omega
        | ⟨2, _⟩ => show (b.val * 65536 + (n.val * 64 + k.val)) % 64 = k.val; omega),
    val_main_v72_apply, show idx_main_v72 (ix3 b n k) = ix3 b n (GruCell.lo k) from by idx3,
    sigmoid_at]

/-- The update gate, flat. -/
theorem update_at (x0 x1 : (⟨S16x65536, .f32⟩ : BufTy).Contents (Elt Ideal)) (x2 : (⟨S16x1024x1024, .f32⟩ : BufTy).Contents (Elt Ideal)) (x3 : (⟨S384x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) (b : Fin 16) (n : Fin 1024) (k : Fin 64) :
    val_main_v75 (F := Ideal) x0 x1 x2 x3 x4 x5 x6 (ix2 b (colOf n k))
      = Ideal.logistic (GruCell.pConv (GruCell.adjAt x2 b) (GruCell.cat (GruCell.node x0 b) (GruCell.node x1 b))
          (GruCell.mat x3) (GruCell.mat x5) (GruCell.vec x4) (GruCell.vec x6) n (GruCell.hi k)) := by
  rw [val_main_v75_apply,
    show idx_main_v75 (ix2 b (colOf n k)) = ix3 b n k from
      funext fun a => Fin.ext (by
        have hb := b.isLt; have hn := n.isLt; have hk := k.isLt
        match a with
        | ⟨0, _⟩ => show (b.val * 65536 + (n.val * 64 + k.val)) / 65536 = b.val; omega
        | ⟨1, _⟩ => show (b.val * 65536 + (n.val * 64 + k.val)) / 64 % 1024 = n.val; omega
        | ⟨2, _⟩ => show (b.val * 65536 + (n.val * 64 + k.val)) % 64 = k.val; omega),
    val_main_v74_apply, show idx_main_v74 (ix3 b n k) = ix3 b n (GruCell.hi k) from by idx3,
    sigmoid_at]

end Cert.ReferenceIdeal.GateValue

end
-- ==== Proof.RefRun.lean ====
/-
  The idealized reference's result array is the plain cell of the argument arrays.
  The operations after the gates are read one at a time at an entry named by batch element, node and unit (or feature):
  reset gate times state, the candidate's features, one hop along each graph, the three stacked diffusion terms as 384
  interleaved columns, the two full products with their biases, the hyperbolic tangent, and the final blend.
-/
import proofs.«165569_j9328668967409_2_alg».proof.Proof.RefReadP
import proofs.«165569_j9328668967409_2_alg».proof.Proof.CellSpec
import proofs.«165569_j9328668967409_2_alg».proof.Proof.RefGates

set_option maxRecDepth 16384

noncomputable section

open Idealize.ShloMosaic Idealize.ShloMosaic.TcCoe Idealize.SL.Sem Idealize.ShloMosaic.ValueIdx

namespace Cert.ReferenceIdeal.RunValue

open Cert.ReferenceIdeal Cert.ReferenceIdeal.ReadP Cert.ReferenceIdeal.GateValue

/-! ### Joined arrays read at an entry -/

section Joins
variable {α : Type}

/-- Two 64-column blocks joined along the last axis, read in the left block. -/
theorem cat_pair_lo (u v : S16x1024x64.Idx → α) (h : Shape.Concatenates [S16x1024x64, S16x1024x64] S16x1024x128 2)
    (b : Fin 16) (n : Fin 1024) (f : Fin 128) (hf : f.val < 64) :
    concatenate S16x1024x128 2 [⟨S16x1024x64, u⟩, ⟨S16x1024x64, v⟩] h (ix3 b n f) = u (ix3 b n ⟨f.val, hf⟩) :=
  concatenate_pair_apply_left 2 u v h _ rfl _ (fun a => by
    match a with
    | ⟨0, _⟩ => rfl
    | ⟨1, _⟩ => rfl
    | ⟨2, _⟩ => rfl)

/-- Two 64-column blocks joined along the last axis, read in the right block. -/
theorem cat_pair_hi (u v : S16x1024x64.Idx → α) (h : Shape.Concatenates [S16x1024x64, S16x1024x64] S16x1024x128 2)
    (b : Fin 16) (n : Fin 1024) (f : Fin 128) (hf : 64 ≤ f.val) :
    concatenate S16x1024x128 2 [⟨S16x1024x64, u⟩, ⟨S16x1024x64, v⟩] h (ix3 b n f)
      = v (ix3 b n ⟨f.val - 64, by omega⟩) :=
  concatenate_pair_apply_right 2 u v h _ rfl rfl _ (fun a ha => by
    match a with
    | ⟨0, _⟩ => rfl
    | ⟨1, _⟩ => rfl
    | ⟨2, _⟩ => exact absurd rfl ha)
    (by show f.val - 64 + 64 = f.val; omega)

/-- Three unit slabs stacked along a new last axis, read in slab 0. -/
theorem cat3_0 (u0 u1 u2 : S16x1024x128x1.Idx → α)
    (h : Shape.Concatenates [S16x1024x128x1, S16x1024x128x1, S16x1024x128x1] S16x1024x128x3 3)
    (b : Fin 16) (n : Fin 1024) (f : Fin 128) :
    concatenate S16x1024x128x3 3 [⟨S16x1024x128x1, u0⟩, ⟨S16x1024x128x1, u1⟩, ⟨S16x1024x128x1, u2⟩] h
      (ix4 b n f (⟨0, by omega⟩ : Fin 3)) = u0 (ix4 b n f (⟨0, by omega⟩ : Fin 1)) :=
  concatenate_apply_piece (t := S16x1024x128x3) 3 [⟨S16x1024x128x1, u0⟩, ⟨S16x1024x128x1, u1⟩, ⟨S16x1024x128x1, u2⟩] h _ 0 (by show 0 < 3; omega) S16x1024x128x1 u0 rfl rfl 0 rfl _ (fun a ha => by
    match a with
    | ⟨0, _⟩ => rfl
    | ⟨1, _⟩ => rfl
    | ⟨2, _⟩ => rfl
    | ⟨3, _⟩ => exact absurd rfl ha) rfl

/-- Three unit slabs stacked along a new last axis, read in slab 1. -/
theorem cat3_1 (u0 u1 u2 : S16x1024x128x1.Idx → α)
    (h : Shape.Concatenates [S16x1024x128x1, S16x1024x128x1, S16x1024x128x1] S16x1024x128x3 3)
    (b : Fin 16) (n : Fin 1024) (f : Fin 128) :
    concatenate S16x1024x128x3 3 [⟨S16x1024x128x1, u0⟩, ⟨S16x1024x128x1, u1⟩, ⟨S16x1024x128x1, u2⟩] h
      (ix4 b n f (⟨1, by omega⟩ : Fin 3)) = u1 (ix4 b n f (⟨0, by omega⟩ : Fin 1)) :=
  concatenate_apply_piece (t := S16x1024x128x3) 3 [⟨S16x1024x128x1, u0⟩, ⟨S16x1024x128x1, u1⟩, ⟨S16x1024x128x1, u2⟩] h _ 1 (by show 1 < 3; omega) S16x1024x128x1 u1 rfl rfl 1 rfl _ (fun a ha => by
    match a with
    | ⟨0, _⟩ => rfl
    | ⟨1, _⟩ => rfl
    | ⟨2, _⟩ => rfl
    | ⟨3, _⟩ => exact absurd rfl ha) rfl

/-- Three unit slabs stacked along a new last axis, read in slab 2. -/
theorem cat3_2 (u0 u1 u2 : S16x1024x128x1.Idx → α)
    (h : Shape.Concatenates [S16x1024x128x1, S16x1024x128x1, S16x1024x128x1] S16x1024x128x3 3)
    (b : Fin 16) (n : Fin 1024) (f : Fin 128) :
    concatenate S16x1024x128x3 3 [⟨S16x1024x128x1, u0⟩, ⟨S16x1024x128x1, u1⟩, ⟨S16x1024x128x1, u2⟩] h
      (ix4 b n f (⟨2, by omega⟩ : Fin 3)) = u2 (ix4 b n f (⟨0, by omega⟩ : Fin 1)) :=
  concatenate_apply_piece (t := S16x1024x128x3) 3 [⟨S16x1024x128x1, u0⟩, ⟨S16x1024x128x1, u1⟩, ⟨S16x1024x128x1, u2⟩] h _ 2 (by show 2 < 3; omega) S16x1024x128x1 u2 rfl rfl 2 rfl _ (fun a ha => by
    match a with
    | ⟨0, _⟩ => rfl
    | ⟨1, _⟩ => rfl
    | ⟨2, _⟩ => rfl
    | ⟨3, _⟩ => exact absurd rfl ha) rfl

end Joins

/-! ### The index maps of the layout operations, at explicit coordinates -/

theorem idx77 (b : Fin 16) (n : Fin 1024) (k : Fin 64) : idx_main_v77 (ix3 b n k) = ix2 b (colOf n k) :=
  funext fun a => Fin.ext (by
    match a with
    | ⟨0, _⟩ => show ((b.val * 1024 + n.val) * 64 + k.val) / 65536 = b.val; omega
    | ⟨1, _⟩ => show ((b.val * 1024 + n.val) * 64 + k.val) % 65536 = n.val * 64 + k.val; omega)

theorem idx78 (b : Fin 16) (n : Fin 1024) (k : Fin 64) : idx_main_v78 (ix3 b n k) = ix2 b (colOf n k) :=
  funext fun a => Fin.ext (by
    match a with
    | ⟨0, _⟩ => show ((b.val * 1024 + n.val) * 64 + k.val) / 65536 = b.val; omega
    | ⟨1, _⟩ => show ((b.val * 1024 + n.val) * 64 + k.val) % 65536 = n.val * 64 + k.val; omega)

theorem lidx80 (b : Fin 16) (n : Fin 1024) (f : Fin 128) (j : Fin 1024) : lidx_main_v80 (ix3 b n f) j = ix3 b n j :=
  funext fun a => by
    match a with
    | ⟨0, _⟩ => rfl
    | ⟨1, _⟩ => rfl
    | ⟨2, _⟩ => rfl
theorem ridx80 (b : Fin 16) (n : Fin 1024) (f : Fin 128) (j : Fin 1024) : ridx_main_v80 (ix3 b n f) j = ix3 b j f :=
  funext fun a => by
    match a with
    | ⟨0, _⟩ => rfl
    | ⟨1, _⟩ => rfl
    | ⟨2, _⟩ => rfl

theorem lidx87 (b : Fin 16) (n : Fin 1024) (f : Fin 128) (j : Fin 1024) : lidx_main_v87 (ix3 b n f) j = ix3 b n j :=
  funext fun a => by
    match a with
    | ⟨0, _⟩ => rfl
    | ⟨1, _⟩ => rfl
    | ⟨2, _⟩ => rfl
theorem ridx87 (b : Fin 16) (n : Fin 1024) (f : Fin 128) (j : Fin 1024) : ridx_main_v87 (ix3 b n f) j = ix3 b j f :=
  funext fun a => by
    match a with
    | ⟨0, _⟩ => rfl
    | ⟨1, _⟩ => rfl
    | ⟨2, _⟩ => rfl

theorem idx82 (b : Fin 16) (n : Fin 1024) (f : Fin 128) (t : Fin 1) : idx_main_v82 (ix4 b n f t) = ix3 b n f :=
  funext fun a => by
    match a with
    | ⟨0, _⟩ => rfl
    | ⟨1, _⟩ => rfl
    | ⟨2, _⟩ => rfl
theorem idx83 (b : Fin 16) (n : Fin 1024) (f : Fin 128) (t : Fin 1) : idx_main_v83 (ix4 b n f t) = ix3 b n f :=
  funext fun a => by
    match a with
    | ⟨0, _⟩ => rfl
    | ⟨1, _⟩ => rfl
    | ⟨2, _⟩ => rfl
theorem idx84 (b : Fin 16) (n : Fin 1024) (f : Fin 128) (t : Fin 1) : idx_main_v84 (ix4 b n f t) = ix3 b n f :=
  funext fun a => by
    match a with
    | ⟨0, _⟩ => rfl
    | ⟨1, _⟩ => rfl
    | ⟨2, _⟩ => rfl
theorem idx89 (b : Fin 16) (n : Fin 1024) (f : Fin 128) (t : Fin 1) : idx_main_v89 (ix4 b n f t) = ix3 b n f :=
  funext fun a => by
    match a with
    | ⟨0, _⟩ => rfl
    | ⟨1, _⟩ => rfl
    | ⟨2, _⟩ => rfl
theorem idx90 (b : Fin 16) (n : Fin 1024) (f : Fin 128) (t : Fin 1) : idx_main_v90 (ix4 b n f t) = ix3 b n f :=
  funext fun a => by
    match a with
    | ⟨0, _⟩ => rfl
    | ⟨1, _⟩ => rfl
    | ⟨2, _⟩ => rfl
theorem idx91 (b : Fin 16) (n : Fin 1024) (f : Fin 128) (t : Fin 1) : idx_main_v91 (ix4 b n f t) = ix3 b n f :=
  funext fun a => by
    match a with
    | ⟨0, _⟩ => rfl
    | ⟨1, _⟩ => rfl
    | ⟨2, _⟩ => rfl

theorem idx86 (b : Fin 16) (n : Fin 1024) (k : Fin 384) :
    idx_main_v86 (ix2 (rowOf b n) k) = ix4 b n (⟨k.val / 3, by omega⟩ : Fin 128) (⟨k.val % 3, by omega⟩ : Fin 3) :=
  funext fun a => Fin.ext (by
    match a with
    | ⟨0, _⟩ => show ((b.val * 1024 + n.val) * 384 + k.val) / 393216 = b.val; omega
    | ⟨1, _⟩ => show ((b.val * 1024 + n.val) * 384 + k.val) / 384 % 1024 = n.val; omega
    | ⟨2, _⟩ => show ((b.val * 1024 + n.val) * 384 + k.val) / 3 % 128 = k.val / 3; omega
    | ⟨3, _⟩ => show ((b.val * 1024 + n.val) * 384 + k.val) % 3 = k.val % 3; omega)

theorem idx93 (b : Fin 16) (n : Fin 1024) (k : Fin 384) :
    idx_main_v93 (ix2 (rowOf b n) k) = ix4 b n (⟨k.val / 3, by omega⟩ : Fin 128) (⟨k.val % 3, by omega⟩ : Fin 3) :=
  funext fun a => Fin.ext (by
    match a with
    | ⟨0, _⟩ => show ((b.val * 1024 + n.val) * 384 + k.val) / 393216 = b.val; omega
    | ⟨1, _⟩ => show ((b.val * 1024 + n.val) * 384 + k.val) / 384 % 1024 = n.val; omega
    | ⟨2, _⟩ => show ((b.val * 1024 + n.val) * 384 + k.val) / 3 % 128 = k.val / 3; omega
    | ⟨3, _⟩ => show ((b.val * 1024 + n.val) * 384 + k.val) % 3 = k.val % 3; omega)

theorem lidx94 (r : Fin 16384) (o : Fin 64) (k : Fin 384) : lidx_main_v94 (ix2 r o) k = ix2 r k :=
  funext fun a => by
    match a with
    | ⟨0, _⟩ => rfl
    | ⟨1, _⟩ => rfl
theorem ridx94 (r : Fin 16384) (o : Fin 64) (k : Fin 384) : ridx_main_v94 (ix2 r o) k = ix2 k o :=
  funext fun a => by
    match a with
    | ⟨0, _⟩ => rfl
    | ⟨1, _⟩ => rfl

theorem lidx98 (r : Fin 16384) (o : Fin 64) (k : Fin 384) : lidx_main_v98 (ix2 r o) k = ix2 r k :=
  funext fun a => by
    match a with
    | ⟨0, _⟩ => rfl
    | ⟨1, _⟩ => rfl
theorem ridx98 (r : Fin 16384) (o : Fin 64) (k : Fin 384) : ridx_main_v98 (ix2 r o) k = ix2 k o :=
  funext fun a => by
    match a with
    | ⟨0, _⟩ => rfl
    | ⟨1, _⟩ => rfl

theorem idx96 (r : Fin 16384) (o : Fin 64) : idx_main_v95 (idx_main_v96 (ix2 r o)) = ix1 o :=
  funext fun a => by
    match a with
    | ⟨0, _⟩ => rfl

theorem idx100 (r : Fin 16384) (o : Fin 64) : idx_main_v99 (idx_main_v100 (ix2 r o)) = ix1 o :=
  funext fun a => by
    match a with
    | ⟨0, _⟩ => rfl

/-- Flat position `b · 65536 + (n · 64 + k)` is row `b · 1024 + n`, column `k`. -/
theorem idx104 (b : Fin 16) (n : Fin 1024) (k : Fin 64) : idx_main_v104 (ix2 b (colOf n k)) = ix2 (rowOf b n) k :=
  funext fun a => Fin.ext (by
    match a with
    | ⟨0, _⟩ => show (b.val * 65536 + (n.val * 64 + k.val)) / 64 = b.val * 1024 + n.val; omega
    | ⟨1, _⟩ => show (b.val * 65536 + (n.val * 64 + k.val)) % 64 = k.val; omega)

/-- An index of a `[16, 65536]` array by batch element, node and unit. -/
theorem split_idx (i : S16x65536.Idx) :
    i = ix2 (⟨(i 0).val, idx2_lt0 i⟩ : Fin 16)
      (colOf ⟨(i 1).val / 64, by have := idx2_lt1 i; omega⟩ ⟨(i 1).val % 64, by omega⟩) :=
  funext fun a => Fin.ext (by
    match a with
    | ⟨0, _⟩ => rfl
    | ⟨1, _⟩ => show (i 1).val = (i 1).val / 64 * 64 + (i 1).val % 64; omega)

/-! ### The operations after the gates, each read at an entry -/

section Chain

variable (x0 x1 : (⟨S16x65536, .f32⟩ : BufTy).Contents (Elt Ideal)) (x2 : (⟨S16x1024x1024, .f32⟩ : BufTy).Contents (Elt Ideal))
  (x3 : (⟨S384x128, .f32⟩ : BufTy).Contents (Elt Ideal)) (x4 : (⟨S128, .f32⟩ : BufTy).Contents (Elt Ideal))
  (x5 : (⟨S384x128, .f32⟩ : BufTy).Contents (Elt Ideal)) (x6 : (⟨S128, .f32⟩ : BufTy).Contents (Elt Ideal))
  (x7 : (⟨S384x64, .f32⟩ : BufTy).Contents (Elt Ideal)) (x8 : (⟨S64, .f32⟩ : BufTy).Contents (Elt Ideal))
  (x9 : (⟨S384x64, .f32⟩ : BufTy).Contents (Elt Ideal)) (x10 : (⟨S64, .f32⟩ : BufTy).Contents (Elt Ideal))

/-- The gate pre-activations of batch element `b`: the plain convolution of inputs and state side by side. -/
def gatePre (b : Fin 16) (n : Fin 1024) (o : Fin 128) : EReal :=
  GruCell.pConv (GruCell.adjAt x2 b) (GruCell.cat (GruCell.node x0 b) (GruCell.node x1 b))
    (GruCell.mat x3) (GruCell.mat x5) (GruCell.vec x4) (GruCell.vec x6) n o

/-- The candidate's features of batch element `b`: the inputs on the left, reset gate times state on the right. -/
def feat (b : Fin 16) : Fin 1024 → Fin 128 → EReal :=
  GruCell.cat (GruCell.node x0 b)
    (fun n k => Ideal.logistic (gatePre x0 x1 x2 x3 x4 x5 x6 b n (GruCell.lo k)) * GruCell.node x1 b n k)

/-- Reset gate times state, flat. -/
theorem v76_at (b : Fin 16) (n : Fin 1024) (k : Fin 64) :
    val_main_v76 (F := Ideal) x0 x1 x2 x3 x4 x5 x6 (ix2 b (colOf n k))
      = Ideal.logistic (gatePre x0 x1 x2 x3 x4 x5 x6 b n (GruCell.lo k)) * GruCell.node x1 b n k := by
  rw [val_main_v76_apply, Ideal.mulf_def, reset_at]; rfl

/-- The inputs by node and unit. -/
theorem v77_at (b : Fin 16) (n : Fin 1024) (k : Fin 64) : val_main_v77 (F := Ideal) x0 (ix3 b n k) = GruCell.node x0 b n k := by
  rw [val_main_v77_apply, idx77]; rfl

/-- Reset gate times state by node and unit. -/
theorem v78_at (b : Fin 16) (n : Fin 1024) (k : Fin 64) :
    val_main_v78 (F := Ideal) x0 x1 x2 x3 x4 x5 x6 (ix3 b n k)
      = Ideal.logistic (gatePre x0 x1 x2 x3 x4 x5 x6 b n (GruCell.lo k)) * GruCell.node x1 b n k := by
  rw [val_main_v78_apply, idx78, v76_at]

/-- The candidate's features. -/
theorem v79_at (b : Fin 16) (n : Fin 1024) (f : Fin 128) : val_main_v79 (F := Ideal) x0 x1 x2 x3 x4 x5 x6 (ix3 b n f) = feat x0 x1 x2 x3 x4 x5 x6 b n f := by
  unfold val_main_v79 feat GruCell.cat
  by_cases hf : f.val < 64
  · rw [cat_pair_lo _ _ _ b n f hf, dif_pos hf, v77_at]
  · rw [cat_pair_hi _ _ _ b n f (by omega), dif_neg hf, v78_at]

/-- One hop of the features along the graph. -/
theorem v80_at (b : Fin 16) (n : Fin 1024) (f : Fin 128) : val_main_v80 (F := Ideal) x0 x1 x2 x3 x4 x5 x6 (ix3 b n f) = GruCell.pHop (GruCell.adjAt x2 b) (feat x0 x1 x2 x3 x4 x5 x6 b) n f := by
  rw [val_main_v80_apply]; unfold GruCell.pHop
  refine Finset.sum_congr rfl fun j _ => ?_
  rw [lidx80, ridx80, walk0_at, v79_at]

/-- One hop of the features along the transposed graph. -/
theorem v87_at (b : Fin 16) (n : Fin 1024) (f : Fin 128) : val_main_v87 (F := Ideal) x0 x1 x2 x3 x4 x5 x6 (ix3 b n f) = GruCell.pHop (fun i j => GruCell.adjAt x2 b j i) (feat x0 x1 x2 x3 x4 x5 x6 b) n f := by
  rw [val_main_v87_apply]; unfold GruCell.pHop
  refine Finset.sum_congr rfl fun j _ => ?_
  rw [lidx87, ridx87, walk1_at, v79_at]

theorem v82_at (b : Fin 16) (n : Fin 1024) (f : Fin 128) (t : Fin 1) :
    val_main_v82 (F := Ideal) x0 x1 x2 x3 x4 x5 x6 (ix4 b n f t) = feat x0 x1 x2 x3 x4 x5 x6 b n f := by
  rw [val_main_v82_apply, idx82, v79_at]

theorem v83_at (b : Fin 16) (n : Fin 1024) (f : Fin 128) (t : Fin 1) :
    val_main_v83 (F := Ideal) x0 x1 x2 x3 x4 x5 x6 (ix4 b n f t) = GruCell.pHop (GruCell.adjAt x2 b) (feat x0 x1 x2 x3 x4 x5 x6 b) n f := by
  rw [val_main_v83_apply, idx83, v80_at]

theorem v84_at (b : Fin 16) (n : Fin 1024) (f : Fin 128) (t : Fin 1) :
    val_main_v84 (F := Ideal) x0 x1 x2 x3 x4 x5 x6 (ix4 b n f t) = GruCell.pHop (GruCell.adjAt x2 b) (feat x0 x1 x2 x3 x4 x5 x6 b) n f := by
  rw [val_main_v84_apply, idx84, v80_at]

theorem v89_at (b : Fin 16) (n : Fin 1024) (f : Fin 128) (t : Fin 1) :
    val_main_v89 (F := Ideal) x0 x1 x2 x3 x4 x5 x6 (ix4 b n f t) = feat x0 x1 x2 x3 x4 x5 x6 b n f := by
  rw [val_main_v89_apply, idx89, v79_at]

theorem v90_at (b : Fin 16) (n : Fin 1024) (f : Fin 128) (t : Fin 1) :
    val_main_v90 (F := Ideal) x0 x1 x2 x3 x4 x5 x6 (ix4 b n f t) = GruCell.pHop (fun i j => GruCell.adjAt x2 b j i) (feat x0 x1 x2 x3 x4 x5 x6 b) n f := by
  rw [val_main_v90_apply, idx90, v87_at]

theorem v91_at (b : Fin 16) (n : Fin 1024) (f : Fin 128) (t : Fin 1) :
    val_main_v91 (F := Ideal) x0 x1 x2 x3 x4 x5 x6 (ix4 b n f t) = GruCell.pHop (fun i j => GruCell.adjAt x2 b j i) (feat x0 x1 x2 x3 x4 x5 x6 b) n f := by
  rw [val_main_v91_apply, idx91, v87_at]

/-- The three diffusion terms of the graph, stacked. -/
theorem v85_at (b : Fin 16) (n : Fin 1024) (f : Fin 128) (t : Fin 3) :
    val_main_v85 (F := Ideal) x0 x1 x2 x3 x4 x5 x6 (ix4 b n f t) = if t.val = 0 then feat x0 x1 x2 x3 x4 x5 x6 b n f else GruCell.pHop (GruCell.adjAt x2 b) (feat x0 x1 x2 x3 x4 x5 x6 b) n f := by
  unfold val_main_v85
  match t with
  | ⟨0, _⟩ => rw [cat3_0, v82_at, if_pos rfl]
  | ⟨1, _⟩ => rw [cat3_1, v83_at, if_neg (by show ¬ (1 : Nat) = 0; decide)]
  | ⟨2, _⟩ => rw [cat3_2, v84_at, if_neg (by show ¬ (2 : Nat) = 0; decide)]

/-- The three diffusion terms of the transposed graph, stacked. -/
theorem v92_at (b : Fin 16) (n : Fin 1024) (f : Fin 128) (t : Fin 3) :
    val_main_v92 (F := Ideal) x0 x1 x2 x3 x4 x5 x6 (ix4 b n f t) = if t.val = 0 then feat x0 x1 x2 x3 x4 x5 x6 b n f else GruCell.pHop (fun i j => GruCell.adjAt x2 b j i) (feat x0 x1 x2 x3 x4 x5 x6 b) n f := by
  unfold val_main_v92
  match t with
  | ⟨0, _⟩ => rw [cat3_0, v89_at, if_pos rfl]
  | ⟨1, _⟩ => rw [cat3_1, v90_at, if_neg (by show ¬ (1 : Nat) = 0; decide)]
  | ⟨2, _⟩ => rw [cat3_2, v91_at, if_neg (by show ¬ (2 : Nat) = 0; decide)]

/-- The stacked terms as 384 interleaved columns. -/
theorem v86_at (b : Fin 16) (n : Fin 1024) (k : Fin 384) :
    val_main_v86 (F := Ideal) x0 x1 x2 x3 x4 x5 x6 (ix2 (rowOf b n) k) = GruCell.pStack (GruCell.adjAt x2 b) (feat x0 x1 x2 x3 x4 x5 x6 b) n k := by
  rw [val_main_v86_apply, idx86, v85_at]; rfl

theorem v93_at (b : Fin 16) (n : Fin 1024) (k : Fin 384) :
    val_main_v93 (F := Ideal) x0 x1 x2 x3 x4 x5 x6 (ix2 (rowOf b n) k) = GruCell.pStack (fun i j => GruCell.adjAt x2 b j i) (feat x0 x1 x2 x3 x4 x5 x6 b) n k := by
  rw [val_main_v93_apply, idx93, v92_at]; rfl

theorem v94_at (b : Fin 16) (n : Fin 1024) (o : Fin 64) :
    val_main_v94 (F := Ideal) x0 x1 x2 x3 x4 x5 x6 x7 (ix2 (rowOf b n) o)
      = ∑ k : Fin 384, GruCell.pStack (GruCell.adjAt x2 b) (feat x0 x1 x2 x3 x4 x5 x6 b) n k * GruCell.mat x7 k o := by
  rw [val_main_v94_apply]
  refine Finset.sum_congr rfl fun k _ => ?_
  rw [lidx94, ridx94, v86_at]; rfl

theorem v98_at (b : Fin 16) (n : Fin 1024) (o : Fin 64) :
    val_main_v98 (F := Ideal) x0 x1 x2 x3 x4 x5 x6 x9 (ix2 (rowOf b n) o)
      = ∑ k : Fin 384, GruCell.pStack (fun i j => GruCell.adjAt x2 b j i) (feat x0 x1 x2 x3 x4 x5 x6 b) n k * GruCell.mat x9 k o := by
  rw [val_main_v98_apply]
  refine Finset.sum_congr rfl fun k _ => ?_
  rw [lidx98, ridx98, v93_at]; rfl

theorem v96_at (r : Fin 16384) (o : Fin 64) : val_main_v96 (F := Ideal) x8 (ix2 r o) = GruCell.vec x8 o := by
  rw [val_main_v96_apply, val_main_v95_apply, idx96]; rfl

theorem v100_at (r : Fin 16384) (o : Fin 64) : val_main_v100 (F := Ideal) x10 (ix2 r o) = GruCell.vec x10 o := by
  rw [val_main_v100_apply, val_main_v99_apply, idx100]; rfl

theorem v97_at (b : Fin 16) (n : Fin 1024) (o : Fin 64) :
    val_main_v97 (F := Ideal) x0 x1 x2 x3 x4 x5 x6 x7 x8 (ix2 (rowOf b n) o)
      = (∑ k : Fin 384, GruCell.pStack (GruCell.adjAt x2 b) (feat x0 x1 x2 x3 x4 x5 x6 b) n k * GruCell.mat x7 k o) + GruCell.vec x8 o := by
  rw [val_main_v97_apply, Ideal.addf_def, v94_at, v96_at]

theorem v101_at (b : Fin 16) (n : Fin 1024) (o : Fin 64) :
    val_main_v101 (F := Ideal) x0 x1 x2 x3 x4 x5 x6 x9 x10 (ix2 (rowOf b n) o)
      = (∑ k : Fin 384, GruCell.pStack (fun i j => GruCell.adjAt x2 b j i) (feat x0 x1 x2 x3 x4 x5 x6 b) n k * GruCell.mat x9 k o) + GruCell.vec x10 o := by
  rw [val_main_v101_apply, Ideal.addf_def, v98_at, v100_at]

/-- The candidate's pre-activation: the plain convolution of the candidate's features. -/
theorem v102_at (b : Fin 16) (n : Fin 1024) (o : Fin 64) :
    val_main_v102 (F := Ideal) x0 x1 x2 x3 x4 x5 x6 x7 x8 x9 x10 (ix2 (rowOf b n) o) = GruCell.pConv (GruCell.adjAt x2 b) (feat x0 x1 x2 x3 x4 x5 x6 b) (GruCell.mat x7) (GruCell.mat x9) (GruCell.vec x8) (GruCell.vec x10) n o := by
  rw [val_main_v102_apply, Ideal.addf_def, v97_at, v101_at]; rfl

/-- The candidate, flat. -/
theorem v104_at (b : Fin 16) (n : Fin 1024) (k : Fin 64) :
    val_main_v104 (F := Ideal) x0 x1 x2 x3 x4 x5 x6 x7 x8 x9 x10 (ix2 b (colOf n k)) = Ideal.tanh (GruCell.pConv (GruCell.adjAt x2 b) (feat x0 x1 x2 x3 x4 x5 x6 b) (GruCell.mat x7) (GruCell.mat x9) (GruCell.vec x8) (GruCell.vec x10) n k) := by
  rw [val_main_v104_apply, idx104, val_main_v103_apply, Ideal.hostUnary_tanh_def, v102_at]

/-- The constant array of ones. -/
theorem v106_at (i : S16x65536.Idx) : val_main_v106 (F := Ideal) i = 1 := by
  rw [val_main_v106_apply, val_main_cst_10_apply, Ideal.ofBits_def, GruCell.one_f32]

end Chain

/-! ### The result -/

/-- The cell with its candidate features written out: the left block of `[I, H]` is `I`. -/
theorem cell_eq (conv128 : (Fin 1024 → Fin 128 → EReal) → Fin 1024 → Fin 128 → EReal)
    (conv64 : (Fin 1024 → Fin 128 → EReal) → Fin 1024 → Fin 64 → EReal)
    (I H : Fin 1024 → Fin 64 → EReal) (n : Fin 1024) (k : Fin 64) :
    GruCell.cell conv128 conv64 I H n k
      = Ideal.logistic (conv128 (GruCell.cat I H) n (GruCell.hi k)) * H n k
        + (1 - Ideal.logistic (conv128 (GruCell.cat I H) n (GruCell.hi k)))
          * Ideal.tanh (conv64 (GruCell.cat I
              (fun n k => Ideal.logistic (conv128 (GruCell.cat I H) n (GruCell.lo k)) * H n k)) n k) := by
  have hI : (fun n k => GruCell.cat I H n (GruCell.lo k)) = I :=
    funext fun n => funext fun k => GruCell.cat_lo I H n k
  unfold GruCell.cell GruCell.cellX
  rw [hI]

section Result

variable (x0 x1 : (⟨S16x65536, .f32⟩ : BufTy).Contents (Elt Ideal)) (x2 : (⟨S16x1024x1024, .f32⟩ : BufTy).Contents (Elt Ideal))
  (x3 : (⟨S384x128, .f32⟩ : BufTy).Contents (Elt Ideal)) (x4 : (⟨S128, .f32⟩ : BufTy).Contents (Elt Ideal))
  (x5 : (⟨S384x128, .f32⟩ : BufTy).Contents (Elt Ideal)) (x6 : (⟨S128, .f32⟩ : BufTy).Contents (Elt Ideal))
  (x7 : (⟨S384x64, .f32⟩ : BufTy).Contents (Elt Ideal)) (x8 : (⟨S64, .f32⟩ : BufTy).Contents (Elt Ideal))
  (x9 : (⟨S384x64, .f32⟩ : BufTy).Contents (Elt Ideal)) (x10 : (⟨S64, .f32⟩ : BufTy).Contents (Elt Ideal))

/-- The result at batch element `b`, node `n`, unit `k`: update gate times state plus its complement times the
    candidate. -/
theorem out_at (b : Fin 16) (n : Fin 1024) (k : Fin 64) :
    val_main_v109 (F := Ideal) x0 x1 x2 x3 x4 x5 x6 x7 x8 x9 x10 (ix2 b (colOf n k)) = GruCell.plainAt x0 x1 x2 x3 x4 x5 x6 x7 x8 x9 x10 b n k := by
  rw [val_main_v109_apply, Ideal.addf_def, val_main_v105_apply, Ideal.mulf_def, val_main_v108_apply, Ideal.mulf_def,
    val_main_v107_apply, Ideal.subf_def, v106_at, update_at, v104_at]
  unfold GruCell.plainAt
  rw [cell_eq]
  rfl

end Result

/-- The reference's result array is the plain cell of the arguments. -/
theorem plain_eq (x0 x1 : (⟨S16x65536, .f32⟩ : BufTy).Contents (Elt Ideal)) (x2 : (⟨S16x1024x1024, .f32⟩ : BufTy).Contents (Elt Ideal)) (x3 : (⟨S384x128, .f32⟩ : BufTy).Contents (Elt Ideal)) (x4 : (⟨S128, .f32⟩ : BufTy).Contents (Elt Ideal)) (x5 : (⟨S384x128, .f32⟩ : BufTy).Contents (Elt Ideal)) (x6 : (⟨S128, .f32⟩ : BufTy).Contents (Elt Ideal)) (x7 : (⟨S384x64, .f32⟩ : BufTy).Contents (Elt Ideal)) (x8 : (⟨S64, .f32⟩ : BufTy).Contents (Elt Ideal)) (x9 : (⟨S384x64, .f32⟩ : BufTy).Contents (Elt Ideal)) (x10 : (⟨S64, .f32⟩ : BufTy).Contents (Elt Ideal)) :
    val_main_v109 (F := Ideal) x0 x1 x2 x3 x4 x5 x6 x7 x8 x9 x10 = GruCell.plainOut x0 x1 x2 x3 x4 x5 x6 x7 x8 x9 x10 := by
  funext i
  exact (congrArg (val_main_v109 (F := Ideal) x0 x1 x2 x3 x4 x5 x6 x7 x8 x9 x10) (split_idx i)).trans (out_at x0 x1 x2 x3 x4 x5 x6 x7 x8 x9 x10 _ _ _)

end Cert.ReferenceIdeal.RunValue

end
-- ==== Proof.lean ====
/-
  The kernel and the reference compute one gated graph-recurrent cell, batch element by batch element: gates
  `σ(conv [inp, h])`, candidate `tanh(conv [inp, r·h])`, new state `u·h + (1 − u)·c`, where `conv` is a two-graph diffusion
  convolution over the random-walk normalisations of `a + I` and of its transpose.

  The reference forms the two random-walk matrices (guarding the inverse degree at zero), multiplies, interleaves the
  diffusion terms `x, A x, A x` into 384 columns and multiplies by the full weight matrices. The kernel never forms the
  matrices: it inverts (column sum + 1) and (row sum + 1) without a guard, computes `inv · (a x + x)`, and folds the repeated
  term and the two graphs' shared term into pre-added weights. On the extended reals the two agree when every input is a real
  number and the adjacency is non-negative (then every degree is at least one, the guard never fires, and the rest is
  distributivity and a rearrangement of real sums): Proof/CellAlgebra.lean, over the specification Proof/CellSpec.lean.
  Proof/PreRead.lean reads those hypotheses off the precondition. Proof/KernelRun.lean (over KernelBody, KernelHost and the
  generated frame) says the idealized kernel program ends at the fused form of its arguments; Proof/RefRun.lean (over RefGates
  and the read-at-an-index module) says the reference's last stage is the plain form, and Proof/RefRunP.lean that the
  reference program ends at that stage. The kernel's idealization rewrote nothing, so `preserves` is trivial.
-/
import proofs.«165569_j9328668967409_2_alg».proof.Defs
import proofs.«165569_j9328668967409_2_alg».proof.Proof.Gen.Kernel
import proofs.«165569_j9328668967409_2_alg».proof.Proof.Gen.Kernel.Skeleton
import proofs.«165569_j9328668967409_2_alg».proof.Proof.Gen.Kernel.Launch
import proofs.«165569_j9328668967409_2_alg».proof.Proof.Gen.Kernel.Points
import proofs.«165569_j9328668967409_2_alg».proof.Proof.Gen.Kernel.Frame
import proofs.«165569_j9328668967409_2_alg».proof.Proof.Gen.KernelIdeal
import proofs.«165569_j9328668967409_2_alg».proof.Proof.Gen.KernelIdeal.Skeleton
import proofs.«165569_j9328668967409_2_alg».proof.Proof.Gen.KernelIdeal.Launch
import proofs.«165569_j9328668967409_2_alg».proof.Proof.Gen.KernelIdeal.Points
import proofs.«165569_j9328668967409_2_alg».proof.Proof.Gen.KernelIdeal.Frame
import proofs.«165569_j9328668967409_2_alg».proof.Proof.Gen.ReferenceIdeal
import proofs.«165569_j9328668967409_2_alg».proof.Proof.Gen.Pre_finite_inputs
import proofs.«165569_j9328668967409_2_alg».proof.Proof.CellSpec
import proofs.«165569_j9328668967409_2_alg».proof.Proof.CellAlgebra
import proofs.«165569_j9328668967409_2_alg».proof.Proof.PreRead
import proofs.«165569_j9328668967409_2_alg».proof.Proof.KernelRun
import proofs.«165569_j9328668967409_2_alg».proof.Proof.RefRunP
import proofs.«165569_j9328668967409_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The kernel program ends at the fused cell of its arguments, the reference at the plain cell of arguments that
    agree with them; under the precondition every argument is real and the adjacency non-negative, where the two
    cells are one function. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.RunValue.plain_eq, e0, e1, e2, e3, e4, e5, e6, e7, e8, e9, e10]
  obtain ⟨h0, h1, h2, h3, h4, h5, h6, h7, h8, h9, h10⟩ := Cert.PreRead.facts _ _ _ _ _ _ _ _ _ _ _ (hpre c)
  exact (GruCell.fusedOut_eq_plainOut _ _ _ _ _ _ _ _ _ _ _ h0 h1 h2 h3 h4 h5 h6 h7 h8 h9 h10).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
